-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_arg5 : FVec F S2048x2048 .f32) (main_arg6 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S4096x2048 .f32) (main_arg1 : FVec F S2048x2048 .f32) (main_arg2 : FVec F S2048 .f32) (main_arg3 : FVec F S2048x2048 .f32) (main_arg4 : FVec F S2048 .f32) (main_arg5 : FVec F S2048x2048 .f32) (main_arg6 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 18
  | .vmem => 23
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S4096x2048, .bf16⟩
  | .hbm, ⟨8, _⟩ => ⟨S2048x2048, .bf16⟩
  | .hbm, ⟨9, _⟩ => ⟨S2048x2048, .bf16⟩
  | .hbm, ⟨10, _⟩ => ⟨S2048x2048, .bf16⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S4096x2048, .bf16⟩
  | .hbm, ⟨15, _⟩ => ⟨S4096x2048, .bf16⟩
  | .hbm, ⟨16, _⟩ => ⟨S4096x2048, .bf16⟩
  | .hbm, ⟨17, _⟩ => ⟨S4096x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S1x2048, .f32⟩
  | .local _ .vmem, ⟨4, _⟩ => ⟨S2048x2048, .bf16⟩
  | .local _ .vmem, ⟨5, _⟩ => ⟨S1x2048, .f32⟩
  | .local _ .vmem, ⟨6, _⟩ => ⟨S2048x2048, .bf16⟩
  | .local _ .vmem, ⟨7, _⟩ => ⟨S1x2048, .f32⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S512x2048, .bf16⟩
  | .local _ .vmem, ⟨15, _⟩ => ⟨S512x2048, .bf16⟩
  | .local _ .vmem, ⟨16, _⟩ => ⟨S1024x2048, .bf16⟩
  | .local _ .vmem, ⟨17, _⟩ => ⟨S1024x2048, .bf16⟩
  | .local _ .vmem, ⟨18, _⟩ => ⟨S1024x2048, .bf16⟩
  | .local _ .vmem, ⟨19, _⟩ => ⟨S1024x2048, .bf16⟩
  | .local _ .vmem, ⟨20, _⟩ => ⟨S512x2048, .f32⟩
  | .local _ .vmem, ⟨21, _⟩ => ⟨S512x2048, .f32⟩
  | .local _ .vmem, ⟨22, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_11 : BitVec 32 := 0#32
  let v19 : BitVec 1 := Scalar.cmpi .ne v18 c0_i32_11
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bitsLt_bf16_f32 : FTy.bits .bf16 < FTy.bits .f32
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  packedbf16_S256x2048_S256x2048_0_0 : (Rect.unit (s := S256x2048) ![0, 0] S256x2048.size inb_S256x2048_S256x2048_0_0).PackedRows (EltTy.packing .bf16)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  dot_S256x2048_S2048x2048_S256x2048_1_1_0_0_n_n_wf : DotDims.WF S256x2048 S2048x2048 S256x2048 [1] [1] [0] [0] [] []
  dot_S512x2048_S1024x2048_S512x1024_1_1_0_0_n_n_wf : DotDims.WF S512x2048 S1024x2048 S512x1024 [1] [1] [0] [0] [] []
  dot_S512x1024_S1024x2048_S512x2048_1_0_0_1_n_n_wf : DotDims.WF S512x1024 S1024x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .bf16 = 32 ∨ (Rect.block (s := S4096x2048) S256x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x2048.size a ≤ S2048x2048.size a
  hwx0_5 : ∀ i : grid0.Coords, EltTy.bits .bf16 = 32 ∨ (Rect.block (s := S2048x2048) S2048x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S4096x2048.size a
  hwx0_7 : ∀ i : grid0.Coords, EltTy.bits .bf16 = 32 ∨ (Rect.block (s := S4096x2048) S256x2048.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x2048.size a ≤ S4096x2048.size a
  hwx0_8 : ∀ i : grid0.Coords, EltTy.bits .bf16 = 32 ∨ (Rect.block (s := S4096x2048) S256x2048.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x2048.size a ≤ S4096x2048.size a
  hwx0_9 : ∀ i : grid0.Coords, EltTy.bits .bf16 = 32 ∨ (Rect.block (s := S4096x2048) S256x2048.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S4096x2048.size a
  hwx1_0 : ∀ i : grid1.Coords, EltTy.bits .bf16 = 32 ∨ (Rect.block (s := S4096x2048) S512x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S4096x2048.size a
  hwx1_1 : ∀ i : grid1.Coords, EltTy.bits .bf16 = 32 ∨ (Rect.block (s := S4096x2048) S1024x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x2048.size a ≤ S4096x2048.size a
  hwx1_2 : ∀ i : grid1.Coords, EltTy.bits .bf16 = 32 ∨ (Rect.block (s := S4096x2048) S1024x2048.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S4096x2048.size a
  hwx1_3 : ∀ i : grid1.Coords, EltTy.bits .f32 = 32 ∨ (Rect.block (s := S4096x2048) S512x2048.size (cc1_transform_3 i) (hinb1_3 i)).WholeWords (EltTy.packing .f32)

variable [Facts₀]

def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf
def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2048x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7_0) S256x2048.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7_1) S256x2048.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v7_2) S256x2048.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v7_0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_1) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7_2) S1024x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S2048x4096 : Shape := ⟨2, ![2048, 4096]⟩
abbrev S4096x4096 : Shape := ⟨2, ![4096, 4096]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S4096x2048, .f32⟩
  | .hbm, ⟨9, _⟩ => ⟨S1x2048, .f32⟩
  | .hbm, ⟨10, _⟩ => ⟨S4096x2048, .f32⟩
  | .hbm, ⟨11, _⟩ => ⟨S4096x2048, .f32⟩
  | .hbm, ⟨12, _⟩ => ⟨S2048x2048, .f32⟩
  | .hbm, ⟨13, _⟩ => ⟨S4096x2048, .f32⟩
  | .hbm, ⟨14, _⟩ => ⟨S1x2048, .f32⟩
  | .hbm, ⟨15, _⟩ => ⟨S4096x2048, .f32⟩
  | .hbm, ⟨16, _⟩ => ⟨S4096x2048, .f32⟩
  | .hbm, ⟨17, _⟩ => ⟨S2048x2048, .f32⟩
  | .hbm, ⟨18, _⟩ => ⟨S4096x2048, .f32⟩
  | .hbm, ⟨19, _⟩ => ⟨S1x2048, .f32⟩
  | .hbm, ⟨20, _⟩ => ⟨S4096x2048, .f32⟩
  | .hbm, ⟨21, _⟩ => ⟨S4096x2048, .f32⟩
  | .hbm, ⟨22, _⟩ => ⟨S2048x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  transposes_S2048x2048_S2048x2048_1_0 : S2048x2048.Transposes [1, 0] S2048x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  transposes_S4096x2048_S2048x4096_1_0 : S4096x2048.Transposes [1, 0] S2048x4096
  bcast_S_S4096x4096 : S_.BroadcastsInDim S4096x4096 (![] : Fin 0 → Fin S4096x4096.rank)
  dot_S4096x2048_S2048x2048_S4096x2048_1_0_0_1_n_n_wf : DotDims.WF S4096x2048 S2048x2048 S4096x2048 [1] [0] [0] [1] [] []
  dot_S4096x2048_S2048x4096_S4096x4096_1_0_0_1_n_n_wf : DotDims.WF S4096x2048 S2048x4096 S4096x4096 [1] [0] [0] [1] [] []
  dot_S4096x4096_S4096x2048_S4096x2048_1_0_0_1_n_n_wf : DotDims.WF S4096x4096 S4096x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf
def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf

class Facts : Prop extends Facts₀ where

variable [Facts]
-- ==== Proof.BitsFrame.Qkv.lean ====
/- The first kernel region (the three linear projections), as one half of the program's frame, at any float
   instance and at a PARAMETER `V`: the contents of the core's buffers when the region is entered.
   A grid point t of 16 stages rows [256 t, 256 t + 256) of x and the whole of the three weight matrices and bias
   rows; the body loads each staged block whole, and stores three whole blocks: the projections of those 256 rows.
   So after the body each output block is one pure function (`projQ`, `projK`, `projV`) of the staged input blocks,
   and the proof data of the pipeline says exactly that. -/
import proofs.«106262_j50783693308389_2_alg».proof.Proof.Gen.Kernel.Launch
import proofs.«106262_j50783693308389_2_alg».proof.Proof.Gen.Kernel.Skeleton
import proofs.«106262_j50783693308389_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The staged blocks -/

/-- Window `w`'s block at grid point `t`, read off the window's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: the body leaves
    an input's buffer as it found it, and where the pipeline does not fetch, the block index has not moved. -/
theorem found0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Input window 1's current staging buffer holds its block at every point, fetched there or not: the body leaves
    an input's buffer as it found it, and where the pipeline does not fetch, the block index has not moved. -/
theorem found0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Input window 2's current staging buffer holds its block at every point, fetched there or not: the body leaves
    an input's buffer as it found it, and where the pipeline does not fetch, the block index has not moved. -/
theorem found0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- Input window 3's current staging buffer holds its block at every point, fetched there or not: the body leaves
    an input's buffer as it found it, and where the pipeline does not fetch, the block index has not moved. -/
theorem found0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-- Input window 4's current staging buffer holds its block at every point, fetched there or not: the body leaves
    an input's buffer as it found it, and where the pipeline does not fetch, the block index has not moved. -/
theorem found0_4_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)

/-- Input window 5's current staging buffer holds its block at every point, fetched there or not: the body leaves
    an input's buffer as it found it, and where the pipeline does not fetch, the block index has not moved. -/
theorem found0_5_of {c : Dev nD} (dat : Dat τ (Elt F) Unit ℕ (UR sig nD τ) ℕ cfg0 c) (hA : dat.A 5 = V c (Pipeline.arrRef spec0 5))
    (hafter : ∀ t, dat.after 5 t = blk0 V c 5 t) (t : Fin cfg0.N) (d) : dat.before 5 t d = blk0 V c 5 t :=
  (dat.before_in_eq_fetched 5 rfl (fun _ => rfl) (fun _ _ _ => rfl) (fun t => by rw [hafter]; unfold Dat.blockOf blk0; rw [hA]; try rfl) t d).trans
    (by unfold Dat.fetched Dat.blockOf blk0; rw [hA]; try rfl)

/-- Input window 6's current staging buffer holds its block at every point, fetched there or not: the body leaves
    an input's buffer as it found it, and where the pipeline does not fetch, the block index has not moved. -/
theorem found0_6_of {c : Dev nD} (dat : Dat τ (Elt F) Unit ℕ (UR sig nD τ) ℕ cfg0 c) (hA : dat.A 6 = V c (Pipeline.arrRef spec0 6))
    (hafter : ∀ t, dat.after 6 t = blk0 V c 6 t) (t : Fin cfg0.N) (d) : dat.before 6 t d = blk0 V c 6 t :=
  (dat.before_in_eq_fetched 6 rfl (fun _ => rfl) (fun _ _ _ => rfl) (fun t => by rw [hafter]; unfold Dat.blockOf blk0; rw [hA]; try rfl) t d).trans
    (by unfold Dat.fetched Dat.blockOf blk0; rw [hA]; try rfl)

/-! ## What the body stores -/

/-- The whole block of each staged shape: every load and store of the body is of one of these. -/
abbrev rX : Rect S256x2048 := Rect.unit (s := S256x2048) ![0, 0] S256x2048.size inb_S256x2048_S256x2048_0_0
abbrev rW : Rect S2048x2048 := Rect.unit (s := S2048x2048) ![0, 0] S2048x2048.size inb_S2048x2048_S2048x2048_0_0
abbrev rB : Rect S1x2048 := Rect.unit (s := S1x2048) ![0, 0] S1x2048.size inb_S1x2048_S1x2048_0_0

/-- The scaled query projection of the staged rows: the one store into output window 7. -/
def projQ (x : Vec F S256x2048 .bf16) (w : Vec F S2048x2048 .bf16) (b : Vec F S1x2048 .f32) : Vec F S256x2048 .bf16 :=
  View.canon [⟨rX, k0_pay2 (View.ld x rX) (View.ld w rW) (View.ld b rB)⟩]
/-- The key projection of the staged rows: the one store into output window 8. -/
def projK (x : Vec F S256x2048 .bf16) (w : Vec F S2048x2048 .bf16) (b : Vec F S1x2048 .f32) : Vec F S256x2048 .bf16 :=
  View.canon [⟨rX, k0_pay3 (View.ld x rX) (View.ld w rW) (View.ld b rB)⟩]
/-- The value projection of the staged rows: the one store into output window 9. -/
def projV (x : Vec F S256x2048 .bf16) (w : Vec F S2048x2048 .bf16) (b : Vec F S1x2048 .f32) : Vec F S256x2048 .bf16 :=
  View.canon [⟨rX, k0_pay4 (View.ld x rX) (View.ld w rW) (View.ld b rB)⟩]

/-- One whole-block store covers the block. -/
theorem coverX (p0 : Vec F S256x2048 .bf16) (y : S256x2048.Idx) :
    ∃ pc ∈ ([⟨rX, p0⟩] : List (View.Piece (Elt F) S256x2048 .bf16)), y ∈ pc.1.set :=
  View.cover_of_tiled [⟨rX, p0⟩] S256x2048.size (by rfl) y

/-! ## The body's triple -/

set_option maxHeartbeats 4000000 in
/-- On whole staging memrefs, the seven inputs' at contents `x·` and the three outputs' at anything, the body runs to a
    state holding the inputs' as they were and the outputs' at the three projections. -/
theorem sound_qkv (c : Dev nD) (E : Set ℕ) (i : grid0.Coords)
    (a1 : Memref sig .tc .vmem S256x2048 .bf16) (h1 : a1.IsWhole) (a2 : Memref sig .tc .vmem S2048x2048 .bf16) (h2 : a2.IsWhole)
    (a3 : Memref sig .tc .vmem S1x2048 .f32) (h3 : a3.IsWhole) (a4 : Memref sig .tc .vmem S2048x2048 .bf16) (h4 : a4.IsWhole)
    (a5 : Memref sig .tc .vmem S1x2048 .f32) (h5 : a5.IsWhole) (a6 : Memref sig .tc .vmem S2048x2048 .bf16) (h6 : a6.IsWhole)
    (a7 : Memref sig .tc .vmem S1x2048 .f32) (h7 : a7.IsWhole) (a8 : Memref sig .tc .vmem S256x2048 .bf16) (h8 : a8.IsWhole)
    (a9 : Memref sig .tc .vmem S256x2048 .bf16) (h9 : a9.IsWhole) (a10 : Memref sig .tc .vmem S256x2048 .bf16) (h10 : a10.IsWhole)
    (x0 : Vec F S256x2048 .bf16) (x1 : Vec F S2048x2048 .bf16) (x2 : Vec F S1x2048 .f32) (x3 : Vec F S2048x2048 .bf16)
    (x4 : Vec F S1x2048 .f32) (x5 : Vec F S2048x2048 .bf16) (x6 : Vec F S1x2048 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6
        ∗ (∃ d, owns (c : Thread nD τ) a8 fullShare d) ∗ (∃ d, owns (c : Thread nD τ) a9 fullShare d) ∗ (∃ d, owns (c : Thread nD τ) a10 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare x6
            ∗ owns (c : Thread nD τ) a8 fullShare (projQ x0 x1 x2) ∗ owns (c : Thread nD τ) a9 fullShare (projK x0 x3 x4)
            ∗ owns (c : Thread nD τ) a10 fullShare (projV x0 x5 x6)) -∗ K ⟨⟩))
      ⊢ wp frame (wpE (defs₀ (F := F)) Variants.none c none) E (cc0__qkv_kernel i a1 h1 a2 h2 a3 h3 a4 h4 a5 h5 a6 h6 a7 h7 a8 h8 a9 h9 a10 h10) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverX _)
  isplitl [H8]
  · iexists _; isplitr
    swap; · iexact H8
    ipureintro
    exact View.read_writes_eq_canon _ _ _ (coverX _)
  iexists _; isplitr
  swap; · iexact H9
  ipureintro
  exact View.read_writes_eq_canon _ _ _ (coverX _)

end Cert.Kernel.Fr

end
-- ==== Proof.BitsFrame.QkvData.lean ====
/- The first kernel region's proof data and body obligation, at any float instance and at the entry contents `V`:
   after the body at point t each input's staging buffer still holds its block, and the three outputs' hold the three
   projections of the staged rows; the region's invariant is the untouched scoped rest; nothing is owed. -/
import proofs.«106262_j50783693308389_2_alg».proof.Proof.BitsFrame.Qkv

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => projQ (blk0 V c 0 t) (blk0 V c 1 t) (blk0 V c 2 t)
    | ⟨8, _⟩ => projK (blk0 V c 0 t) (blk0 V c 3 t) (blk0 V c 4 t)
    | ⟨9, _⟩ => projV (blk0 V c 0 t) (blk0 V c 5 t) (blk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = blk0 V c 6 t := by dsimp only [dat0]
theorem after0_7 (c : Dev nD) (t : Fin cfg0.N) : (dat0 V c).after 7 t = projQ (blk0 V c 0 t) (blk0 V c 1 t) (blk0 V c 2 t) := by dsimp only [dat0]
theorem after0_8 (c : Dev nD) (t : Fin cfg0.N) : (dat0 V c).after 8 t = projK (blk0 V c 0 t) (blk0 V c 3 t) (blk0 V c 4 t) := by dsimp only [dat0]
theorem after0_9 (c : Dev nD) (t : Fin cfg0.N) : (dat0 V c).after 9 t = projV (blk0 V c 0 t) (blk0 V c 5 t) (blk0 V c 6 t) := by dsimp only [dat0]

theorem found0_0 (c : Dev nD) (t : Fin cfg0.N) (d) : (dat0 V c).before 0 t d = blk0 V c 0 t :=
  found0_0_of V (dat0 V c) (A_eq0 V c 0) (after0_0 V c) t d
theorem found0_1 (c : Dev nD) (t : Fin cfg0.N) (d) : (dat0 V c).before 1 t d = blk0 V c 1 t :=
  found0_1_of V (dat0 V c) (A_eq0 V c 1) (after0_1 V c) t d
theorem found0_2 (c : Dev nD) (t : Fin cfg0.N) (d) : (dat0 V c).before 2 t d = blk0 V c 2 t :=
  found0_2_of V (dat0 V c) (A_eq0 V c 2) (after0_2 V c) t d
theorem found0_3 (c : Dev nD) (t : Fin cfg0.N) (d) : (dat0 V c).before 3 t d = blk0 V c 3 t :=
  found0_3_of V (dat0 V c) (A_eq0 V c 3) (after0_3 V c) t d
theorem found0_4 (c : Dev nD) (t : Fin cfg0.N) (d) : (dat0 V c).before 4 t d = blk0 V c 4 t :=
  found0_4_of V (dat0 V c) (A_eq0 V c 4) (after0_4 V c) t d
theorem found0_5 (c : Dev nD) (t : Fin cfg0.N) (d) : (dat0 V c).before 5 t d = blk0 V c 5 t :=
  found0_5_of V (dat0 V c) (A_eq0 V c 5) (after0_5 V c) t d
theorem found0_6 (c : Dev nD) (t : Fin cfg0.N) (d) : (dat0 V c).before 6 t d = blk0 V c 6 t :=
  found0_6_of V (dat0 V c) (A_eq0 V c 6) (after0_6 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 2000000 in
/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [found0_0, found0_1, found0_2, found0_3, found0_4, found0_5, found0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_qkv c Set.univ _ _ _ _ _ _ _ _ _ _ _ _ _ _ _ _ _ _ _ _ _ (blk0 V c 0 t) (blk0 V c 1 t) (blk0 V c 2 t) (blk0 V c 3 t) (blk0 V c 4 t) (blk0 V c 5 t) (blk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.BitsFrame.AttnCommon.lean ====
/- The second kernel region (scores times values, accumulated over key blocks), the part every case of its body
   shares, at any float instance and at a parameter `V` (the buffers' contents when the region is entered).
   The grid is 8 x 4: point t = 4 i + j stages query rows [512 i, 512 i + 512) and key / value rows
   [1024 j, 1024 j + 1024). The body zeroes its accumulator when j = 0, adds this key block's contribution, and
   copies the accumulator to the output block when j = 3; the output window is idle (neither stored nor written
   back) at the other points. Here: the two conditions in closed form, where the output is idle, the memrefs the
   pipeline passes, and the scoped buffers the region's invariant carries besides the accumulator. -/
import proofs.«106262_j50783693308389_2_alg».proof.Proof.BitsFrame.Qkv

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The staged blocks -/

/-- Window `w`'s block at grid point `t`, read off the window's array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem found1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1's current staging buffer holds its block at every point, fetched there or not. -/
theorem found1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Input window 2's current staging buffer holds its block at every point, fetched there or not. -/
theorem found1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-! ## The body's two conditions -/

/-- "This is the first key block" (j = 0), as the body computes it from the grid coordinates. -/
abbrev isFirst (i : grid1.Coords) : Prop := (Scalar.cmpi .ne (Scalar.extui (Scalar.cmpi .eq (BitVec.ofNat 32 (i 1).val) 0#32)) 0#32) = 1#1
/-- It holds exactly at the points ≡ 0 (mod 4). -/
theorem isFirst_iff : ∀ t : Fin cfg1.N, isFirst (grid1.coords t) ↔ t.val % 4 = 0 :=
  (by decide +kernel : ∀ t : Fin grid1.N, isFirst (grid1.coords t) ↔ t.val % 4 = 0)

/-- "This is the last key block" (j = 3). -/
abbrev isLast (i : grid1.Coords) : Prop := k1_cond2 i = 1#1
/-- It holds exactly at the points ≡ 3 (mod 4). -/
theorem isLast_iff : ∀ t : Fin cfg1.N, isLast (grid1.coords t) ↔ t.val % 4 = 3 :=
  (by decide +kernel : ∀ t : Fin grid1.N, isLast (grid1.coords t) ↔ t.val % 4 = 3)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Away from the last key block the output window is idle and is not written back. -/
theorem idle1_3 : ∀ t : Fin cfg1.N, ¬isLast (grid1.coords t) → cfg1.idle 3 (grid1.coords t) = true := by decide +kernel
theorem noFlush1_3 : ∀ t : Fin cfg1.N, ¬isLast (grid1.coords t) → (cfg1.win 3).flush t = false := by decide +kernel
/-- At the last key block it is live. -/
theorem live1_3 : ∀ t : Fin cfg1.N, isLast (grid1.coords t) → cfg1.idle 3 (grid1.coords t) = false := by decide +kernel

/-! ## The memrefs the pipeline passes -/

abbrev ms1_0 (t : Fin cfg1.N) : Memref sig .tc .vmem S512x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x2048 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x2048 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev accM : Memref sig .tc .vmem S512x2048 .f32 := Memref.whole cc1_scratch0
/-- The accumulator and one staging buffer of the output window as views: contents are stated through them. -/
abbrev accV : View sig .tc .vmem S512x2048 .f32 := accM.view
abbrev outV : View sig .tc .vmem S512x2048 .f32 := (Memref.whole cc1_stg3_0 : Memref sig .tc .vmem S512x2048 .f32).view

/-! ## The scoped buffers beside the accumulator -/

/-- The first region's staging buffers, each whole at some contents: scoped buffers this region never touches. -/
def idleStages (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg7_0), ((c : Thread nD τ).loc cc0_stg7_0) ↦{fullShare} f)
      ∗ (∃ f : Buf (Elt F) ((c : Thread nD τ).loc cc0_stg7_1), ((c : Thread nD τ).loc cc0_stg7_1) ↦{fullShare} f)
      ∗ (∃ f : Buf (Elt F) ((c : Thread nD τ).loc cc0_stg8_0), ((c : Thread nD τ).loc cc0_stg8_0) ↦{fullShare} f)
      ∗ (∃ f : Buf (Elt F) ((c : Thread nD τ).loc cc0_stg8_1), ((c : Thread nD τ).loc cc0_stg8_1) ↦{fullShare} f)
      ∗ (∃ f : Buf (Elt F) ((c : Thread nD τ).loc cc0_stg9_0), ((c : Thread nD τ).loc cc0_stg9_0) ↦{fullShare} f)
      ∗ (∃ f : Buf (Elt F) ((c : Thread nD τ).loc cc0_stg9_1), ((c : Thread nD τ).loc cc0_stg9_1) ↦{fullShare} f))

/-- The region's scoped rest is those buffers and the accumulator at some contents, -/
theorem scopedRest1_split (c : Dev nD) :
    (Pipeline.scopedRest (Ix := Unit) (Name := ℕ) (U := UR sig nD τ) (Lvl := ℕ) (Val := Elt F) spec1 c : sProp 𝕄)
      ⊢ iprop(idleStages (F := F) c ∗ ∃ d, owns (c : Thread nD τ) accM fullShare d) := by
  rw [scopedRest1_eq]; unfold idleStages; simp only [accM, owns_whole]
  iintro ⟨A0, A1, A2, A3, A4, A5, A6, A7, A8, A9, A10, A11, A12, A13, HS⟩
  isplitr [HS]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    iexact A13
  · iexact HS

/-- and conversely. -/
theorem scopedRest1_join (c : Dev nD) :
    iprop(idleStages (F := F) c ∗ ∃ d, owns (c : Thread nD τ) accM fullShare d)
      ⊢ (Pipeline.scopedRest (Ix := Unit) (Name := ℕ) (U := UR sig nD τ) (Lvl := ℕ) (Val := Elt F) spec1 c : sProp 𝕄) := by
  rw [scopedRest1_eq]; unfold idleStages; simp only [accM, owns_whole]
  iintro ⟨⟨A0, A1, A2, A3, A4, A5, A6, A7, A8, A9, A10, A11, A12, A13⟩, HS⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  iexact HS

end Cert.Kernel.Fr

end
-- ==== Proof.BitsFrame.AttnRunA.lean ====
/- The attention body run whole at the first key block (j = 0): the accumulator, found at anything, is zeroed and then holds this block's contribution; the output block is left untouched. The stores each buffer ends with (last first) are found by running
   the body symbolically; the triple is carried with them. -/
import proofs.«106262_j50783693308389_2_alg».proof.Proof.BitsFrame.AttnCommon

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the query, key and value blocks at `x0`, `x1`, `x2` — the body runs to a state holding
    the three inputs as they were, the accumulator with the pieces `LS` written, and the output block as it was. -/
noncomputable def attnRunA (c : Dev nD) (i : grid1.Coords)
    (a2 : Memref sig .tc .vmem S512x2048 .bf16) (h2 : a2.IsWhole) (a3 : Memref sig .tc .vmem S1024x2048 .bf16) (h3 : a3.IsWhole)
    (a4 : Memref sig .tc .vmem S1024x2048 .bf16) (h4 : a4.IsWhole) (a5 : Memref sig .tc .vmem S512x2048 .f32) (h5 : a5.IsWhole)
    (a6 : Memref sig .tc .vmem S512x2048 .f32) (h6 : a6.IsWhole) (hF : isFirst i) (hL : ¬isLast i)
    (x0 : Vec F S512x2048 .bf16) (x1 : Vec F S1024x2048 .bf16) (x2 : Vec F S1024x2048 .bf16) :
    Σ' (LO : List (View.Piece (Elt F) S512x2048 .f32)), { LS : List (View.Piece (Elt F) S512x2048 .f32) //
      ∀ (xi : Vec F S512x2048 .f32) (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare xi ∗ (∃ d, owns (c : Thread nD τ) a6 fullShare d)
            ∗ (iprop(owns (c : Thread nD τ) a2 fullShare x0 ∗ owns (c : Thread nD τ) a3 fullShare x1 ∗ owns (c : Thread nD τ) a4 fullShare x2
                ∗ owns (c : Thread nD τ) a5 fullShare xi
                ∗ (∃ f, a6.view.loc (c : Thread nD τ) ↦[a6.view.set]{fullShare} a6.view.writes (Elt F) f LS)) -∗ K ⟨⟩))
          ⊢ wp frame (wpE (defs₀ (F := F)) Variants.none c none) E (cc1__attn_kernel i a2 h2 a3 h3 a4 h4 a5 h5 a6 h6) K } := by
  refine ⟨[], ?_, fun xi E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := h2.eq_unread hf0; obtain rfl := h3.eq_unread hf1; obtain rfl := h4.eq_unread hf2; obtain rfl := h5.eq_unread hf3
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    iexists _; iexact HS

end Cert.Kernel.Fr

end
-- ==== Proof.BitsFrame.AttnRunB.lean ====
/- The attention body run whole at a middle key block (j = 1, 2): the accumulator, found at what the point before left, gains this block's contribution; the output block is left untouched. The stores each buffer ends with (last first) are found by running
   the body symbolically; the triple is carried with them. -/
import proofs.«106262_j50783693308389_2_alg».proof.Proof.BitsFrame.AttnCommon

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the query, key and value blocks at `x0`, `x1`, `x2` — the body runs to a state holding
    the three inputs as they were, the accumulator with the pieces `LS` written, and the output block as it was. -/
noncomputable def attnRunB (c : Dev nD) (i : grid1.Coords)
    (a2 : Memref sig .tc .vmem S512x2048 .bf16) (h2 : a2.IsWhole) (a3 : Memref sig .tc .vmem S1024x2048 .bf16) (h3 : a3.IsWhole)
    (a4 : Memref sig .tc .vmem S1024x2048 .bf16) (h4 : a4.IsWhole) (a5 : Memref sig .tc .vmem S512x2048 .f32) (h5 : a5.IsWhole)
    (a6 : Memref sig .tc .vmem S512x2048 .f32) (h6 : a6.IsWhole) (hF : ¬isFirst i) (hL : ¬isLast i)
    (x0 : Vec F S512x2048 .bf16) (x1 : Vec F S1024x2048 .bf16) (x2 : Vec F S1024x2048 .bf16) (xs : Vec F S512x2048 .f32) :
    Σ' (LO : List (View.Piece (Elt F) S512x2048 .f32)), { LS : List (View.Piece (Elt F) S512x2048 .f32) //
      ∀ (xi : Vec F S512x2048 .f32) (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare xi ∗ owns (c : Thread nD τ) a6 fullShare xs
            ∗ (iprop(owns (c : Thread nD τ) a2 fullShare x0 ∗ owns (c : Thread nD τ) a3 fullShare x1 ∗ owns (c : Thread nD τ) a4 fullShare x2
                ∗ owns (c : Thread nD τ) a5 fullShare xi
                ∗ (∃ f, a6.view.loc (c : Thread nD τ) ↦[a6.view.set]{fullShare} a6.view.writes (Elt F) f LS)) -∗ K ⟨⟩))
          ⊢ wp frame (wpE (defs₀ (F := F)) Variants.none c none) E (cc1__attn_kernel i a2 h2 a3 h3 a4 h4 a5 h5 a6 h6) K } := by
  refine ⟨[], ?_, fun xi E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := h2.eq_unread hf0; obtain rfl := h3.eq_unread hf1; obtain rfl := h4.eq_unread hf2; obtain rfl := h5.eq_unread hf3; obtain rfl := h6.eq_unread hfs
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    iexists _; iexact HS

end Cert.Kernel.Fr

end
-- ==== Proof.BitsFrame.AttnRunC.lean ====
/- The attention body run whole at the last key block (j = 3): the accumulator gains this block's contribution and is copied to the output block. The stores each buffer ends with (last first) are found by running
   the body symbolically; the triple is carried with them. -/
import proofs.«106262_j50783693308389_2_alg».proof.Proof.BitsFrame.AttnCommon

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the query, key and value blocks at `x0`, `x1`, `x2` — the body runs to a state holding
    the three inputs as they were, the accumulator with the pieces `LS` written, and the output block with the pieces `LO` written. -/
noncomputable def attnRunC (c : Dev nD) (i : grid1.Coords)
    (a2 : Memref sig .tc .vmem S512x2048 .bf16) (h2 : a2.IsWhole) (a3 : Memref sig .tc .vmem S1024x2048 .bf16) (h3 : a3.IsWhole)
    (a4 : Memref sig .tc .vmem S1024x2048 .bf16) (h4 : a4.IsWhole) (a5 : Memref sig .tc .vmem S512x2048 .f32) (h5 : a5.IsWhole)
    (a6 : Memref sig .tc .vmem S512x2048 .f32) (h6 : a6.IsWhole) (hF : ¬isFirst i) (hL : isLast i)
    (x0 : Vec F S512x2048 .bf16) (x1 : Vec F S1024x2048 .bf16) (x2 : Vec F S1024x2048 .bf16) (xs : Vec F S512x2048 .f32) :
    Σ' (LO : List (View.Piece (Elt F) S512x2048 .f32)), { LS : List (View.Piece (Elt F) S512x2048 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ (∃ d, owns (c : Thread nD τ) a5 fullShare d) ∗ owns (c : Thread nD τ) a6 fullShare xs
            ∗ (iprop(owns (c : Thread nD τ) a2 fullShare x0 ∗ owns (c : Thread nD τ) a3 fullShare x1 ∗ owns (c : Thread nD τ) a4 fullShare x2
                ∗ (∃ f, a5.view.loc (c : Thread nD τ) ↦[a5.view.set]{fullShare} a5.view.writes (Elt F) f LO)
                ∗ (∃ f, a6.view.loc (c : Thread nD τ) ↦[a6.view.set]{fullShare} a6.view.writes (Elt F) f LS)) -∗ K ⟨⟩))
          ⊢ wp frame (wpE (defs₀ (F := F)) Variants.none c none) E (cc1__attn_kernel i a2 h2 a3 h3 a4 h4 a5 h5 a6 h6) K } := by
  refine ⟨?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := h2.eq_unread hf0; obtain rfl := h3.eq_unread hf1; obtain rfl := h4.eq_unread hf2; obtain rfl := h6.eq_unread hfs
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]; · iexists _; iexact H3
    iexists _; iexact HS

end Cert.Kernel.Fr

end
-- ==== Proof.BitsFrame.Attn.lean ====
/- The second kernel region's proof data and body obligation, at any float instance and at the entry contents `V`.
   What the accumulator holds after the body at grid position n is a recursion over n (`accAt`): at a first key
   block the case's stores over anything, otherwise the case's stores over what position n - 1 left. The region's
   invariant before position n + 1 names the accumulator's contents as `accAt n`; before position 0 it is the plain
   scoped rest. The output block after a last key block is that case's stores; elsewhere the window is idle. -/
import proofs.«106262_j50783693308389_2_alg».proof.Proof.BitsFrame.AttnRunA
import proofs.«106262_j50783693308389_2_alg».proof.Proof.BitsFrame.AttnRunB
import proofs.«106262_j50783693308389_2_alg».proof.Proof.BitsFrame.AttnRunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A's stores into the accumulator tile it, so they cover it. -/
theorem accCoverA (c : Dev nD) (i : grid1.Coords) (a2 : Memref sig .tc .vmem S512x2048 .bf16) (h2 : a2.IsWhole) (a3 : Memref sig .tc .vmem S1024x2048 .bf16) (h3 : a3.IsWhole)
    (a4 : Memref sig .tc .vmem S1024x2048 .bf16) (h4 : a4.IsWhole) (a5 : Memref sig .tc .vmem S512x2048 .f32) (h5 : a5.IsWhole)
    (a6 : Memref sig .tc .vmem S512x2048 .f32) (h6 : a6.IsWhole) (hF : isFirst i) (hL : ¬isLast i)
    (x0 : Vec F S512x2048 .bf16) (x1 : Vec F S1024x2048 .bf16) (x2 : Vec F S1024x2048 .bf16) (y : S512x2048.Idx) :
    ∃ pc ∈ (attnRunA c i a2 h2 a3 h3 a4 h4 a5 h5 a6 h6 hF hL x0 x1 x2).2.1, y ∈ pc.1.set :=
  View.cover_of_tiledL (attnRunA c i a2 h2 a3 h3 a4 h4 a5 h5 a6 h6 hF hL x0 x1 x2).2.1 S512x2048.size (by sl_kernel_rfl) y

/-- What case A leaves in the accumulator: its stores read back. -/
def accA (c : Dev nD) (i : grid1.Coords) (a2 : Memref sig .tc .vmem S512x2048 .bf16) (h2 : a2.IsWhole) (a3 : Memref sig .tc .vmem S1024x2048 .bf16) (h3 : a3.IsWhole)
    (a4 : Memref sig .tc .vmem S1024x2048 .bf16) (h4 : a4.IsWhole) (a5 : Memref sig .tc .vmem S512x2048 .f32) (h5 : a5.IsWhole)
    (a6 : Memref sig .tc .vmem S512x2048 .f32) (h6 : a6.IsWhole) (hF : isFirst i) (hL : ¬isLast i)
    (x0 : Vec F S512x2048 .bf16) (x1 : Vec F S1024x2048 .bf16) (x2 : Vec F S1024x2048 .bf16) : Vec F S512x2048 .f32 :=
  accV.read (Elt F) (accV.writes (Elt F) accV.junk (attnRunA c i a2 h2 a3 h3 a4 h4 a5 h5 a6 h6 hF hL x0 x1 x2).2.1)

/-- Case B's stores into the accumulator tile it, so they cover it. -/
theorem accCoverB (c : Dev nD) (i : grid1.Coords) (a2 : Memref sig .tc .vmem S512x2048 .bf16) (h2 : a2.IsWhole) (a3 : Memref sig .tc .vmem S1024x2048 .bf16) (h3 : a3.IsWhole)
    (a4 : Memref sig .tc .vmem S1024x2048 .bf16) (h4 : a4.IsWhole) (a5 : Memref sig .tc .vmem S512x2048 .f32) (h5 : a5.IsWhole)
    (a6 : Memref sig .tc .vmem S512x2048 .f32) (h6 : a6.IsWhole) (hF : ¬isFirst i) (hL : ¬isLast i)
    (x0 : Vec F S512x2048 .bf16) (x1 : Vec F S1024x2048 .bf16) (x2 : Vec F S1024x2048 .bf16) (xs : Vec F S512x2048 .f32) (y : S512x2048.Idx) :
    ∃ pc ∈ (attnRunB c i a2 h2 a3 h3 a4 h4 a5 h5 a6 h6 hF hL x0 x1 x2 xs).2.1, y ∈ pc.1.set :=
  View.cover_of_tiledL (attnRunB c i a2 h2 a3 h3 a4 h4 a5 h5 a6 h6 hF hL x0 x1 x2 xs).2.1 S512x2048.size (by sl_kernel_rfl) y

/-- What case B leaves in the accumulator: its stores read back. -/
def accB (c : Dev nD) (i : grid1.Coords) (a2 : Memref sig .tc .vmem S512x2048 .bf16) (h2 : a2.IsWhole) (a3 : Memref sig .tc .vmem S1024x2048 .bf16) (h3 : a3.IsWhole)
    (a4 : Memref sig .tc .vmem S1024x2048 .bf16) (h4 : a4.IsWhole) (a5 : Memref sig .tc .vmem S512x2048 .f32) (h5 : a5.IsWhole)
    (a6 : Memref sig .tc .vmem S512x2048 .f32) (h6 : a6.IsWhole) (hF : ¬isFirst i) (hL : ¬isLast i)
    (x0 : Vec F S512x2048 .bf16) (x1 : Vec F S1024x2048 .bf16) (x2 : Vec F S1024x2048 .bf16) (xs : Vec F S512x2048 .f32) : Vec F S512x2048 .f32 :=
  accV.read (Elt F) (accV.writes (Elt F) accV.junk (attnRunB c i a2 h2 a3 h3 a4 h4 a5 h5 a6 h6 hF hL x0 x1 x2 xs).2.1)

/-- Case C's stores into the accumulator tile it, so they cover it. -/
theorem accCoverC (c : Dev nD) (i : grid1.Coords) (a2 : Memref sig .tc .vmem S512x2048 .bf16) (h2 : a2.IsWhole) (a3 : Memref sig .tc .vmem S1024x2048 .bf16) (h3 : a3.IsWhole)
    (a4 : Memref sig .tc .vmem S1024x2048 .bf16) (h4 : a4.IsWhole) (a5 : Memref sig .tc .vmem S512x2048 .f32) (h5 : a5.IsWhole)
    (a6 : Memref sig .tc .vmem S512x2048 .f32) (h6 : a6.IsWhole) (hF : ¬isFirst i) (hL : isLast i)
    (x0 : Vec F S512x2048 .bf16) (x1 : Vec F S1024x2048 .bf16) (x2 : Vec F S1024x2048 .bf16) (xs : Vec F S512x2048 .f32) (y : S512x2048.Idx) :
    ∃ pc ∈ (attnRunC c i a2 h2 a3 h3 a4 h4 a5 h5 a6 h6 hF hL x0 x1 x2 xs).2.1, y ∈ pc.1.set :=
  View.cover_of_tiledL (attnRunC c i a2 h2 a3 h3 a4 h4 a5 h5 a6 h6 hF hL x0 x1 x2 xs).2.1 S512x2048.size (by sl_kernel_rfl) y

/-- What case C leaves in the accumulator: its stores read back. -/
def accC (c : Dev nD) (i : grid1.Coords) (a2 : Memref sig .tc .vmem S512x2048 .bf16) (h2 : a2.IsWhole) (a3 : Memref sig .tc .vmem S1024x2048 .bf16) (h3 : a3.IsWhole)
    (a4 : Memref sig .tc .vmem S1024x2048 .bf16) (h4 : a4.IsWhole) (a5 : Memref sig .tc .vmem S512x2048 .f32) (h5 : a5.IsWhole)
    (a6 : Memref sig .tc .vmem S512x2048 .f32) (h6 : a6.IsWhole) (hF : ¬isFirst i) (hL : isLast i)
    (x0 : Vec F S512x2048 .bf16) (x1 : Vec F S1024x2048 .bf16) (x2 : Vec F S1024x2048 .bf16) (xs : Vec F S512x2048 .f32) : Vec F S512x2048 .f32 :=
  accV.read (Elt F) (accV.writes (Elt F) accV.junk (attnRunC c i a2 h2 a3 h3 a4 h4 a5 h5 a6 h6 hF hL x0 x1 x2 xs).2.1)

/-- The last case's store into the output block covers it. -/
theorem outCoverC (c : Dev nD) (i : grid1.Coords) (a2 : Memref sig .tc .vmem S512x2048 .bf16) (h2 : a2.IsWhole) (a3 : Memref sig .tc .vmem S1024x2048 .bf16) (h3 : a3.IsWhole)
    (a4 : Memref sig .tc .vmem S1024x2048 .bf16) (h4 : a4.IsWhole) (a5 : Memref sig .tc .vmem S512x2048 .f32) (h5 : a5.IsWhole)
    (a6 : Memref sig .tc .vmem S512x2048 .f32) (h6 : a6.IsWhole) (hF : ¬isFirst i) (hL : isLast i)
    (x0 : Vec F S512x2048 .bf16) (x1 : Vec F S1024x2048 .bf16) (x2 : Vec F S1024x2048 .bf16) (xs : Vec F S512x2048 .f32) (y : S512x2048.Idx) :
    ∃ pc ∈ (attnRunC c i a2 h2 a3 h3 a4 h4 a5 h5 a6 h6 hF hL x0 x1 x2 xs).1, y ∈ pc.1.set :=
  View.cover_of_tiledL (attnRunC c i a2 h2 a3 h3 a4 h4 a5 h5 a6 h6 hF hL x0 x1 x2 xs).1 S512x2048.size (by sl_kernel_rfl) y

/-- What the last case leaves in the output block: its store read back. -/
def outC (c : Dev nD) (i : grid1.Coords) (a2 : Memref sig .tc .vmem S512x2048 .bf16) (h2 : a2.IsWhole) (a3 : Memref sig .tc .vmem S1024x2048 .bf16) (h3 : a3.IsWhole)
    (a4 : Memref sig .tc .vmem S1024x2048 .bf16) (h4 : a4.IsWhole) (a5 : Memref sig .tc .vmem S512x2048 .f32) (h5 : a5.IsWhole)
    (a6 : Memref sig .tc .vmem S512x2048 .f32) (h6 : a6.IsWhole) (hF : ¬isFirst i) (hL : isLast i)
    (x0 : Vec F S512x2048 .bf16) (x1 : Vec F S1024x2048 .bf16) (x2 : Vec F S1024x2048 .bf16) (xs : Vec F S512x2048 .f32) : Vec F S512x2048 .f32 :=
  outV.read (Elt F) (outV.writes (Elt F) outV.junk (attnRunC c i a2 h2 a3 h3 a4 h4 a5 h5 a6 h6 hF hL x0 x1 x2 xs).1)

/-! ## The accumulator, point by point -/

/-- What the accumulator holds after the body at grid position `n`. -/
def accAt (c : Dev nD) : (n : ℕ) → n < cfg1.N → Vec F S512x2048 .f32
  | 0, hn => accA c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) accM (Memref.isWhole_whole _) ((isFirst_iff ⟨0, hn⟩).mpr (Nat.zero_mod _)) (fun h => (fun h => by (try dsimp only at h); omega) ((isLast_iff ⟨0, hn⟩).mp h)) (blk1 V c 0 ⟨0, hn⟩) (blk1 V c 1 ⟨0, hn⟩) (blk1 V c 2 ⟨0, hn⟩)
  | n + 1, hn =>
    if h0 : (n + 1) % 4 = 0 then
      accA c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM (Memref.isWhole_whole _) ((isFirst_iff ⟨n + 1, hn⟩).mpr h0) (fun h => (fun h => by (try dsimp only at h); omega) ((isLast_iff ⟨n + 1, hn⟩).mp h)) (blk1 V c 0 ⟨n + 1, hn⟩) (blk1 V c 1 ⟨n + 1, hn⟩) (blk1 V c 2 ⟨n + 1, hn⟩)
    else if h1 : (n + 1) % 4 = 3 then
      accC c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM (Memref.isWhole_whole _) (fun h => h0 ((isFirst_iff ⟨n + 1, hn⟩).mp h)) ((isLast_iff ⟨n + 1, hn⟩).mpr h1) (blk1 V c 0 ⟨n + 1, hn⟩) (blk1 V c 1 ⟨n + 1, hn⟩) (blk1 V c 2 ⟨n + 1, hn⟩) (accAt c n (Nat.lt_of_succ_lt hn))
    else
      accB c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM (Memref.isWhole_whole _) (fun h => h0 ((isFirst_iff ⟨n + 1, hn⟩).mp h)) (fun h => h1 ((isLast_iff ⟨n + 1, hn⟩).mp h)) (blk1 V c 0 ⟨n + 1, hn⟩) (blk1 V c 1 ⟨n + 1, hn⟩) (blk1 V c 2 ⟨n + 1, hn⟩) (accAt c n (Nat.lt_of_succ_lt hn))

/-- At a first key block: that case's contents. -/
theorem accAt_first (c : Dev nD) (t : Fin cfg1.N) (h0 : t.val % 4 = 0) (hF : isFirst (grid1.coords t)) (hL : ¬isLast (grid1.coords t)) :
    accAt V c t.val t.isLt = accA c (grid1.coords t) (ms1_0 t) (hs1_0 t) (ms1_1 t) (hs1_1 t) (ms1_2 t) (hs1_2 t) (ms1_3 t) (hs1_3 t) accM (Memref.isWhole_whole _) hF hL (blk1 V c 0 t) (blk1 V c 1 t) (blk1 V c 2 t) := by
  obtain ⟨n, hn⟩ := t
  cases n with
  | zero => exact rfl
  | succ n => exact (dif_pos h0).trans rfl

/-- At a middle key block: that case's contents, over what the point before left. -/
theorem accAt_mid (c : Dev nD) (t : Fin cfg1.N) (h0 : ¬t.val % 4 = 0) (h1 : ¬t.val % 4 = 3) (hF : ¬isFirst (grid1.coords t)) (hL : ¬isLast (grid1.coords t)) :
    accAt V c t.val t.isLt = accB c (grid1.coords t) (ms1_0 t) (hs1_0 t) (ms1_1 t) (hs1_1 t) (ms1_2 t) (hs1_2 t) (ms1_3 t) (hs1_3 t) accM (Memref.isWhole_whole _) hF hL (blk1 V c 0 t) (blk1 V c 1 t) (blk1 V c 2 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- At a last key block: that case's contents, over what the point before left. -/
theorem accAt_last (c : Dev nD) (t : Fin cfg1.N) (h0 : ¬t.val % 4 = 0) (h1 : t.val % 4 = 3) (hF : ¬isFirst (grid1.coords t)) (hL : isLast (grid1.coords t)) :
    accAt V c t.val t.isLt = accC c (grid1.coords t) (ms1_0 t) (hs1_0 t) (ms1_1 t) (hs1_1 t) (ms1_2 t) (hs1_2 t) (ms1_3 t) (hs1_3 t) accM (Memref.isWhole_whole _) hF hL (blk1 V c 0 t) (blk1 V c 1 t) (blk1 V c 2 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output window's staging buffer holds after the body at point `t`: at a last key block that case's store
    over the accumulator the point before left; elsewhere the window is idle and this is never consulted. -/
def outAt (c : Dev nD) (t : Fin cfg1.N) : Vec F S512x2048 .f32 :=
  if h1 : t.val % 4 = 3 then
    outC c (grid1.coords t) (ms1_0 t) (hs1_0 t) (ms1_1 t) (hs1_1 t) (ms1_2 t) (hs1_2 t) (ms1_3 t) (hs1_3 t) accM (Memref.isWhole_whole _) (fun h => (fun h => by omega) ((isFirst_iff t).mp h)) ((isLast_iff t).mpr h1) (blk1 V c 0 t) (blk1 V c 1 t) (blk1 V c 2 t) (accAt V c (t.val - 1) (Nat.lt_of_le_of_lt (Nat.sub_le _ _) t.isLt))
  else outV.read (Elt F) outV.junk

theorem outAt_last (c : Dev nD) (t : Fin cfg1.N) (h1 : t.val % 4 = 3) (hF : ¬isFirst (grid1.coords t)) (hL : isLast (grid1.coords t)) :
    outAt V c t = outC c (grid1.coords t) (ms1_0 t) (hs1_0 t) (ms1_1 t) (hs1_1 t) (ms1_2 t) (hs1_2 t) (ms1_3 t) (hs1_3 t) accM (Memref.isWhole_whole _) hF hL (blk1 V c 0 t) (blk1 V c 1 t) (blk1 V c 2 t) (accAt V c (t.val - 1) (Nat.lt_of_le_of_lt (Nat.sub_le _ _) t.isLt)) := by
  unfold outAt; exact (dif_pos h1).trans rfl

/-! ## The invariant -/

/-- Before position `n`: at the first, the untouched scoped rest; afterwards the idle staging buffers, the accumulator at
    what position `n - 1` left, and the generator register at some state. -/
def PhiS (c : Dev nD) : (n : ℕ) → n ≤ cfg1.N → sProp 𝕄
  | 0, _ => Pipeline.ΦA spec1 c
  | n + 1, hn => iprop(idleStages (F := F) c ∗ owns (c : Thread nD τ) accM fullShare (accAt V c n hn) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(idleStages (F := F) c ∗ owns (c : Thread nD τ) accM fullShare (accAt V c n hn) ∗ (∃ r, prngReg c r)) := rfl

theorem PhiS_pos (c : Dev nD) (n : ℕ) (h : n ≤ cfg1.N) (hz : n ≠ 0) :
    PhiS V c n h = iprop(idleStages (F := F) c ∗ owns (c : Thread nD τ) accM fullShare (accAt V c (n - 1) (by omega)) ∗ (∃ r, prngReg c r)) := by
  cases n with
  | zero => exact absurd rfl hz
  | succ n => rfl

/-- The plain scoped rest hands the body the accumulator at some contents. -/
theorem PhiA_open (c : Dev nD) :
    (Pipeline.ΦA spec1 c : sProp 𝕄) ⊢ iprop(idleStages (F := F) c ∗ (∃ d, owns (c : Thread nD τ) accM fullShare d) ∗ (∃ r, prngReg c r)) := by
  unfold Pipeline.ΦA
  iintro ⟨Hr, Hg⟩
  ihave H := scopedRest1_split (F := F) c $$ Hr
  icases H with ⟨Hi, HS⟩
  isplitl [Hi]; · iexact Hi
  isplitl [HS]; · iexact HS
  iexact Hg

theorem PhiA_close (c : Dev nD) :
    iprop(idleStages (F := F) c ∗ (∃ d, owns (c : Thread nD τ) accM fullShare d) ∗ (∃ r, prngReg c r)) ⊢ (Pipeline.ΦA spec1 c : sProp 𝕄) := by
  unfold Pipeline.ΦA
  iintro ⟨Hi, HS, Hg⟩
  isplitl [Hi HS]
  · iapply scopedRest1_join (F := F) c
    isplitl [Hi]; · iexact Hi
    iexact HS
  iexact Hg

/-! ## The proof data -/

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => outAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = outAt V c t := by dsimp only [dat1]

theorem found1_0 (c : Dev nD) (t : Fin cfg1.N) (d) : (dat1 V c).before 0 t d = blk1 V c 0 t :=
  found1_0_of V (dat1 V c) (A_eq1 V c 0) (after1_0 V c) t d
theorem found1_1 (c : Dev nD) (t : Fin cfg1.N) (d) : (dat1 V c).before 1 t d = blk1 V c 1 t :=
  found1_1_of V (dat1 V c) (A_eq1 V c 1) (after1_1 V c) t d
theorem found1_2 (c : Dev nD) (t : Fin cfg1.N) (d) : (dat1 V c).before 2 t d = blk1 V c 2 t :=
  found1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (blk1 V c 0 t) := by
  unfold Dat.leavesExact; rw [live1_0 t, after1_0]
theorem leaves1_1 (c : Dev nD) (t : Fin cfg1.N) : (dat1 V c).leavesExact 1 t = owns (c : Thread nD τ) (ms1_1 t) fullShare (blk1 V c 1 t) := by
  unfold Dat.leavesExact; rw [live1_1 t, after1_1]
theorem leaves1_2 (c : Dev nD) (t : Fin cfg1.N) : (dat1 V c).leavesExact 2 t = owns (c : Thread nD τ) (ms1_2 t) fullShare (blk1 V c 2 t) := by
  unfold Dat.leavesExact; rw [live1_2 t, after1_2]

set_option maxHeartbeats 4800000 in
/-- The body at any point, by the case the point is in. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [found1_0, found1_1, found1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 32 := lt_of_lt_of_eq t.isLt (show cfg1.N = 32 from N_1)
  by_cases h0 : t.val % 4 = 0
  · have hF : isFirst (grid1.coords t) := (isFirst_iff t).mpr h0
    have hL : ¬isLast (grid1.coords t) := fun h => (fun h => by omega) ((isLast_iff t).mp h)
    rw [Dat.leavesExact_idle (dat1 V c) 3 t (idle1_3 t hL) (noFlush1_3 t hL)]
    rw [accAt_first V c t h0 hF hL]
    unfold accA; (try dsimp only)
    by_cases hz : t.val = 0
    · rw [PhiS_castSucc V c t, PhiS_zero V c _ _ hz]
      iintro ⟨HΦ, Ho, ⟨%d0, H0⟩, ⟨%d1, H1⟩, ⟨%d2, H2⟩, ⟨%d3, H3⟩⟩
      ihave HΦ' := PhiA_open (F := F) c $$ HΦ
      icases HΦ' with ⟨Hi, HS, Hg⟩
      iapply ((attnRunA c (grid1.coords t) _ _ _ _ _ _ _ _ _ _ hF hL (blk1 V c 0 t) (blk1 V c 1 t) (blk1 V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [Hi HS Hg]
      · isplitl [Hi]; · iexact Hi
        isplitl [HS]
        · unfold owns; iexists _; isplitr
          swap; · iexact HS
          ipureintro; exact View.read_writes_of_cover _ _ _ _ _ (accCoverA c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨Hi, HS, Hg⟩, Ho, ⟨%d0, H0⟩, ⟨%d1, H1⟩, ⟨%d2, H2⟩, ⟨%d3, H3⟩⟩
      iapply ((attnRunA c (grid1.coords t) _ _ _ _ _ _ _ _ _ _ hF hL (blk1 V c 0 t) (blk1 V c 1 t) (blk1 V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [Hi HS Hg]
      · isplitl [Hi]; · iexact Hi
        isplitl [HS]
        · unfold owns; iexists _; isplitr
          swap; · iexact HS
          ipureintro; exact View.read_writes_of_cover _ _ _ _ _ (accCoverA c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hF : ¬isFirst (grid1.coords t) := fun h => h0 ((isFirst_iff t).mp h)
    have hz : t.val ≠ 0 := fun e => h0 (by rw [e])
    by_cases h1 : t.val % 4 = 3
    · have hL : isLast (grid1.coords t) := (isLast_iff t).mpr h1
      rw [show (dat1 V c).leavesExact 3 t = owns (c : Thread nD τ) (ms1_3 t) fullShare ((dat1 V c).after 3 t) from by
        unfold Dat.leavesExact; rw [live1_3 t hL], after1_3]
      rw [accAt_last V c t h0 h1 hF hL, outAt_last V c t h1 hF hL]
      unfold accC outC; (try dsimp only)
      rw [PhiS_castSucc V c t, PhiS_pos V c _ _ hz]
      iintro ⟨⟨Hi, HS, Hg⟩, Ho, ⟨%d0, H0⟩, ⟨%d1, H1⟩, ⟨%d2, H2⟩, ⟨%d3, H3⟩⟩
      iapply ((attnRunC c (grid1.coords t) _ _ _ _ _ _ _ _ _ _ hF hL (blk1 V c 0 t) (blk1 V c 1 t) (blk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [Hi HS Hg]
      · isplitl [Hi]; · iexact Hi
        isplitl [HS]
        · unfold owns; iexists _; isplitr
          swap; · iexact HS
          ipureintro; exact View.read_writes_of_cover _ _ _ _ _ (accCoverC c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCoverC c _ _ _ _ _ _ _ _ _ _ _ _ _ _ _ _ _)
    · have hL : ¬isLast (grid1.coords t) := fun h => h1 ((isLast_iff t).mp h)
      rw [Dat.leavesExact_idle (dat1 V c) 3 t (idle1_3 t hL) (noFlush1_3 t hL)]
      rw [accAt_mid V c t h0 h1 hF hL]
      unfold accB; (try dsimp only)
      rw [PhiS_castSucc V c t, PhiS_pos V c _ _ hz]
      iintro ⟨⟨Hi, HS, Hg⟩, Ho, ⟨%d0, H0⟩, ⟨%d1, H1⟩, ⟨%d2, H2⟩, ⟨%d3, H3⟩⟩
      iapply ((attnRunB c (grid1.coords t) _ _ _ _ _ _ _ _ _ _ hF hL (blk1 V c 0 t) (blk1 V c 1 t) (blk1 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [Hi HS Hg]
      · isplitl [Hi]; · iexact Hi
        isplitl [HS]
        · unfold owns; iexists _; isplitr
          swap; · iexact HS
          ipureintro; exact View.read_writes_of_cover _ _ _ _ _ (accCoverB c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem phi_in1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped rest back: the accumulator's named contents are forgotten. -/
theorem phi_out1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 32 := N_1; omega)]
  refine .trans ?_ (PhiA_close (F := F) c)
  iintro ⟨Hi, HS, Hg⟩
  isplitl [Hi]; · iexact Hi
  isplitl [HS]; · iexists _; iexact HS
  iexact Hg

end Cert.Kernel.Fr

end
-- ==== Proof.BitsFrame.Run.lean ====
/- The whole run of the program, at any float instance: @main is a stretch of host operations (four format changes and
   three reshapes) followed by the two kernel regions. The contents of the core's unscoped buffers at each boundary are
   a fold from the launch memory: after the host stretch; after the first region (its three output arrays at what its
   write-backs leave, everything else as entered); after the second region likewise. Each region is a segment over the
   thread state "every unscoped buffer at the boundary's contents, the generator register at some state, nothing owed";
   the second region's invariant, which carries the accumulator, is entered from and left at the plain scoped rest.
   The run's post names every unscoped buffer's final contents; the frame (the arguments end as launched) and the
   result array's contents are read off it. -/
import proofs.«106262_j50783693308389_2_alg».proof.Proof.BitsFrame.QkvData
import proofs.«106262_j50783693308389_2_alg».proof.Proof.BitsFrame.Attn
import proofs.«106262_j50783693308389_2_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch, and after the host stretch (the first region's entry). -/
abbrev W0 : Dev nD → Valuation τ sig (Elt F) := fun c => V0 m c
abbrev W1 : Dev nD → Valuation τ sig (Elt F) := fun c => V1 m c
/-- The same read at the TensorCore's references (what the first region's proof data take). -/
abbrev E1 : (c : Dev nD) → (b : Ref sig .tc) → Buf (Elt F) ((c : Thread nD τ).loc b) := fun c b => W1 m c b
/-- After the first region: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem exit0_arr (c : Dev nD) (w : Fin cfg0.W) : (dat0 (E1 m) c).arrAt w cfg0.N = E2 m c (Pipeline.arrRef spec0 w) :=
  (W2_arr m c w).symm
theorem exit0_rest (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the second region: its arrays at what the pipeline leaves, every other buffer as entered. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem exit1_arr (c : Dev nD) (w : Fin cfg1.W) : (dat1 (E2 m) c).arrAt w cfg1.N = E3 m c (Pipeline.arrRef spec1 w) :=
  (W3_arr m c w).symm
theorem exit1_rest (c : Dev nD) : ∀ b, b ∉ Finset.univ.image (Pipeline.arrRef spec1) → E3 m c b = E2 m c b :=
  fun b hb => W3_of_ne m c b fun w e => hb (Finset.mem_image.mpr ⟨w, Finset.mem_univ _, e⟩)

/-- A buffer that is no array of either region and that no host operation writes ends as launched. -/
theorem W3_untouched (c : Dev nD) (b : Ref sig .tc) (h1 : ∀ w, Pipeline.arrRef spec1 w ≠ b) (h0 : ∀ w, Pipeline.arrRef spec0 w ≠ b)
    (hh : b ∉ hostOps0_W) : W3 m c (Proc.devRef .tc b) = m ((c : Thread nD τ).loc b) :=
  (W3_of_ne m c b h1).trans ((W2_of_ne m c b h0).trans ((V1_of m c b hh).trans rfl))

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
/-- No core owes another anything: no level is assigned. -/
abbrev Lset : GSem nD τ sig → Finset Unit := fun _ => ∅
abbrev lvl : GSem nD τ sig → Unit → ℕ := fun _ _ => 0
/-- What rides beside the buffers through every segment: the generator register at some state and nothing owed. -/
abbrev Ride (c : Dev nD) : sProp 𝕄 := iprop((∃ r, prngReg c r) ∗ ∃ W, owes (c : Thread nD τ) (0 : CellTallies nD τ sig Unit) W)

/-- The host stretch as a segment from the launch contents. -/
abbrev hostSeg : Pipeline.HostSeg (Name := ℕ) (U := UR sig nD τ) (pcfgs (F := F)) defs₀ 𝒱₀ Lset lvl :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) Ride

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the final contents, the register at some state. -/
abbrev Tlast (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The first region: entered from every unscoped buffer at `W1`, left at `W2`. -/
def reg0 : Pipeline.RegionSeg (pcfgs (F := F)) adm (pdats m) () defs₀ 𝒱₀ Lset lvl 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ Lset lvl 0 fun _ _ => rfl
  pre c := iprop(StableHlo.held (c : Thread nD τ) (Pipeline.ucRefs τ sig) (W1 m c) ∗ Ride c)
  post c := iprop(StableHlo.held (c : Thread nD τ) (Pipeline.ucRefs τ sig) (W2 m c) ∗ Ride c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W3`. Its invariant starts as the plain scoped
    rest and ends, after the last point, with the accumulator at named contents, which are forgotten on the way out. -/
def reg1 : Pipeline.RegionSeg (pcfgs (F := F)) adm (pdats m) () defs₀ 𝒱₀ Lset lvl 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ Lset lvl 1 fun _ _ => rfl
  pre c := iprop(StableHlo.held (c : Thread nD τ) (Pipeline.ucRefs τ sig) (W2 m c) ∗ Ride c)
  post c := iprop(Tlast m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec1 c ⊢ (pdats m 1 c).Φ 0 from phi_in1 (E2 m) c)
    unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from phi_out1 (E2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (exit1_arr m c) (exit1_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev mainSegs : List (Pipeline.Seg (pcfgs (F := F)) adm (pdats m) () defs₀ 𝒱₀ Lset lvl) :=
  [ .host (hostSeg m), .region (reg0 m), .region (reg1 m) ]

theorem main_is_segs (c : Dev nD) : main (F := F) c = Pipeline.Seg.run (mainSegs m) := (main_chain c).trans (by chain_rfl)

set_option backward.isDefEq.respectTransparency.types false in
/-- THE RUN: from any memory with zero counters every weakly fair execution of @main terminates, nothing faulting, and
    every unscoped buffer ends at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ Lset lvl m ρ main (mainSegs m)
    (fun c Q => by rw [main_is_segs m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Ride c)) (Tₙ := Tlast m)
    (hch := ⟨fun _ => .rfl, fun _ => .rfl, fun _ => .rfl, fun _ => .rfl⟩)
    (hinit := by
      refine Pipeline.initEach Lset lvl fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W3_untouched m c main_arg0 (by decide) (by decide) (by decide)),
     (h c _ (mem_uc main_arg1 (by decide))).trans (W3_untouched m c main_arg1 (by decide) (by decide) (by decide)),
     (h c _ (mem_uc main_arg2 (by decide))).trans (W3_untouched m c main_arg2 (by decide) (by decide) (by decide)),
     (h c _ (mem_uc main_arg3 (by decide))).trans (W3_untouched m c main_arg3 (by decide) (by decide) (by decide)),
     (h c _ (mem_uc main_arg4 (by decide))).trans (W3_untouched m c main_arg4 (by decide) (by decide) (by decide)),
     (h c _ (mem_uc main_arg5 (by decide))).trans (W3_untouched m c main_arg5 (by decide) (by decide) (by decide)),
     (h c _ (mem_uc main_arg6 (by decide))).trans (W3_untouched m c main_arg6 (by decide) (by decide) (by decide))⟩)
    (run_all m ρ)

/-- The result array ends at what the second region's write-backs leave, and the arguments as launched. -/
theorem run_result : θ_run defs (onTc (τ := τ) (main (F := F))) ⟨m, fun _ => 0, ρ⟩ (fun r => ∀ c : Dev nD,
      r.2.mem ((c.tc : Thread nD τ).loc main_v8) = (dat1 (E2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v8 (by decide))).trans (W3_arr m c 3),
     (h c _ (mem_uc main_arg0 (by decide))).trans (W3_untouched m c main_arg0 (by decide) (by decide) (by decide)),
     (h c _ (mem_uc main_arg1 (by decide))).trans (W3_untouched m c main_arg1 (by decide) (by decide) (by decide)),
     (h c _ (mem_uc main_arg2 (by decide))).trans (W3_untouched m c main_arg2 (by decide) (by decide) (by decide)),
     (h c _ (mem_uc main_arg3 (by decide))).trans (W3_untouched m c main_arg3 (by decide) (by decide) (by decide)),
     (h c _ (mem_uc main_arg4 (by decide))).trans (W3_untouched m c main_arg4 (by decide) (by decide) (by decide)),
     (h c _ (mem_uc main_arg5 (by decide))).trans (W3_untouched m c main_arg5 (by decide) (by decide) (by decide)),
     (h c _ (mem_uc main_arg6 (by decide))).trans (W3_untouched m c main_arg6 (by decide) (by decide) (by decide))⟩)
    (run_all m ρ)

end Cert.Kernel.Fr

end
-- ==== Proof.IdealFrame.Qkv.lean ====
/- The first kernel region (the three linear projections), as one half of the program's frame, at any float
   instance and at a PARAMETER `V`: the contents of the core's buffers when the region is entered.
   A grid point t of 16 stages rows [256 t, 256 t + 256) of x and the whole of the three weight matrices and bias
   rows; the body loads each staged block whole, and stores three whole blocks: the projections of those 256 rows.
   So after the body each output block is one pure function (`projQ`, `projK`, `projV`) of the staged input blocks,
   and the proof data of the pipeline says exactly that. -/
import proofs.«106262_j50783693308389_2_alg».proof.Proof.Gen.KernelIdeal.Launch
import proofs.«106262_j50783693308389_2_alg».proof.Proof.Gen.KernelIdeal.Skeleton
import proofs.«106262_j50783693308389_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The staged blocks -/

/-- Window `w`'s block at grid point `t`, read off the window's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: the body leaves
    an input's buffer as it found it, and where the pipeline does not fetch, the block index has not moved. -/
theorem found0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Input window 1's current staging buffer holds its block at every point, fetched there or not: the body leaves
    an input's buffer as it found it, and where the pipeline does not fetch, the block index has not moved. -/
theorem found0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Input window 2's current staging buffer holds its block at every point, fetched there or not: the body leaves
    an input's buffer as it found it, and where the pipeline does not fetch, the block index has not moved. -/
theorem found0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- Input window 3's current staging buffer holds its block at every point, fetched there or not: the body leaves
    an input's buffer as it found it, and where the pipeline does not fetch, the block index has not moved. -/
theorem found0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-- Input window 4's current staging buffer holds its block at every point, fetched there or not: the body leaves
    an input's buffer as it found it, and where the pipeline does not fetch, the block index has not moved. -/
theorem found0_4_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)

/-- Input window 5's current staging buffer holds its block at every point, fetched there or not: the body leaves
    an input's buffer as it found it, and where the pipeline does not fetch, the block index has not moved. -/
theorem found0_5_of {c : Dev nD} (dat : Dat τ (Elt F) Unit ℕ (UR sig nD τ) ℕ cfg0 c) (hA : dat.A 5 = V c (Pipeline.arrRef spec0 5))
    (hafter : ∀ t, dat.after 5 t = blk0 V c 5 t) (t : Fin cfg0.N) (d) : dat.before 5 t d = blk0 V c 5 t :=
  (dat.before_in_eq_fetched 5 rfl (fun _ => rfl) (fun _ _ _ => rfl) (fun t => by rw [hafter]; unfold Dat.blockOf blk0; rw [hA]; try rfl) t d).trans
    (by unfold Dat.fetched Dat.blockOf blk0; rw [hA]; try rfl)

/-- Input window 6's current staging buffer holds its block at every point, fetched there or not: the body leaves
    an input's buffer as it found it, and where the pipeline does not fetch, the block index has not moved. -/
theorem found0_6_of {c : Dev nD} (dat : Dat τ (Elt F) Unit ℕ (UR sig nD τ) ℕ cfg0 c) (hA : dat.A 6 = V c (Pipeline.arrRef spec0 6))
    (hafter : ∀ t, dat.after 6 t = blk0 V c 6 t) (t : Fin cfg0.N) (d) : dat.before 6 t d = blk0 V c 6 t :=
  (dat.before_in_eq_fetched 6 rfl (fun _ => rfl) (fun _ _ _ => rfl) (fun t => by rw [hafter]; unfold Dat.blockOf blk0; rw [hA]; try rfl) t d).trans
    (by unfold Dat.fetched Dat.blockOf blk0; rw [hA]; try rfl)

/-! ## What the body stores -/

/-- The whole block of each staged shape: every load and store of the body is of one of these. -/
abbrev rX : Rect S256x2048 := Rect.unit (s := S256x2048) ![0, 0] S256x2048.size inb_S256x2048_S256x2048_0_0
abbrev rW : Rect S2048x2048 := Rect.unit (s := S2048x2048) ![0, 0] S2048x2048.size inb_S2048x2048_S2048x2048_0_0
abbrev rB : Rect S1x2048 := Rect.unit (s := S1x2048) ![0, 0] S1x2048.size inb_S1x2048_S1x2048_0_0

/-- The scaled query projection of the staged rows: the one store into output window 7. -/
def projQ (x : Vec F S256x2048 .bf16) (w : Vec F S2048x2048 .bf16) (b : Vec F S1x2048 .f32) : Vec F S256x2048 .bf16 :=
  View.canon [⟨rX, k0_pay2 (View.ld x rX) (View.ld w rW) (View.ld b rB)⟩]
/-- The key projection of the staged rows: the one store into output window 8. -/
def projK (x : Vec F S256x2048 .bf16) (w : Vec F S2048x2048 .bf16) (b : Vec F S1x2048 .f32) : Vec F S256x2048 .bf16 :=
  View.canon [⟨rX, k0_pay3 (View.ld x rX) (View.ld w rW) (View.ld b rB)⟩]
/-- The value projection of the staged rows: the one store into output window 9. -/
def projV (x : Vec F S256x2048 .bf16) (w : Vec F S2048x2048 .bf16) (b : Vec F S1x2048 .f32) : Vec F S256x2048 .bf16 :=
  View.canon [⟨rX, k0_pay4 (View.ld x rX) (View.ld w rW) (View.ld b rB)⟩]

/-- One whole-block store covers the block. -/
theorem coverX (p0 : Vec F S256x2048 .bf16) (y : S256x2048.Idx) :
    ∃ pc ∈ ([⟨rX, p0⟩] : List (View.Piece (Elt F) S256x2048 .bf16)), y ∈ pc.1.set :=
  View.cover_of_tiled [⟨rX, p0⟩] S256x2048.size (by rfl) y

/-! ## The body's triple -/

set_option maxHeartbeats 4000000 in
/-- On whole staging memrefs, the seven inputs' at contents `x·` and the three outputs' at anything, the body runs to a
    state holding the inputs' as they were and the outputs' at the three projections. -/
theorem sound_qkv (c : Dev nD) (E : Set ℕ) (i : grid0.Coords)
    (a1 : Memref sig .tc .vmem S256x2048 .bf16) (h1 : a1.IsWhole) (a2 : Memref sig .tc .vmem S2048x2048 .bf16) (h2 : a2.IsWhole)
    (a3 : Memref sig .tc .vmem S1x2048 .f32) (h3 : a3.IsWhole) (a4 : Memref sig .tc .vmem S2048x2048 .bf16) (h4 : a4.IsWhole)
    (a5 : Memref sig .tc .vmem S1x2048 .f32) (h5 : a5.IsWhole) (a6 : Memref sig .tc .vmem S2048x2048 .bf16) (h6 : a6.IsWhole)
    (a7 : Memref sig .tc .vmem S1x2048 .f32) (h7 : a7.IsWhole) (a8 : Memref sig .tc .vmem S256x2048 .bf16) (h8 : a8.IsWhole)
    (a9 : Memref sig .tc .vmem S256x2048 .bf16) (h9 : a9.IsWhole) (a10 : Memref sig .tc .vmem S256x2048 .bf16) (h10 : a10.IsWhole)
    (x0 : Vec F S256x2048 .bf16) (x1 : Vec F S2048x2048 .bf16) (x2 : Vec F S1x2048 .f32) (x3 : Vec F S2048x2048 .bf16)
    (x4 : Vec F S1x2048 .f32) (x5 : Vec F S2048x2048 .bf16) (x6 : Vec F S1x2048 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6
        ∗ (∃ d, owns (c : Thread nD τ) a8 fullShare d) ∗ (∃ d, owns (c : Thread nD τ) a9 fullShare d) ∗ (∃ d, owns (c : Thread nD τ) a10 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare x6
            ∗ owns (c : Thread nD τ) a8 fullShare (projQ x0 x1 x2) ∗ owns (c : Thread nD τ) a9 fullShare (projK x0 x3 x4)
            ∗ owns (c : Thread nD τ) a10 fullShare (projV x0 x5 x6)) -∗ K ⟨⟩))
      ⊢ wp frame (wpE (defs₀ (F := F)) Variants.none c none) E (cc0__qkv_kernel i a1 h1 a2 h2 a3 h3 a4 h4 a5 h5 a6 h6 a7 h7 a8 h8 a9 h9 a10 h10) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverX _)
  isplitl [H8]
  · iexists _; isplitr
    swap; · iexact H8
    ipureintro
    exact View.read_writes_eq_canon _ _ _ (coverX _)
  iexists _; isplitr
  swap; · iexact H9
  ipureintro
  exact View.read_writes_eq_canon _ _ _ (coverX _)

end Cert.KernelIdeal.Fr

end
-- ==== Proof.IdealFrame.QkvData.lean ====
/- The first kernel region's proof data and body obligation, at any float instance and at the entry contents `V`:
   after the body at point t each input's staging buffer still holds its block, and the three outputs' hold the three
   projections of the staged rows; the region's invariant is the untouched scoped rest; nothing is owed. -/
import proofs.«106262_j50783693308389_2_alg».proof.Proof.IdealFrame.Qkv

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => projQ (blk0 V c 0 t) (blk0 V c 1 t) (blk0 V c 2 t)
    | ⟨8, _⟩ => projK (blk0 V c 0 t) (blk0 V c 3 t) (blk0 V c 4 t)
    | ⟨9, _⟩ => projV (blk0 V c 0 t) (blk0 V c 5 t) (blk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = blk0 V c 6 t := by dsimp only [dat0]
theorem after0_7 (c : Dev nD) (t : Fin cfg0.N) : (dat0 V c).after 7 t = projQ (blk0 V c 0 t) (blk0 V c 1 t) (blk0 V c 2 t) := by dsimp only [dat0]
theorem after0_8 (c : Dev nD) (t : Fin cfg0.N) : (dat0 V c).after 8 t = projK (blk0 V c 0 t) (blk0 V c 3 t) (blk0 V c 4 t) := by dsimp only [dat0]
theorem after0_9 (c : Dev nD) (t : Fin cfg0.N) : (dat0 V c).after 9 t = projV (blk0 V c 0 t) (blk0 V c 5 t) (blk0 V c 6 t) := by dsimp only [dat0]

theorem found0_0 (c : Dev nD) (t : Fin cfg0.N) (d) : (dat0 V c).before 0 t d = blk0 V c 0 t :=
  found0_0_of V (dat0 V c) (A_eq0 V c 0) (after0_0 V c) t d
theorem found0_1 (c : Dev nD) (t : Fin cfg0.N) (d) : (dat0 V c).before 1 t d = blk0 V c 1 t :=
  found0_1_of V (dat0 V c) (A_eq0 V c 1) (after0_1 V c) t d
theorem found0_2 (c : Dev nD) (t : Fin cfg0.N) (d) : (dat0 V c).before 2 t d = blk0 V c 2 t :=
  found0_2_of V (dat0 V c) (A_eq0 V c 2) (after0_2 V c) t d
theorem found0_3 (c : Dev nD) (t : Fin cfg0.N) (d) : (dat0 V c).before 3 t d = blk0 V c 3 t :=
  found0_3_of V (dat0 V c) (A_eq0 V c 3) (after0_3 V c) t d
theorem found0_4 (c : Dev nD) (t : Fin cfg0.N) (d) : (dat0 V c).before 4 t d = blk0 V c 4 t :=
  found0_4_of V (dat0 V c) (A_eq0 V c 4) (after0_4 V c) t d
theorem found0_5 (c : Dev nD) (t : Fin cfg0.N) (d) : (dat0 V c).before 5 t d = blk0 V c 5 t :=
  found0_5_of V (dat0 V c) (A_eq0 V c 5) (after0_5 V c) t d
theorem found0_6 (c : Dev nD) (t : Fin cfg0.N) (d) : (dat0 V c).before 6 t d = blk0 V c 6 t :=
  found0_6_of V (dat0 V c) (A_eq0 V c 6) (after0_6 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 2000000 in
/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [found0_0, found0_1, found0_2, found0_3, found0_4, found0_5, found0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_qkv c Set.univ _ _ _ _ _ _ _ _ _ _ _ _ _ _ _ _ _ _ _ _ _ (blk0 V c 0 t) (blk0 V c 1 t) (blk0 V c 2 t) (blk0 V c 3 t) (blk0 V c 4 t) (blk0 V c 5 t) (blk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.IdealFrame.AttnCommon.lean ====
/- The second kernel region (scores times values, accumulated over key blocks), the part every case of its body
   shares, at any float instance and at a parameter `V` (the buffers' contents when the region is entered).
   The grid is 8 x 4: point t = 4 i + j stages query rows [512 i, 512 i + 512) and key / value rows
   [1024 j, 1024 j + 1024). The body zeroes its accumulator when j = 0, adds this key block's contribution, and
   copies the accumulator to the output block when j = 3; the output window is idle (neither stored nor written
   back) at the other points. Here: the two conditions in closed form, where the output is idle, the memrefs the
   pipeline passes, and the scoped buffers the region's invariant carries besides the accumulator. -/
import proofs.«106262_j50783693308389_2_alg».proof.Proof.IdealFrame.Qkv

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The staged blocks -/

/-- Window `w`'s block at grid point `t`, read off the window's array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem found1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1's current staging buffer holds its block at every point, fetched there or not. -/
theorem found1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Input window 2's current staging buffer holds its block at every point, fetched there or not. -/
theorem found1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-! ## The body's two conditions -/

/-- "This is the first key block" (j = 0), as the body computes it from the grid coordinates. -/
abbrev isFirst (i : grid1.Coords) : Prop := (Scalar.cmpi .ne (Scalar.extui (Scalar.cmpi .eq (BitVec.ofNat 32 (i 1).val) 0#32)) 0#32) = 1#1
/-- It holds exactly at the points ≡ 0 (mod 4). -/
theorem isFirst_iff : ∀ t : Fin cfg1.N, isFirst (grid1.coords t) ↔ t.val % 4 = 0 :=
  (by decide +kernel : ∀ t : Fin grid1.N, isFirst (grid1.coords t) ↔ t.val % 4 = 0)

/-- "This is the last key block" (j = 3). -/
abbrev isLast (i : grid1.Coords) : Prop := k1_cond2 i = 1#1
/-- It holds exactly at the points ≡ 3 (mod 4). -/
theorem isLast_iff : ∀ t : Fin cfg1.N, isLast (grid1.coords t) ↔ t.val % 4 = 3 :=
  (by decide +kernel : ∀ t : Fin grid1.N, isLast (grid1.coords t) ↔ t.val % 4 = 3)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Away from the last key block the output window is idle and is not written back. -/
theorem idle1_3 : ∀ t : Fin cfg1.N, ¬isLast (grid1.coords t) → cfg1.idle 3 (grid1.coords t) = true := by decide +kernel
theorem noFlush1_3 : ∀ t : Fin cfg1.N, ¬isLast (grid1.coords t) → (cfg1.win 3).flush t = false := by decide +kernel
/-- At the last key block it is live. -/
theorem live1_3 : ∀ t : Fin cfg1.N, isLast (grid1.coords t) → cfg1.idle 3 (grid1.coords t) = false := by decide +kernel

/-! ## The memrefs the pipeline passes -/

abbrev ms1_0 (t : Fin cfg1.N) : Memref sig .tc .vmem S512x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x2048 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x2048 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev accM : Memref sig .tc .vmem S512x2048 .f32 := Memref.whole cc1_scratch0
/-- The accumulator and one staging buffer of the output window as views: contents are stated through them. -/
abbrev accV : View sig .tc .vmem S512x2048 .f32 := accM.view
abbrev outV : View sig .tc .vmem S512x2048 .f32 := (Memref.whole cc1_stg3_0 : Memref sig .tc .vmem S512x2048 .f32).view

/-! ## The scoped buffers beside the accumulator -/

/-- The first region's staging buffers, each whole at some contents: scoped buffers this region never touches. -/
def idleStages (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg7_0), ((c : Thread nD τ).loc cc0_stg7_0) ↦{fullShare} f)
      ∗ (∃ f : Buf (Elt F) ((c : Thread nD τ).loc cc0_stg7_1), ((c : Thread nD τ).loc cc0_stg7_1) ↦{fullShare} f)
      ∗ (∃ f : Buf (Elt F) ((c : Thread nD τ).loc cc0_stg8_0), ((c : Thread nD τ).loc cc0_stg8_0) ↦{fullShare} f)
      ∗ (∃ f : Buf (Elt F) ((c : Thread nD τ).loc cc0_stg8_1), ((c : Thread nD τ).loc cc0_stg8_1) ↦{fullShare} f)
      ∗ (∃ f : Buf (Elt F) ((c : Thread nD τ).loc cc0_stg9_0), ((c : Thread nD τ).loc cc0_stg9_0) ↦{fullShare} f)
      ∗ (∃ f : Buf (Elt F) ((c : Thread nD τ).loc cc0_stg9_1), ((c : Thread nD τ).loc cc0_stg9_1) ↦{fullShare} f))

/-- The region's scoped rest is those buffers and the accumulator at some contents, -/
theorem scopedRest1_split (c : Dev nD) :
    (Pipeline.scopedRest (Ix := Unit) (Name := ℕ) (U := UR sig nD τ) (Lvl := ℕ) (Val := Elt F) spec1 c : sProp 𝕄)
      ⊢ iprop(idleStages (F := F) c ∗ ∃ d, owns (c : Thread nD τ) accM fullShare d) := by
  rw [scopedRest1_eq]; unfold idleStages; simp only [accM, owns_whole]
  iintro ⟨A0, A1, A2, A3, A4, A5, A6, A7, A8, A9, A10, A11, A12, A13, HS⟩
  isplitr [HS]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    iexact A13
  · iexact HS

/-- and conversely. -/
theorem scopedRest1_join (c : Dev nD) :
    iprop(idleStages (F := F) c ∗ ∃ d, owns (c : Thread nD τ) accM fullShare d)
      ⊢ (Pipeline.scopedRest (Ix := Unit) (Name := ℕ) (U := UR sig nD τ) (Lvl := ℕ) (Val := Elt F) spec1 c : sProp 𝕄) := by
  rw [scopedRest1_eq]; unfold idleStages; simp only [accM, owns_whole]
  iintro ⟨⟨A0, A1, A2, A3, A4, A5, A6, A7, A8, A9, A10, A11, A12, A13⟩, HS⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  iexact HS

end Cert.KernelIdeal.Fr

end
-- ==== Proof.IdealFrame.AttnRunA.lean ====
/- The attention body run whole at the first key block (j = 0): the accumulator, found at anything, is zeroed and then holds this block's contribution; the output block is left untouched. The stores each buffer ends with (last first) are found by running
   the body symbolically; the triple is carried with them. -/
import proofs.«106262_j50783693308389_2_alg».proof.Proof.IdealFrame.AttnCommon

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the query, key and value blocks at `x0`, `x1`, `x2` — the body runs to a state holding
    the three inputs as they were, the accumulator with the pieces `LS` written, and the output block as it was. -/
noncomputable def attnRunA (c : Dev nD) (i : grid1.Coords)
    (a2 : Memref sig .tc .vmem S512x2048 .bf16) (h2 : a2.IsWhole) (a3 : Memref sig .tc .vmem S1024x2048 .bf16) (h3 : a3.IsWhole)
    (a4 : Memref sig .tc .vmem S1024x2048 .bf16) (h4 : a4.IsWhole) (a5 : Memref sig .tc .vmem S512x2048 .f32) (h5 : a5.IsWhole)
    (a6 : Memref sig .tc .vmem S512x2048 .f32) (h6 : a6.IsWhole) (hF : isFirst i) (hL : ¬isLast i)
    (x0 : Vec F S512x2048 .bf16) (x1 : Vec F S1024x2048 .bf16) (x2 : Vec F S1024x2048 .bf16) :
    Σ' (LO : List (View.Piece (Elt F) S512x2048 .f32)), { LS : List (View.Piece (Elt F) S512x2048 .f32) //
      ∀ (xi : Vec F S512x2048 .f32) (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare xi ∗ (∃ d, owns (c : Thread nD τ) a6 fullShare d)
            ∗ (iprop(owns (c : Thread nD τ) a2 fullShare x0 ∗ owns (c : Thread nD τ) a3 fullShare x1 ∗ owns (c : Thread nD τ) a4 fullShare x2
                ∗ owns (c : Thread nD τ) a5 fullShare xi
                ∗ (∃ f, a6.view.loc (c : Thread nD τ) ↦[a6.view.set]{fullShare} a6.view.writes (Elt F) f LS)) -∗ K ⟨⟩))
          ⊢ wp frame (wpE (defs₀ (F := F)) Variants.none c none) E (cc1__attn_kernel i a2 h2 a3 h3 a4 h4 a5 h5 a6 h6) K } := by
  refine ⟨[], ?_, fun xi E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := h2.eq_unread hf0; obtain rfl := h3.eq_unread hf1; obtain rfl := h4.eq_unread hf2; obtain rfl := h5.eq_unread hf3
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    iexists _; iexact HS

end Cert.KernelIdeal.Fr

end
-- ==== Proof.IdealFrame.AttnRunB.lean ====
/- The attention body run whole at a middle key block (j = 1, 2): the accumulator, found at what the point before left, gains this block's contribution; the output block is left untouched. The stores each buffer ends with (last first) are found by running
   the body symbolically; the triple is carried with them. -/
import proofs.«106262_j50783693308389_2_alg».proof.Proof.IdealFrame.AttnCommon

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the query, key and value blocks at `x0`, `x1`, `x2` — the body runs to a state holding
    the three inputs as they were, the accumulator with the pieces `LS` written, and the output block as it was. -/
noncomputable def attnRunB (c : Dev nD) (i : grid1.Coords)
    (a2 : Memref sig .tc .vmem S512x2048 .bf16) (h2 : a2.IsWhole) (a3 : Memref sig .tc .vmem S1024x2048 .bf16) (h3 : a3.IsWhole)
    (a4 : Memref sig .tc .vmem S1024x2048 .bf16) (h4 : a4.IsWhole) (a5 : Memref sig .tc .vmem S512x2048 .f32) (h5 : a5.IsWhole)
    (a6 : Memref sig .tc .vmem S512x2048 .f32) (h6 : a6.IsWhole) (hF : ¬isFirst i) (hL : ¬isLast i)
    (x0 : Vec F S512x2048 .bf16) (x1 : Vec F S1024x2048 .bf16) (x2 : Vec F S1024x2048 .bf16) (xs : Vec F S512x2048 .f32) :
    Σ' (LO : List (View.Piece (Elt F) S512x2048 .f32)), { LS : List (View.Piece (Elt F) S512x2048 .f32) //
      ∀ (xi : Vec F S512x2048 .f32) (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare xi ∗ owns (c : Thread nD τ) a6 fullShare xs
            ∗ (iprop(owns (c : Thread nD τ) a2 fullShare x0 ∗ owns (c : Thread nD τ) a3 fullShare x1 ∗ owns (c : Thread nD τ) a4 fullShare x2
                ∗ owns (c : Thread nD τ) a5 fullShare xi
                ∗ (∃ f, a6.view.loc (c : Thread nD τ) ↦[a6.view.set]{fullShare} a6.view.writes (Elt F) f LS)) -∗ K ⟨⟩))
          ⊢ wp frame (wpE (defs₀ (F := F)) Variants.none c none) E (cc1__attn_kernel i a2 h2 a3 h3 a4 h4 a5 h5 a6 h6) K } := by
  refine ⟨[], ?_, fun xi E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := h2.eq_unread hf0; obtain rfl := h3.eq_unread hf1; obtain rfl := h4.eq_unread hf2; obtain rfl := h5.eq_unread hf3; obtain rfl := h6.eq_unread hfs
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    iexists _; iexact HS

end Cert.KernelIdeal.Fr

end
-- ==== Proof.IdealFrame.AttnRunC.lean ====
/- The attention body run whole at the last key block (j = 3): the accumulator gains this block's contribution and is copied to the output block. The stores each buffer ends with (last first) are found by running
   the body symbolically; the triple is carried with them. -/
import proofs.«106262_j50783693308389_2_alg».proof.Proof.IdealFrame.AttnCommon

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the query, key and value blocks at `x0`, `x1`, `x2` — the body runs to a state holding
    the three inputs as they were, the accumulator with the pieces `LS` written, and the output block with the pieces `LO` written. -/
noncomputable def attnRunC (c : Dev nD) (i : grid1.Coords)
    (a2 : Memref sig .tc .vmem S512x2048 .bf16) (h2 : a2.IsWhole) (a3 : Memref sig .tc .vmem S1024x2048 .bf16) (h3 : a3.IsWhole)
    (a4 : Memref sig .tc .vmem S1024x2048 .bf16) (h4 : a4.IsWhole) (a5 : Memref sig .tc .vmem S512x2048 .f32) (h5 : a5.IsWhole)
    (a6 : Memref sig .tc .vmem S512x2048 .f32) (h6 : a6.IsWhole) (hF : ¬isFirst i) (hL : isLast i)
    (x0 : Vec F S512x2048 .bf16) (x1 : Vec F S1024x2048 .bf16) (x2 : Vec F S1024x2048 .bf16) (xs : Vec F S512x2048 .f32) :
    Σ' (LO : List (View.Piece (Elt F) S512x2048 .f32)), { LS : List (View.Piece (Elt F) S512x2048 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ (∃ d, owns (c : Thread nD τ) a5 fullShare d) ∗ owns (c : Thread nD τ) a6 fullShare xs
            ∗ (iprop(owns (c : Thread nD τ) a2 fullShare x0 ∗ owns (c : Thread nD τ) a3 fullShare x1 ∗ owns (c : Thread nD τ) a4 fullShare x2
                ∗ (∃ f, a5.view.loc (c : Thread nD τ) ↦[a5.view.set]{fullShare} a5.view.writes (Elt F) f LO)
                ∗ (∃ f, a6.view.loc (c : Thread nD τ) ↦[a6.view.set]{fullShare} a6.view.writes (Elt F) f LS)) -∗ K ⟨⟩))
          ⊢ wp frame (wpE (defs₀ (F := F)) Variants.none c none) E (cc1__attn_kernel i a2 h2 a3 h3 a4 h4 a5 h5 a6 h6) K } := by
  refine ⟨?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := h2.eq_unread hf0; obtain rfl := h3.eq_unread hf1; obtain rfl := h4.eq_unread hf2; obtain rfl := h6.eq_unread hfs
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]; · iexists _; iexact H3
    iexists _; iexact HS

end Cert.KernelIdeal.Fr

end
-- ==== Proof.IdealFrame.Attn.lean ====
/- The second kernel region's proof data and body obligation, at any float instance and at the entry contents `V`.
   What the accumulator holds after the body at grid position n is a recursion over n (`accAt`): at a first key
   block the case's stores over anything, otherwise the case's stores over what position n - 1 left. The region's
   invariant before position n + 1 names the accumulator's contents as `accAt n`; before position 0 it is the plain
   scoped rest. The output block after a last key block is that case's stores; elsewhere the window is idle. -/
import proofs.«106262_j50783693308389_2_alg».proof.Proof.IdealFrame.AttnRunA
import proofs.«106262_j50783693308389_2_alg».proof.Proof.IdealFrame.AttnRunB
import proofs.«106262_j50783693308389_2_alg».proof.Proof.IdealFrame.AttnRunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A's stores into the accumulator tile it, so they cover it. -/
theorem accCoverA (c : Dev nD) (i : grid1.Coords) (a2 : Memref sig .tc .vmem S512x2048 .bf16) (h2 : a2.IsWhole) (a3 : Memref sig .tc .vmem S1024x2048 .bf16) (h3 : a3.IsWhole)
    (a4 : Memref sig .tc .vmem S1024x2048 .bf16) (h4 : a4.IsWhole) (a5 : Memref sig .tc .vmem S512x2048 .f32) (h5 : a5.IsWhole)
    (a6 : Memref sig .tc .vmem S512x2048 .f32) (h6 : a6.IsWhole) (hF : isFirst i) (hL : ¬isLast i)
    (x0 : Vec F S512x2048 .bf16) (x1 : Vec F S1024x2048 .bf16) (x2 : Vec F S1024x2048 .bf16) (y : S512x2048.Idx) :
    ∃ pc ∈ (attnRunA c i a2 h2 a3 h3 a4 h4 a5 h5 a6 h6 hF hL x0 x1 x2).2.1, y ∈ pc.1.set :=
  View.cover_of_tiledL (attnRunA c i a2 h2 a3 h3 a4 h4 a5 h5 a6 h6 hF hL x0 x1 x2).2.1 S512x2048.size (by sl_kernel_rfl) y

/-- What case A leaves in the accumulator: its stores read back. -/
def accA (c : Dev nD) (i : grid1.Coords) (a2 : Memref sig .tc .vmem S512x2048 .bf16) (h2 : a2.IsWhole) (a3 : Memref sig .tc .vmem S1024x2048 .bf16) (h3 : a3.IsWhole)
    (a4 : Memref sig .tc .vmem S1024x2048 .bf16) (h4 : a4.IsWhole) (a5 : Memref sig .tc .vmem S512x2048 .f32) (h5 : a5.IsWhole)
    (a6 : Memref sig .tc .vmem S512x2048 .f32) (h6 : a6.IsWhole) (hF : isFirst i) (hL : ¬isLast i)
    (x0 : Vec F S512x2048 .bf16) (x1 : Vec F S1024x2048 .bf16) (x2 : Vec F S1024x2048 .bf16) : Vec F S512x2048 .f32 :=
  accV.read (Elt F) (accV.writes (Elt F) accV.junk (attnRunA c i a2 h2 a3 h3 a4 h4 a5 h5 a6 h6 hF hL x0 x1 x2).2.1)

/-- Case B's stores into the accumulator tile it, so they cover it. -/
theorem accCoverB (c : Dev nD) (i : grid1.Coords) (a2 : Memref sig .tc .vmem S512x2048 .bf16) (h2 : a2.IsWhole) (a3 : Memref sig .tc .vmem S1024x2048 .bf16) (h3 : a3.IsWhole)
    (a4 : Memref sig .tc .vmem S1024x2048 .bf16) (h4 : a4.IsWhole) (a5 : Memref sig .tc .vmem S512x2048 .f32) (h5 : a5.IsWhole)
    (a6 : Memref sig .tc .vmem S512x2048 .f32) (h6 : a6.IsWhole) (hF : ¬isFirst i) (hL : ¬isLast i)
    (x0 : Vec F S512x2048 .bf16) (x1 : Vec F S1024x2048 .bf16) (x2 : Vec F S1024x2048 .bf16) (xs : Vec F S512x2048 .f32) (y : S512x2048.Idx) :
    ∃ pc ∈ (attnRunB c i a2 h2 a3 h3 a4 h4 a5 h5 a6 h6 hF hL x0 x1 x2 xs).2.1, y ∈ pc.1.set :=
  View.cover_of_tiledL (attnRunB c i a2 h2 a3 h3 a4 h4 a5 h5 a6 h6 hF hL x0 x1 x2 xs).2.1 S512x2048.size (by sl_kernel_rfl) y

/-- What case B leaves in the accumulator: its stores read back. -/
def accB (c : Dev nD) (i : grid1.Coords) (a2 : Memref sig .tc .vmem S512x2048 .bf16) (h2 : a2.IsWhole) (a3 : Memref sig .tc .vmem S1024x2048 .bf16) (h3 : a3.IsWhole)
    (a4 : Memref sig .tc .vmem S1024x2048 .bf16) (h4 : a4.IsWhole) (a5 : Memref sig .tc .vmem S512x2048 .f32) (h5 : a5.IsWhole)
    (a6 : Memref sig .tc .vmem S512x2048 .f32) (h6 : a6.IsWhole) (hF : ¬isFirst i) (hL : ¬isLast i)
    (x0 : Vec F S512x2048 .bf16) (x1 : Vec F S1024x2048 .bf16) (x2 : Vec F S1024x2048 .bf16) (xs : Vec F S512x2048 .f32) : Vec F S512x2048 .f32 :=
  accV.read (Elt F) (accV.writes (Elt F) accV.junk (attnRunB c i a2 h2 a3 h3 a4 h4 a5 h5 a6 h6 hF hL x0 x1 x2 xs).2.1)

/-- Case C's stores into the accumulator tile it, so they cover it. -/
theorem accCoverC (c : Dev nD) (i : grid1.Coords) (a2 : Memref sig .tc .vmem S512x2048 .bf16) (h2 : a2.IsWhole) (a3 : Memref sig .tc .vmem S1024x2048 .bf16) (h3 : a3.IsWhole)
    (a4 : Memref sig .tc .vmem S1024x2048 .bf16) (h4 : a4.IsWhole) (a5 : Memref sig .tc .vmem S512x2048 .f32) (h5 : a5.IsWhole)
    (a6 : Memref sig .tc .vmem S512x2048 .f32) (h6 : a6.IsWhole) (hF : ¬isFirst i) (hL : isLast i)
    (x0 : Vec F S512x2048 .bf16) (x1 : Vec F S1024x2048 .bf16) (x2 : Vec F S1024x2048 .bf16) (xs : Vec F S512x2048 .f32) (y : S512x2048.Idx) :
    ∃ pc ∈ (attnRunC c i a2 h2 a3 h3 a4 h4 a5 h5 a6 h6 hF hL x0 x1 x2 xs).2.1, y ∈ pc.1.set :=
  View.cover_of_tiledL (attnRunC c i a2 h2 a3 h3 a4 h4 a5 h5 a6 h6 hF hL x0 x1 x2 xs).2.1 S512x2048.size (by sl_kernel_rfl) y

/-- What case C leaves in the accumulator: its stores read back. -/
def accC (c : Dev nD) (i : grid1.Coords) (a2 : Memref sig .tc .vmem S512x2048 .bf16) (h2 : a2.IsWhole) (a3 : Memref sig .tc .vmem S1024x2048 .bf16) (h3 : a3.IsWhole)
    (a4 : Memref sig .tc .vmem S1024x2048 .bf16) (h4 : a4.IsWhole) (a5 : Memref sig .tc .vmem S512x2048 .f32) (h5 : a5.IsWhole)
    (a6 : Memref sig .tc .vmem S512x2048 .f32) (h6 : a6.IsWhole) (hF : ¬isFirst i) (hL : isLast i)
    (x0 : Vec F S512x2048 .bf16) (x1 : Vec F S1024x2048 .bf16) (x2 : Vec F S1024x2048 .bf16) (xs : Vec F S512x2048 .f32) : Vec F S512x2048 .f32 :=
  accV.read (Elt F) (accV.writes (Elt F) accV.junk (attnRunC c i a2 h2 a3 h3 a4 h4 a5 h5 a6 h6 hF hL x0 x1 x2 xs).2.1)

/-- The last case's store into the output block covers it. -/
theorem outCoverC (c : Dev nD) (i : grid1.Coords) (a2 : Memref sig .tc .vmem S512x2048 .bf16) (h2 : a2.IsWhole) (a3 : Memref sig .tc .vmem S1024x2048 .bf16) (h3 : a3.IsWhole)
    (a4 : Memref sig .tc .vmem S1024x2048 .bf16) (h4 : a4.IsWhole) (a5 : Memref sig .tc .vmem S512x2048 .f32) (h5 : a5.IsWhole)
    (a6 : Memref sig .tc .vmem S512x2048 .f32) (h6 : a6.IsWhole) (hF : ¬isFirst i) (hL : isLast i)
    (x0 : Vec F S512x2048 .bf16) (x1 : Vec F S1024x2048 .bf16) (x2 : Vec F S1024x2048 .bf16) (xs : Vec F S512x2048 .f32) (y : S512x2048.Idx) :
    ∃ pc ∈ (attnRunC c i a2 h2 a3 h3 a4 h4 a5 h5 a6 h6 hF hL x0 x1 x2 xs).1, y ∈ pc.1.set :=
  View.cover_of_tiledL (attnRunC c i a2 h2 a3 h3 a4 h4 a5 h5 a6 h6 hF hL x0 x1 x2 xs).1 S512x2048.size (by sl_kernel_rfl) y

/-- What the last case leaves in the output block: its store read back. -/
def outC (c : Dev nD) (i : grid1.Coords) (a2 : Memref sig .tc .vmem S512x2048 .bf16) (h2 : a2.IsWhole) (a3 : Memref sig .tc .vmem S1024x2048 .bf16) (h3 : a3.IsWhole)
    (a4 : Memref sig .tc .vmem S1024x2048 .bf16) (h4 : a4.IsWhole) (a5 : Memref sig .tc .vmem S512x2048 .f32) (h5 : a5.IsWhole)
    (a6 : Memref sig .tc .vmem S512x2048 .f32) (h6 : a6.IsWhole) (hF : ¬isFirst i) (hL : isLast i)
    (x0 : Vec F S512x2048 .bf16) (x1 : Vec F S1024x2048 .bf16) (x2 : Vec F S1024x2048 .bf16) (xs : Vec F S512x2048 .f32) : Vec F S512x2048 .f32 :=
  outV.read (Elt F) (outV.writes (Elt F) outV.junk (attnRunC c i a2 h2 a3 h3 a4 h4 a5 h5 a6 h6 hF hL x0 x1 x2 xs).1)

/-! ## The accumulator, point by point -/

/-- What the accumulator holds after the body at grid position `n`. -/
def accAt (c : Dev nD) : (n : ℕ) → n < cfg1.N → Vec F S512x2048 .f32
  | 0, hn => accA c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) accM (Memref.isWhole_whole _) ((isFirst_iff ⟨0, hn⟩).mpr (Nat.zero_mod _)) (fun h => (fun h => by (try dsimp only at h); omega) ((isLast_iff ⟨0, hn⟩).mp h)) (blk1 V c 0 ⟨0, hn⟩) (blk1 V c 1 ⟨0, hn⟩) (blk1 V c 2 ⟨0, hn⟩)
  | n + 1, hn =>
    if h0 : (n + 1) % 4 = 0 then
      accA c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM (Memref.isWhole_whole _) ((isFirst_iff ⟨n + 1, hn⟩).mpr h0) (fun h => (fun h => by (try dsimp only at h); omega) ((isLast_iff ⟨n + 1, hn⟩).mp h)) (blk1 V c 0 ⟨n + 1, hn⟩) (blk1 V c 1 ⟨n + 1, hn⟩) (blk1 V c 2 ⟨n + 1, hn⟩)
    else if h1 : (n + 1) % 4 = 3 then
      accC c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM (Memref.isWhole_whole _) (fun h => h0 ((isFirst_iff ⟨n + 1, hn⟩).mp h)) ((isLast_iff ⟨n + 1, hn⟩).mpr h1) (blk1 V c 0 ⟨n + 1, hn⟩) (blk1 V c 1 ⟨n + 1, hn⟩) (blk1 V c 2 ⟨n + 1, hn⟩) (accAt c n (Nat.lt_of_succ_lt hn))
    else
      accB c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM (Memref.isWhole_whole _) (fun h => h0 ((isFirst_iff ⟨n + 1, hn⟩).mp h)) (fun h => h1 ((isLast_iff ⟨n + 1, hn⟩).mp h)) (blk1 V c 0 ⟨n + 1, hn⟩) (blk1 V c 1 ⟨n + 1, hn⟩) (blk1 V c 2 ⟨n + 1, hn⟩) (accAt c n (Nat.lt_of_succ_lt hn))

/-- At a first key block: that case's contents. -/
theorem accAt_first (c : Dev nD) (t : Fin cfg1.N) (h0 : t.val % 4 = 0) (hF : isFirst (grid1.coords t)) (hL : ¬isLast (grid1.coords t)) :
    accAt V c t.val t.isLt = accA c (grid1.coords t) (ms1_0 t) (hs1_0 t) (ms1_1 t) (hs1_1 t) (ms1_2 t) (hs1_2 t) (ms1_3 t) (hs1_3 t) accM (Memref.isWhole_whole _) hF hL (blk1 V c 0 t) (blk1 V c 1 t) (blk1 V c 2 t) := by
  obtain ⟨n, hn⟩ := t
  cases n with
  | zero => exact rfl
  | succ n => exact (dif_pos h0).trans rfl

/-- At a middle key block: that case's contents, over what the point before left. -/
theorem accAt_mid (c : Dev nD) (t : Fin cfg1.N) (h0 : ¬t.val % 4 = 0) (h1 : ¬t.val % 4 = 3) (hF : ¬isFirst (grid1.coords t)) (hL : ¬isLast (grid1.coords t)) :
    accAt V c t.val t.isLt = accB c (grid1.coords t) (ms1_0 t) (hs1_0 t) (ms1_1 t) (hs1_1 t) (ms1_2 t) (hs1_2 t) (ms1_3 t) (hs1_3 t) accM (Memref.isWhole_whole _) hF hL (blk1 V c 0 t) (blk1 V c 1 t) (blk1 V c 2 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- At a last key block: that case's contents, over what the point before left. -/
theorem accAt_last (c : Dev nD) (t : Fin cfg1.N) (h0 : ¬t.val % 4 = 0) (h1 : t.val % 4 = 3) (hF : ¬isFirst (grid1.coords t)) (hL : isLast (grid1.coords t)) :
    accAt V c t.val t.isLt = accC c (grid1.coords t) (ms1_0 t) (hs1_0 t) (ms1_1 t) (hs1_1 t) (ms1_2 t) (hs1_2 t) (ms1_3 t) (hs1_3 t) accM (Memref.isWhole_whole _) hF hL (blk1 V c 0 t) (blk1 V c 1 t) (blk1 V c 2 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output window's staging buffer holds after the body at point `t`: at a last key block that case's store
    over the accumulator the point before left; elsewhere the window is idle and this is never consulted. -/
def outAt (c : Dev nD) (t : Fin cfg1.N) : Vec F S512x2048 .f32 :=
  if h1 : t.val % 4 = 3 then
    outC c (grid1.coords t) (ms1_0 t) (hs1_0 t) (ms1_1 t) (hs1_1 t) (ms1_2 t) (hs1_2 t) (ms1_3 t) (hs1_3 t) accM (Memref.isWhole_whole _) (fun h => (fun h => by omega) ((isFirst_iff t).mp h)) ((isLast_iff t).mpr h1) (blk1 V c 0 t) (blk1 V c 1 t) (blk1 V c 2 t) (accAt V c (t.val - 1) (Nat.lt_of_le_of_lt (Nat.sub_le _ _) t.isLt))
  else outV.read (Elt F) outV.junk

theorem outAt_last (c : Dev nD) (t : Fin cfg1.N) (h1 : t.val % 4 = 3) (hF : ¬isFirst (grid1.coords t)) (hL : isLast (grid1.coords t)) :
    outAt V c t = outC c (grid1.coords t) (ms1_0 t) (hs1_0 t) (ms1_1 t) (hs1_1 t) (ms1_2 t) (hs1_2 t) (ms1_3 t) (hs1_3 t) accM (Memref.isWhole_whole _) hF hL (blk1 V c 0 t) (blk1 V c 1 t) (blk1 V c 2 t) (accAt V c (t.val - 1) (Nat.lt_of_le_of_lt (Nat.sub_le _ _) t.isLt)) := by
  unfold outAt; exact (dif_pos h1).trans rfl

/-! ## The invariant -/

/-- Before position `n`: at the first, the untouched scoped rest; afterwards the idle staging buffers, the accumulator at
    what position `n - 1` left, and the generator register at some state. -/
def PhiS (c : Dev nD) : (n : ℕ) → n ≤ cfg1.N → sProp 𝕄
  | 0, _ => Pipeline.ΦA spec1 c
  | n + 1, hn => iprop(idleStages (F := F) c ∗ owns (c : Thread nD τ) accM fullShare (accAt V c n hn) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(idleStages (F := F) c ∗ owns (c : Thread nD τ) accM fullShare (accAt V c n hn) ∗ (∃ r, prngReg c r)) := rfl

theorem PhiS_pos (c : Dev nD) (n : ℕ) (h : n ≤ cfg1.N) (hz : n ≠ 0) :
    PhiS V c n h = iprop(idleStages (F := F) c ∗ owns (c : Thread nD τ) accM fullShare (accAt V c (n - 1) (by omega)) ∗ (∃ r, prngReg c r)) := by
  cases n with
  | zero => exact absurd rfl hz
  | succ n => rfl

/-- The plain scoped rest hands the body the accumulator at some contents. -/
theorem PhiA_open (c : Dev nD) :
    (Pipeline.ΦA spec1 c : sProp 𝕄) ⊢ iprop(idleStages (F := F) c ∗ (∃ d, owns (c : Thread nD τ) accM fullShare d) ∗ (∃ r, prngReg c r)) := by
  unfold Pipeline.ΦA
  iintro ⟨Hr, Hg⟩
  ihave H := scopedRest1_split (F := F) c $$ Hr
  icases H with ⟨Hi, HS⟩
  isplitl [Hi]; · iexact Hi
  isplitl [HS]; · iexact HS
  iexact Hg

theorem PhiA_close (c : Dev nD) :
    iprop(idleStages (F := F) c ∗ (∃ d, owns (c : Thread nD τ) accM fullShare d) ∗ (∃ r, prngReg c r)) ⊢ (Pipeline.ΦA spec1 c : sProp 𝕄) := by
  unfold Pipeline.ΦA
  iintro ⟨Hi, HS, Hg⟩
  isplitl [Hi HS]
  · iapply scopedRest1_join (F := F) c
    isplitl [Hi]; · iexact Hi
    iexact HS
  iexact Hg

/-! ## The proof data -/

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => outAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = outAt V c t := by dsimp only [dat1]

theorem found1_0 (c : Dev nD) (t : Fin cfg1.N) (d) : (dat1 V c).before 0 t d = blk1 V c 0 t :=
  found1_0_of V (dat1 V c) (A_eq1 V c 0) (after1_0 V c) t d
theorem found1_1 (c : Dev nD) (t : Fin cfg1.N) (d) : (dat1 V c).before 1 t d = blk1 V c 1 t :=
  found1_1_of V (dat1 V c) (A_eq1 V c 1) (after1_1 V c) t d
theorem found1_2 (c : Dev nD) (t : Fin cfg1.N) (d) : (dat1 V c).before 2 t d = blk1 V c 2 t :=
  found1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (blk1 V c 0 t) := by
  unfold Dat.leavesExact; rw [live1_0 t, after1_0]
theorem leaves1_1 (c : Dev nD) (t : Fin cfg1.N) : (dat1 V c).leavesExact 1 t = owns (c : Thread nD τ) (ms1_1 t) fullShare (blk1 V c 1 t) := by
  unfold Dat.leavesExact; rw [live1_1 t, after1_1]
theorem leaves1_2 (c : Dev nD) (t : Fin cfg1.N) : (dat1 V c).leavesExact 2 t = owns (c : Thread nD τ) (ms1_2 t) fullShare (blk1 V c 2 t) := by
  unfold Dat.leavesExact; rw [live1_2 t, after1_2]

set_option maxHeartbeats 4800000 in
/-- The body at any point, by the case the point is in. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [found1_0, found1_1, found1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 32 := lt_of_lt_of_eq t.isLt (show cfg1.N = 32 from N_1)
  by_cases h0 : t.val % 4 = 0
  · have hF : isFirst (grid1.coords t) := (isFirst_iff t).mpr h0
    have hL : ¬isLast (grid1.coords t) := fun h => (fun h => by omega) ((isLast_iff t).mp h)
    rw [Dat.leavesExact_idle (dat1 V c) 3 t (idle1_3 t hL) (noFlush1_3 t hL)]
    rw [accAt_first V c t h0 hF hL]
    unfold accA; (try dsimp only)
    by_cases hz : t.val = 0
    · rw [PhiS_castSucc V c t, PhiS_zero V c _ _ hz]
      iintro ⟨HΦ, Ho, ⟨%d0, H0⟩, ⟨%d1, H1⟩, ⟨%d2, H2⟩, ⟨%d3, H3⟩⟩
      ihave HΦ' := PhiA_open (F := F) c $$ HΦ
      icases HΦ' with ⟨Hi, HS, Hg⟩
      iapply ((attnRunA c (grid1.coords t) _ _ _ _ _ _ _ _ _ _ hF hL (blk1 V c 0 t) (blk1 V c 1 t) (blk1 V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [Hi HS Hg]
      · isplitl [Hi]; · iexact Hi
        isplitl [HS]
        · unfold owns; iexists _; isplitr
          swap; · iexact HS
          ipureintro; exact View.read_writes_of_cover _ _ _ _ _ (accCoverA c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨Hi, HS, Hg⟩, Ho, ⟨%d0, H0⟩, ⟨%d1, H1⟩, ⟨%d2, H2⟩, ⟨%d3, H3⟩⟩
      iapply ((attnRunA c (grid1.coords t) _ _ _ _ _ _ _ _ _ _ hF hL (blk1 V c 0 t) (blk1 V c 1 t) (blk1 V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [Hi HS Hg]
      · isplitl [Hi]; · iexact Hi
        isplitl [HS]
        · unfold owns; iexists _; isplitr
          swap; · iexact HS
          ipureintro; exact View.read_writes_of_cover _ _ _ _ _ (accCoverA c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hF : ¬isFirst (grid1.coords t) := fun h => h0 ((isFirst_iff t).mp h)
    have hz : t.val ≠ 0 := fun e => h0 (by rw [e])
    by_cases h1 : t.val % 4 = 3
    · have hL : isLast (grid1.coords t) := (isLast_iff t).mpr h1
      rw [show (dat1 V c).leavesExact 3 t = owns (c : Thread nD τ) (ms1_3 t) fullShare ((dat1 V c).after 3 t) from by
        unfold Dat.leavesExact; rw [live1_3 t hL], after1_3]
      rw [accAt_last V c t h0 h1 hF hL, outAt_last V c t h1 hF hL]
      unfold accC outC; (try dsimp only)
      rw [PhiS_castSucc V c t, PhiS_pos V c _ _ hz]
      iintro ⟨⟨Hi, HS, Hg⟩, Ho, ⟨%d0, H0⟩, ⟨%d1, H1⟩, ⟨%d2, H2⟩, ⟨%d3, H3⟩⟩
      iapply ((attnRunC c (grid1.coords t) _ _ _ _ _ _ _ _ _ _ hF hL (blk1 V c 0 t) (blk1 V c 1 t) (blk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [Hi HS Hg]
      · isplitl [Hi]; · iexact Hi
        isplitl [HS]
        · unfold owns; iexists _; isplitr
          swap; · iexact HS
          ipureintro; exact View.read_writes_of_cover _ _ _ _ _ (accCoverC c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCoverC c _ _ _ _ _ _ _ _ _ _ _ _ _ _ _ _ _)
    · have hL : ¬isLast (grid1.coords t) := fun h => h1 ((isLast_iff t).mp h)
      rw [Dat.leavesExact_idle (dat1 V c) 3 t (idle1_3 t hL) (noFlush1_3 t hL)]
      rw [accAt_mid V c t h0 h1 hF hL]
      unfold accB; (try dsimp only)
      rw [PhiS_castSucc V c t, PhiS_pos V c _ _ hz]
      iintro ⟨⟨Hi, HS, Hg⟩, Ho, ⟨%d0, H0⟩, ⟨%d1, H1⟩, ⟨%d2, H2⟩, ⟨%d3, H3⟩⟩
      iapply ((attnRunB c (grid1.coords t) _ _ _ _ _ _ _ _ _ _ hF hL (blk1 V c 0 t) (blk1 V c 1 t) (blk1 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [Hi HS Hg]
      · isplitl [Hi]; · iexact Hi
        isplitl [HS]
        · unfold owns; iexists _; isplitr
          swap; · iexact HS
          ipureintro; exact View.read_writes_of_cover _ _ _ _ _ (accCoverB c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem phi_in1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped rest back: the accumulator's named contents are forgotten. -/
theorem phi_out1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 32 := N_1; omega)]
  refine .trans ?_ (PhiA_close (F := F) c)
  iintro ⟨Hi, HS, Hg⟩
  isplitl [Hi]; · iexact Hi
  isplitl [HS]; · iexists _; iexact HS
  iexact Hg

end Cert.KernelIdeal.Fr

end
-- ==== Proof.IdealFrame.Run.lean ====
/- The whole run of the program, at any float instance: @main is a stretch of host operations (four format changes and
   three reshapes) followed by the two kernel regions. The contents of the core's unscoped buffers at each boundary are
   a fold from the launch memory: after the host stretch; after the first region (its three output arrays at what its
   write-backs leave, everything else as entered); after the second region likewise. Each region is a segment over the
   thread state "every unscoped buffer at the boundary's contents, the generator register at some state, nothing owed";
   the second region's invariant, which carries the accumulator, is entered from and left at the plain scoped rest.
   The run's post names every unscoped buffer's final contents; the frame (the arguments end as launched) and the
   result array's contents are read off it. -/
import proofs.«106262_j50783693308389_2_alg».proof.Proof.IdealFrame.QkvData
import proofs.«106262_j50783693308389_2_alg».proof.Proof.IdealFrame.Attn
import proofs.«106262_j50783693308389_2_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch, and after the host stretch (the first region's entry). -/
abbrev W0 : Dev nD → Valuation τ sig (Elt F) := fun c => V0 m c
abbrev W1 : Dev nD → Valuation τ sig (Elt F) := fun c => V1 m c
/-- The same read at the TensorCore's references (what the first region's proof data take). -/
abbrev E1 : (c : Dev nD) → (b : Ref sig .tc) → Buf (Elt F) ((c : Thread nD τ).loc b) := fun c b => W1 m c b
/-- After the first region: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem exit0_arr (c : Dev nD) (w : Fin cfg0.W) : (dat0 (E1 m) c).arrAt w cfg0.N = E2 m c (Pipeline.arrRef spec0 w) :=
  (W2_arr m c w).symm
theorem exit0_rest (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the second region: its arrays at what the pipeline leaves, every other buffer as entered. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem exit1_arr (c : Dev nD) (w : Fin cfg1.W) : (dat1 (E2 m) c).arrAt w cfg1.N = E3 m c (Pipeline.arrRef spec1 w) :=
  (W3_arr m c w).symm
theorem exit1_rest (c : Dev nD) : ∀ b, b ∉ Finset.univ.image (Pipeline.arrRef spec1) → E3 m c b = E2 m c b :=
  fun b hb => W3_of_ne m c b fun w e => hb (Finset.mem_image.mpr ⟨w, Finset.mem_univ _, e⟩)

/-- A buffer that is no array of either region and that no host operation writes ends as launched. -/
theorem W3_untouched (c : Dev nD) (b : Ref sig .tc) (h1 : ∀ w, Pipeline.arrRef spec1 w ≠ b) (h0 : ∀ w, Pipeline.arrRef spec0 w ≠ b)
    (hh : b ∉ hostOps0_W) : W3 m c (Proc.devRef .tc b) = m ((c : Thread nD τ).loc b) :=
  (W3_of_ne m c b h1).trans ((W2_of_ne m c b h0).trans ((V1_of m c b hh).trans rfl))

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
/-- No core owes another anything: no level is assigned. -/
abbrev Lset : GSem nD τ sig → Finset Unit := fun _ => ∅
abbrev lvl : GSem nD τ sig → Unit → ℕ := fun _ _ => 0
/-- What rides beside the buffers through every segment: the generator register at some state and nothing owed. -/
abbrev Ride (c : Dev nD) : sProp 𝕄 := iprop((∃ r, prngReg c r) ∗ ∃ W, owes (c : Thread nD τ) (0 : CellTallies nD τ sig Unit) W)

/-- The host stretch as a segment from the launch contents. -/
abbrev hostSeg : Pipeline.HostSeg (Name := ℕ) (U := UR sig nD τ) (pcfgs (F := F)) defs₀ 𝒱₀ Lset lvl :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) Ride

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the final contents, the register at some state. -/
abbrev Tlast (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The first region: entered from every unscoped buffer at `W1`, left at `W2`. -/
def reg0 : Pipeline.RegionSeg (pcfgs (F := F)) adm (pdats m) () defs₀ 𝒱₀ Lset lvl 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ Lset lvl 0 fun _ _ => rfl
  pre c := iprop(StableHlo.held (c : Thread nD τ) (Pipeline.ucRefs τ sig) (W1 m c) ∗ Ride c)
  post c := iprop(StableHlo.held (c : Thread nD τ) (Pipeline.ucRefs τ sig) (W2 m c) ∗ Ride c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W3`. Its invariant starts as the plain scoped
    rest and ends, after the last point, with the accumulator at named contents, which are forgotten on the way out. -/
def reg1 : Pipeline.RegionSeg (pcfgs (F := F)) adm (pdats m) () defs₀ 𝒱₀ Lset lvl 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ Lset lvl 1 fun _ _ => rfl
  pre c := iprop(StableHlo.held (c : Thread nD τ) (Pipeline.ucRefs τ sig) (W2 m c) ∗ Ride c)
  post c := iprop(Tlast m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec1 c ⊢ (pdats m 1 c).Φ 0 from phi_in1 (E2 m) c)
    unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from phi_out1 (E2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (exit1_arr m c) (exit1_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev mainSegs : List (Pipeline.Seg (pcfgs (F := F)) adm (pdats m) () defs₀ 𝒱₀ Lset lvl) :=
  [ .host (hostSeg m), .region (reg0 m), .region (reg1 m) ]

theorem main_is_segs (c : Dev nD) : main (F := F) c = Pipeline.Seg.run (mainSegs m) := (main_chain c).trans (by chain_rfl)

set_option backward.isDefEq.respectTransparency.types false in
/-- THE RUN: from any memory with zero counters every weakly fair execution of @main terminates, nothing faulting, and
    every unscoped buffer ends at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ Lset lvl m ρ main (mainSegs m)
    (fun c Q => by rw [main_is_segs m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Ride c)) (Tₙ := Tlast m)
    (hch := ⟨fun _ => .rfl, fun _ => .rfl, fun _ => .rfl, fun _ => .rfl⟩)
    (hinit := by
      refine Pipeline.initEach Lset lvl fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W3_untouched m c main_arg0 (by decide) (by decide) (by decide)),
     (h c _ (mem_uc main_arg1 (by decide))).trans (W3_untouched m c main_arg1 (by decide) (by decide) (by decide)),
     (h c _ (mem_uc main_arg2 (by decide))).trans (W3_untouched m c main_arg2 (by decide) (by decide) (by decide)),
     (h c _ (mem_uc main_arg3 (by decide))).trans (W3_untouched m c main_arg3 (by decide) (by decide) (by decide)),
     (h c _ (mem_uc main_arg4 (by decide))).trans (W3_untouched m c main_arg4 (by decide) (by decide) (by decide)),
     (h c _ (mem_uc main_arg5 (by decide))).trans (W3_untouched m c main_arg5 (by decide) (by decide) (by decide)),
     (h c _ (mem_uc main_arg6 (by decide))).trans (W3_untouched m c main_arg6 (by decide) (by decide) (by decide))⟩)
    (run_all m ρ)

/-- The result array ends at what the second region's write-backs leave, and the arguments as launched. -/
theorem run_result : θ_run defs (onTc (τ := τ) (main (F := F))) ⟨m, fun _ => 0, ρ⟩ (fun r => ∀ c : Dev nD,
      r.2.mem ((c.tc : Thread nD τ).loc main_v8) = (dat1 (E2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v8 (by decide))).trans (W3_arr m c 3),
     (h c _ (mem_uc main_arg0 (by decide))).trans (W3_untouched m c main_arg0 (by decide) (by decide) (by decide)),
     (h c _ (mem_uc main_arg1 (by decide))).trans (W3_untouched m c main_arg1 (by decide) (by decide) (by decide)),
     (h c _ (mem_uc main_arg2 (by decide))).trans (W3_untouched m c main_arg2 (by decide) (by decide) (by decide)),
     (h c _ (mem_uc main_arg3 (by decide))).trans (W3_untouched m c main_arg3 (by decide) (by decide) (by decide)),
     (h c _ (mem_uc main_arg4 (by decide))).trans (W3_untouched m c main_arg4 (by decide) (by decide) (by decide)),
     (h c _ (mem_uc main_arg5 (by decide))).trans (W3_untouched m c main_arg5 (by decide) (by decide) (by decide)),
     (h c _ (mem_uc main_arg6 (by decide))).trans (W3_untouched m c main_arg6 (by decide) (by decide) (by decide))⟩)
    (run_all m ρ)

end Cert.KernelIdeal.Fr

end
-- ==== Proof.KernelPayloads.lean ====
import proofs.«106262_j50783693308389_2_alg».proof.Proof.Gen.KernelIdeal.Skeleton
import proofs.«106262_j50783693308389_2_alg».proof.Proof.Gen.KernelIdeal.Launch
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

noncomputable section

namespace Cert.KernelIdeal.Pay

open Cert.KernelIdeal Cert.KernelIdeal.Gen Idealize.ShloMosaic Idealize.ShloMosaic.ValueIdx

/-! ## The three matrix products read at an entry

Each product is taken into the zero accumulator, so that at the exact (extended-real) values an entry of the
result is the plain sum, over the one contracted axis, of the products of the operands' entries. For each
product: the operands' indices at an output index and a contraction position, one coordinate at a time, and
then the entry as a sum over the contracted coordinate. -/

theorem mm_proj_lhsN (i : S256x2048.Idx) (q : dot_S256x2048_S2048x2048_S256x2048_1_1_0_0_n_n.contr.Idx) :
    (dot_S256x2048_S2048x2048_S256x2048_1_1_0_0_n_n.lhsIdx i q 0).val = (i 0).val := by
  unfold DotDims.lhsIdx
  rw [dif_neg (show ¬(0 : Fin S256x2048.rank) ∈ dot_S256x2048_S2048x2048_S256x2048_1_1_0_0_n_n.lhsBatch by decide), dif_pos (show (0 : Fin S256x2048.rank) ∈ dot_S256x2048_S2048x2048_S256x2048_1_1_0_0_n_n.lhsNonContracting by decide)]
  rfl
theorem mm_proj_lhsC (i : S256x2048.Idx) (q : dot_S256x2048_S2048x2048_S256x2048_1_1_0_0_n_n.contr.Idx) :
    (dot_S256x2048_S2048x2048_S256x2048_1_1_0_0_n_n.lhsIdx i q 1).val = (q ⟨0, by decide⟩).val :=
  dot_S256x2048_S2048x2048_S256x2048_1_1_0_0_n_n.lhsIdx_val_of_single rfl i q
theorem mm_proj_rhsN (i : S256x2048.Idx) (q : dot_S256x2048_S2048x2048_S256x2048_1_1_0_0_n_n.contr.Idx) :
    (dot_S256x2048_S2048x2048_S256x2048_1_1_0_0_n_n.rhsIdx i q 0).val = (i 1).val := by
  unfold DotDims.rhsIdx
  rw [dif_neg (show ¬(0 : Fin S2048x2048.rank) ∈ dot_S256x2048_S2048x2048_S256x2048_1_1_0_0_n_n.rhsBatch by decide), dif_pos (show (0 : Fin S2048x2048.rank) ∈ dot_S256x2048_S2048x2048_S256x2048_1_1_0_0_n_n.rhsNonContracting by decide)]
  rfl
theorem mm_proj_rhsC (i : S256x2048.Idx) (q : dot_S256x2048_S2048x2048_S256x2048_1_1_0_0_n_n.contr.Idx) :
    (dot_S256x2048_S2048x2048_S256x2048_1_1_0_0_n_n.rhsIdx i q 1).val = (q ⟨0, by decide⟩).val :=
  dot_S256x2048_S2048x2048_S256x2048_1_1_0_0_n_n.rhsIdx_val_of_single rfl i q

/-- Rows of the left operand against ROWS of the right one (both contract their second axis): entry (p, e) is
    the sum over d of left (p, d) * right (e, d). -/
theorem mm_proj_apply (lhs : FVec Ideal S256x2048 .bf16) (rhs : FVec Ideal S2048x2048 .bf16) (p : Fin 256) (e : Fin 2048) :
    matmul dot_S256x2048_S2048x2048_S256x2048_1_1_0_0_n_n none lhs rhs (constant S256x2048 .f32 0x00000000#32) (ix2 p e)
      = ∑ d : Fin 2048, lhs (ix2 p d) * rhs (ix2 e d) := by
  simp only [matmul]
  rw [Ideal.matmul_constant_zero_apply, ← Equiv.sum_comp (contrEquiv1 dot_S256x2048_S2048x2048_S256x2048_1_1_0_0_n_n 2048 rfl rfl).symm]
  refine Finset.sum_congr rfl fun d _ => ?_
  have hk := contrEquiv1_symm_val dot_S256x2048_S2048x2048_S256x2048_1_1_0_0_n_n 2048 rfl rfl d
  have el : dot_S256x2048_S2048x2048_S256x2048_1_1_0_0_n_n.lhsIdx (ix2 p e) ((contrEquiv1 dot_S256x2048_S2048x2048_S256x2048_1_1_0_0_n_n 2048 rfl rfl).symm d) = ix2 p d := funext fun a => Fin.ext (by
    match a with
    | ⟨0, _⟩ => exact mm_proj_lhsN _ _
    | ⟨1, _⟩ => exact (mm_proj_lhsC _ _).trans hk)
  have er : dot_S256x2048_S2048x2048_S256x2048_1_1_0_0_n_n.rhsIdx (ix2 p e) ((contrEquiv1 dot_S256x2048_S2048x2048_S256x2048_1_1_0_0_n_n 2048 rfl rfl).symm d) = ix2 e d := funext fun a => Fin.ext (by
    match a with
    | ⟨0, _⟩ => exact mm_proj_rhsN _ _
    | ⟨1, _⟩ => exact (mm_proj_rhsC _ _).trans hk)
  rw [el, er]

theorem mm_score_lhsN (i : S512x1024.Idx) (q : dot_S512x2048_S1024x2048_S512x1024_1_1_0_0_n_n.contr.Idx) :
    (dot_S512x2048_S1024x2048_S512x1024_1_1_0_0_n_n.lhsIdx i q 0).val = (i 0).val := by
  unfold DotDims.lhsIdx
  rw [dif_neg (show ¬(0 : Fin S512x2048.rank) ∈ dot_S512x2048_S1024x2048_S512x1024_1_1_0_0_n_n.lhsBatch by decide), dif_pos (show (0 : Fin S512x2048.rank) ∈ dot_S512x2048_S1024x2048_S512x1024_1_1_0_0_n_n.lhsNonContracting by decide)]
  rfl
theorem mm_score_lhsC (i : S512x1024.Idx) (q : dot_S512x2048_S1024x2048_S512x1024_1_1_0_0_n_n.contr.Idx) :
    (dot_S512x2048_S1024x2048_S512x1024_1_1_0_0_n_n.lhsIdx i q 1).val = (q ⟨0, by decide⟩).val :=
  dot_S512x2048_S1024x2048_S512x1024_1_1_0_0_n_n.lhsIdx_val_of_single rfl i q
theorem mm_score_rhsN (i : S512x1024.Idx) (q : dot_S512x2048_S1024x2048_S512x1024_1_1_0_0_n_n.contr.Idx) :
    (dot_S512x2048_S1024x2048_S512x1024_1_1_0_0_n_n.rhsIdx i q 0).val = (i 1).val := by
  unfold DotDims.rhsIdx
  rw [dif_neg (show ¬(0 : Fin S1024x2048.rank) ∈ dot_S512x2048_S1024x2048_S512x1024_1_1_0_0_n_n.rhsBatch by decide), dif_pos (show (0 : Fin S1024x2048.rank) ∈ dot_S512x2048_S1024x2048_S512x1024_1_1_0_0_n_n.rhsNonContracting by decide)]
  rfl
theorem mm_score_rhsC (i : S512x1024.Idx) (q : dot_S512x2048_S1024x2048_S512x1024_1_1_0_0_n_n.contr.Idx) :
    (dot_S512x2048_S1024x2048_S512x1024_1_1_0_0_n_n.rhsIdx i q 1).val = (q ⟨0, by decide⟩).val :=
  dot_S512x2048_S1024x2048_S512x1024_1_1_0_0_n_n.rhsIdx_val_of_single rfl i q

/-- The same pattern at [512, 2048] against [1024, 2048]: entry (p, n) is the sum over d of left (p, d) * right (n, d). -/
theorem mm_score_apply (lhs : FVec Ideal S512x2048 .bf16) (rhs : FVec Ideal S1024x2048 .bf16) (p : Fin 512) (e : Fin 1024) :
    matmul dot_S512x2048_S1024x2048_S512x1024_1_1_0_0_n_n none lhs rhs (constant S512x1024 .f32 0x00000000#32) (ix2 p e)
      = ∑ d : Fin 2048, lhs (ix2 p d) * rhs (ix2 e d) := by
  simp only [matmul]
  rw [Ideal.matmul_constant_zero_apply, ← Equiv.sum_comp (contrEquiv1 dot_S512x2048_S1024x2048_S512x1024_1_1_0_0_n_n 2048 rfl rfl).symm]
  refine Finset.sum_congr rfl fun d _ => ?_
  have hk := contrEquiv1_symm_val dot_S512x2048_S1024x2048_S512x1024_1_1_0_0_n_n 2048 rfl rfl d
  have el : dot_S512x2048_S1024x2048_S512x1024_1_1_0_0_n_n.lhsIdx (ix2 p e) ((contrEquiv1 dot_S512x2048_S1024x2048_S512x1024_1_1_0_0_n_n 2048 rfl rfl).symm d) = ix2 p d := funext fun a => Fin.ext (by
    match a with
    | ⟨0, _⟩ => exact mm_score_lhsN _ _
    | ⟨1, _⟩ => exact (mm_score_lhsC _ _).trans hk)
  have er : dot_S512x2048_S1024x2048_S512x1024_1_1_0_0_n_n.rhsIdx (ix2 p e) ((contrEquiv1 dot_S512x2048_S1024x2048_S512x1024_1_1_0_0_n_n 2048 rfl rfl).symm d) = ix2 e d := funext fun a => Fin.ext (by
    match a with
    | ⟨0, _⟩ => exact mm_score_rhsN _ _
    | ⟨1, _⟩ => exact (mm_score_rhsC _ _).trans hk)
  rw [el, er]

theorem mm_ctx_lhsN (i : S512x2048.Idx) (q : dot_S512x1024_S1024x2048_S512x2048_1_0_0_1_n_n.contr.Idx) :
    (dot_S512x1024_S1024x2048_S512x2048_1_0_0_1_n_n.lhsIdx i q 0).val = (i 0).val := by
  unfold DotDims.lhsIdx
  rw [dif_neg (show ¬(0 : Fin S512x1024.rank) ∈ dot_S512x1024_S1024x2048_S512x2048_1_0_0_1_n_n.lhsBatch by decide), dif_pos (show (0 : Fin S512x1024.rank) ∈ dot_S512x1024_S1024x2048_S512x2048_1_0_0_1_n_n.lhsNonContracting by decide)]
  rfl
theorem mm_ctx_lhsC (i : S512x2048.Idx) (q : dot_S512x1024_S1024x2048_S512x2048_1_0_0_1_n_n.contr.Idx) :
    (dot_S512x1024_S1024x2048_S512x2048_1_0_0_1_n_n.lhsIdx i q 1).val = (q ⟨0, by decide⟩).val :=
  dot_S512x1024_S1024x2048_S512x2048_1_0_0_1_n_n.lhsIdx_val_of_single rfl i q
theorem mm_ctx_rhsN (i : S512x2048.Idx) (q : dot_S512x1024_S1024x2048_S512x2048_1_0_0_1_n_n.contr.Idx) :
    (dot_S512x1024_S1024x2048_S512x2048_1_0_0_1_n_n.rhsIdx i q 1).val = (i 1).val := by
  unfold DotDims.rhsIdx
  rw [dif_neg (show ¬(1 : Fin S1024x2048.rank) ∈ dot_S512x1024_S1024x2048_S512x2048_1_0_0_1_n_n.rhsBatch by decide), dif_pos (show (1 : Fin S1024x2048.rank) ∈ dot_S512x1024_S1024x2048_S512x2048_1_0_0_1_n_n.rhsNonContracting by decide)]
  rfl
theorem mm_ctx_rhsC (i : S512x2048.Idx) (q : dot_S512x1024_S1024x2048_S512x2048_1_0_0_1_n_n.contr.Idx) :
    (dot_S512x1024_S1024x2048_S512x2048_1_0_0_1_n_n.rhsIdx i q 0).val = (q ⟨0, by decide⟩).val :=
  dot_S512x1024_S1024x2048_S512x2048_1_0_0_1_n_n.rhsIdx_val_of_single rfl i q

/-- The plain product, [512, 1024] times [1024, 2048]: entry (p, e) is the sum over n of left (p, n) * right (n, e). -/
theorem mm_ctx_apply (lhs : FVec Ideal S512x1024 .bf16) (rhs : FVec Ideal S1024x2048 .bf16) (p : Fin 512) (e : Fin 2048) :
    matmul dot_S512x1024_S1024x2048_S512x2048_1_0_0_1_n_n none lhs rhs (constant S512x2048 .f32 0x00000000#32) (ix2 p e)
      = ∑ d : Fin 1024, lhs (ix2 p d) * rhs (ix2 d e) := by
  simp only [matmul]
  rw [Ideal.matmul_constant_zero_apply, ← Equiv.sum_comp (contrEquiv1 dot_S512x1024_S1024x2048_S512x2048_1_0_0_1_n_n 1024 rfl rfl).symm]
  refine Finset.sum_congr rfl fun d _ => ?_
  have hk := contrEquiv1_symm_val dot_S512x1024_S1024x2048_S512x2048_1_0_0_1_n_n 1024 rfl rfl d
  have el : dot_S512x1024_S1024x2048_S512x2048_1_0_0_1_n_n.lhsIdx (ix2 p e) ((contrEquiv1 dot_S512x1024_S1024x2048_S512x2048_1_0_0_1_n_n 1024 rfl rfl).symm d) = ix2 p d := funext fun a => Fin.ext (by
    match a with
    | ⟨0, _⟩ => exact mm_ctx_lhsN _ _
    | ⟨1, _⟩ => exact (mm_ctx_lhsC _ _).trans hk)
  have er : dot_S512x1024_S1024x2048_S512x2048_1_0_0_1_n_n.rhsIdx (ix2 p e) ((contrEquiv1 dot_S512x1024_S1024x2048_S512x2048_1_0_0_1_n_n 1024 rfl rfl).symm d) = ix2 d e := funext fun a => Fin.ext (by
    match a with
    | ⟨1, _⟩ => exact mm_ctx_rhsN _ _
    | ⟨0, _⟩ => exact (mm_ctx_rhsC _ _).trans hk)
  rw [el, er]

/-! ## The payloads read at an entry

Identity shape casts and the narrowing to bf16 do nothing to an exact value; a row broadcast down the rows
reads the row; a splat reads its scalar. -/

/-- The scaled projection: ((sum over d of x (p, d) * w (e, d)) + b (0, e)) times the scalar constant. -/
theorem pay_q (x : Vec Ideal S256x2048 .bf16) (w : Vec Ideal S2048x2048 .bf16) (b : Vec Ideal S1x2048 .f32) (p : Fin 256) (e : Fin 2048) :
    k0_pay2 (F := Ideal) x w b (ix2 p e)
      = ((∑ d : Fin 2048, x (ix2 p d) * w (ix2 e d)) + b (ix2 0 e)) * Ideal.ofBits .f32 0x3CB504F3#32 := by
  unfold k0_pay2 k0_pay1
  simp only [shapeCast_self]
  rw [truncf_apply, mulf_apply, addf_apply, broadcast_apply, mm_proj_apply, broadcastTo_1b_ab_apply]
  rfl

/-- An unscaled projection: (sum over d of x (p, d) * w (e, d)) + b (0, e). -/
theorem pay_k (x : Vec Ideal S256x2048 .bf16) (w : Vec Ideal S2048x2048 .bf16) (b : Vec Ideal S1x2048 .f32) (p : Fin 256) (e : Fin 2048) :
    k0_pay3 (F := Ideal) x w b (ix2 p e) = (∑ d : Fin 2048, x (ix2 p d) * w (ix2 e d)) + b (ix2 0 e) := by
  unfold k0_pay3 k0_pay1
  simp only [shapeCast_self]
  rw [truncf_apply, addf_apply, mm_proj_apply, broadcastTo_1b_ab_apply]

/-- The third projection, of the same form. -/
theorem pay_v (x : Vec Ideal S256x2048 .bf16) (w : Vec Ideal S2048x2048 .bf16) (b : Vec Ideal S1x2048 .f32) (p : Fin 256) (e : Fin 2048) :
    k0_pay4 (F := Ideal) x w b (ix2 p e) = (∑ d : Fin 2048, x (ix2 p d) * w (ix2 e d)) + b (ix2 0 e) := by
  unfold k0_pay4 k0_pay1
  simp only [shapeCast_self]
  rw [truncf_apply, addf_apply, mm_proj_apply, broadcastTo_1b_ab_apply]

/-- The accumulator's initial value: zero everywhere. -/
theorem pay_zero (p : Fin 512) (e : Fin 2048) : k1_pay1 (F := Ideal) (ix2 p e) = 0 := by
  unfold k1_pay1
  simp only [shapeCast_self]
  rw [broadcast_apply]
  exact Ideal.ofBits_zero_f32

/-- One accumulation step: the accumulator plus the sum over the 1024 rows n of the block of
    (sum over d of q (p, d) * k (n, d)) * v (n, e). -/
theorem pay_acc (q : Vec Ideal S512x2048 .bf16) (k v : Vec Ideal S1024x2048 .bf16) (a : Vec Ideal S512x2048 .f32) (p : Fin 512) (e : Fin 2048) :
    k1_pay2 (F := Ideal) q k v a (ix2 p e)
      = a (ix2 p e) + ∑ n : Fin 1024, (∑ d : Fin 2048, q (ix2 p d) * k (ix2 n d)) * v (ix2 n e) := by
  unfold k1_pay2
  simp only [shapeCast_self]
  rw [addf_apply, mm_ctx_apply]
  refine congrArg (a (ix2 p e) + ·) (Finset.sum_congr rfl fun n _ => ?_)
  rw [truncf_apply, mm_score_apply]

/-! ## The host operations before the first launch, read at an entry

Four conversions to bf16, the identity on exact values: the converted array holds the argument's entries.
Three reshapes of a vector [2048] to a row [1, 2048]: the row's entry (0, e) is the vector's entry e. -/

theorem host_v0 (V : Valuation τ sig (Elt Ideal)) (p : Fin 4096) (d : Fin 2048) :
    StableHlo.after (hostOps0 (F := Ideal)) V (Proc.devRef .tc main_v0) (ix2 p d) = V (Proc.devRef .tc main_arg0) (ix2 p d) := by
  have h : (StableHlo.after (hostOps0 (F := Ideal)) V (Proc.devRef .tc main_v0) : S4096x2048.Idx → EReal)
      = (truncf .bf16 (V (Proc.devRef .tc main_arg0) : FVec Ideal S4096x2048 .f32) bitsLt_bf16_f32 : FVec Ideal S4096x2048 .bf16) := by
    dsimp only [hostOps0]; after_results
  exact congrFun h (ix2 p d)

theorem host_v1 (V : Valuation τ sig (Elt Ideal)) (p : Fin 2048) (d : Fin 2048) :
    StableHlo.after (hostOps0 (F := Ideal)) V (Proc.devRef .tc main_v1) (ix2 p d) = V (Proc.devRef .tc main_arg1) (ix2 p d) := by
  have h : (StableHlo.after (hostOps0 (F := Ideal)) V (Proc.devRef .tc main_v1) : S2048x2048.Idx → EReal)
      = (truncf .bf16 (V (Proc.devRef .tc main_arg1) : FVec Ideal S2048x2048 .f32) bitsLt_bf16_f32 : FVec Ideal S2048x2048 .bf16) := by
    dsimp only [hostOps0]; after_results
  exact congrFun h (ix2 p d)

theorem host_v2 (V : Valuation τ sig (Elt Ideal)) (p : Fin 2048) (d : Fin 2048) :
    StableHlo.after (hostOps0 (F := Ideal)) V (Proc.devRef .tc main_v2) (ix2 p d) = V (Proc.devRef .tc main_arg3) (ix2 p d) := by
  have h : (StableHlo.after (hostOps0 (F := Ideal)) V (Proc.devRef .tc main_v2) : S2048x2048.Idx → EReal)
      = (truncf .bf16 (V (Proc.devRef .tc main_arg3) : FVec Ideal S2048x2048 .f32) bitsLt_bf16_f32 : FVec Ideal S2048x2048 .bf16) := by
    dsimp only [hostOps0]; after_results
  exact congrFun h (ix2 p d)

theorem host_v3 (V : Valuation τ sig (Elt Ideal)) (p : Fin 2048) (d : Fin 2048) :
    StableHlo.after (hostOps0 (F := Ideal)) V (Proc.devRef .tc main_v3) (ix2 p d) = V (Proc.devRef .tc main_arg5) (ix2 p d) := by
  have h : (StableHlo.after (hostOps0 (F := Ideal)) V (Proc.devRef .tc main_v3) : S2048x2048.Idx → EReal)
      = (truncf .bf16 (V (Proc.devRef .tc main_arg5) : FVec Ideal S2048x2048 .f32) bitsLt_bf16_f32 : FVec Ideal S2048x2048 .bf16) := by
    dsimp only [hostOps0]; after_results
  exact congrFun h (ix2 p d)

theorem host_v4 (V : Valuation τ sig (Elt Ideal)) (e : Fin 2048) :
    StableHlo.after (hostOps0 (F := Ideal)) V (Proc.devRef .tc main_v4) (ix2 0 e) = V (Proc.devRef .tc main_arg2) (ix1 e) := by
  have h : (StableHlo.after (hostOps0 (F := Ideal)) V (Proc.devRef .tc main_v4) : S1x2048.Idx → EReal)
      = shapeCast S1x2048 (V (Proc.devRef .tc main_arg2) : S2048.Idx → EReal) shapeCasts_S2048_S1x2048 := by
    dsimp only [hostOps0]; after_results; rfl
  exact (congrFun h (ix2 0 e)).trans (shapeCast_a_1a_apply _ _ 0 e)

theorem host_v5 (V : Valuation τ sig (Elt Ideal)) (e : Fin 2048) :
    StableHlo.after (hostOps0 (F := Ideal)) V (Proc.devRef .tc main_v5) (ix2 0 e) = V (Proc.devRef .tc main_arg4) (ix1 e) := by
  have h : (StableHlo.after (hostOps0 (F := Ideal)) V (Proc.devRef .tc main_v5) : S1x2048.Idx → EReal)
      = shapeCast S1x2048 (V (Proc.devRef .tc main_arg4) : S2048.Idx → EReal) shapeCasts_S2048_S1x2048 := by
    dsimp only [hostOps0]; after_results; rfl
  exact (congrFun h (ix2 0 e)).trans (shapeCast_a_1a_apply _ _ 0 e)

theorem host_v6 (V : Valuation τ sig (Elt Ideal)) (e : Fin 2048) :
    StableHlo.after (hostOps0 (F := Ideal)) V (Proc.devRef .tc main_v6) (ix2 0 e) = V (Proc.devRef .tc main_arg6) (ix1 e) := by
  have h : (StableHlo.after (hostOps0 (F := Ideal)) V (Proc.devRef .tc main_v6) : S1x2048.Idx → EReal)
      = shapeCast S1x2048 (V (Proc.devRef .tc main_arg6) : S2048.Idx → EReal) shapeCasts_S2048_S1x2048 := by
    dsimp only [hostOps0]; after_results; rfl
  exact (congrFun h (ix2 0 e)).trans (shapeCast_a_1a_apply _ _ 0 e)

end Cert.KernelIdeal.Pay

end
-- ==== Proof.QkvValue.lean ====
import proofs.«106262_j50783693308389_2_alg».proof.Proof.IdealFrame.QkvData
import proofs.«106262_j50783693308389_2_alg».proof.Proof.KernelPayloads
import Idealize.ShloMosaic.Lib.Pipeline.Value
import Idealize.ShloMosaic.Lib.ValueIdx

noncomputable section

namespace Cert.KernelIdeal.Val0

open Cert.KernelIdeal Cert.KernelIdeal.Gen Cert.KernelIdeal.Fr Cert.KernelIdeal.Pay
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The first region's three output arrays as whole-array functions

Grid point t of 16 stages rows [256 t, 256 t + 256) of x and the whole of each weight matrix and bias row, and
writes back rows [256 t, 256 t + 256) of each output. So each output array ends holding ONE function of the
arrays the region finds: entry (p, e) is the projection of row p of x. -/

theorem zero_offsets : (![0, 0] : Fin 2 → Nat) = fun _ => 0 := funext fun a => by fin_cases a <;> rfl

/-- A linear projection with transposed weights and a bias row, entry by entry:
    (sum over d of X (p, d) * W (e, d)) + B (0, e). -/
abbrev lin (X : S4096x2048.Idx → EReal) (W : S2048x2048.Idx → EReal) (B : S1x2048.Idx → EReal) : S4096x2048.Idx → EReal :=
  fun i => (∑ d : Fin 2048, X (ix2 (⟨(i 0).val, (i 0).isLt⟩ : Fin 4096) d) * W (ix2 (⟨(i 1).val, (i 1).isLt⟩ : Fin 2048) d))
    + B (ix2 (0 : Fin 1) (⟨(i 1).val, (i 1).isLt⟩ : Fin 2048))

/-- The scaled projection: the same times the scalar constant. -/
abbrev linScaled (X : S4096x2048.Idx → EReal) (W : S2048x2048.Idx → EReal) (B : S1x2048.Idx → EReal) : S4096x2048.Idx → EReal :=
  fun i => lin X W B i * Ideal.ofBits .f32 0x3CB504F3#32

/-- The index maps over the grid: the row-blocked windows (x and the three outputs) sit at block (t, 0), the
    whole-array windows at block (0, 0). -/
theorem index_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## The staged blocks read off the arrays -/

/-- The staged block of x at point t is rows 256 t … 256 t + 255 of the array. -/
theorem blk_x_apply (c : Dev nD) (t : Fin cfg0.N) (j : S256x2048.Idx) (i : S4096x2048.Idx)
    (h0 : (i 0).val = 256 * t.val + (j 0).val) (h1 : (i 1).val = (j 1).val) :
    (blk0 V c 0 t : Vec Ideal S256x2048 .bf16) j = (V c main_v0 : S4096x2048.Idx → EReal) i := by
  have hi := index_facts t
  unfold blk0
  rw [View.read_apply]
  show V c main_v0 _ = V c main_v0 _
  congr 1
  funext a
  apply Fin.ext
  match a with
  | ⟨0, _⟩ => show win0_0.index t 0 * 256 + 1 * (j 0).val = (i 0).val; rw [hi.1, h0]; omega
  | ⟨1, _⟩ => show win0_0.index t 1 * 2048 + 1 * (j 1).val = (i 1).val; rw [hi.2.1, h1]; omega

/-- A whole-array window's staged block is the array. -/
theorem blk_1_eq (c : Dev nD) (t : Fin cfg0.N) : (blk0 V c 1 t : S2048x2048.Idx → EReal) = (V c main_v1 : S2048x2048.Idx → EReal) := by
  have hi := index_facts t
  funext j
  unfold blk0
  rw [View.read_apply]
  show V c main_v1 _ = V c main_v1 _
  congr 1
  funext a
  apply Fin.ext
  match a with
  | ⟨0, _⟩ => show win0_1.index t 0 * 2048 + 1 * (j 0).val = (j 0).val; rw [hi.2.2.2.2.2.2.2.2.1]; omega
  | ⟨1, _⟩ => show win0_1.index t 1 * 2048 + 1 * (j 1).val = (j 1).val; rw [hi.2.2.2.2.2.2.2.2.2.1]; omega

theorem blk_2_eq (c : Dev nD) (t : Fin cfg0.N) : (blk0 V c 2 t : S1x2048.Idx → EReal) = (V c main_v4 : S1x2048.Idx → EReal) := by
  have hi := index_facts t
  funext j
  unfold blk0
  rw [View.read_apply]
  show V c main_v4 _ = V c main_v4 _
  congr 1
  funext a
  apply Fin.ext
  match a with
  | ⟨0, _⟩ => show win0_2.index t 0 * 1 + 1 * (j 0).val = (j 0).val; rw [hi.2.2.2.2.2.2.2.2.2.2.1]; omega
  | ⟨1, _⟩ => show win0_2.index t 1 * 2048 + 1 * (j 1).val = (j 1).val; rw [hi.2.2.2.2.2.2.2.2.2.2.2.1]; omega

theorem blk_3_eq (c : Dev nD) (t : Fin cfg0.N) : (blk0 V c 3 t : S2048x2048.Idx → EReal) = (V c main_v2 : S2048x2048.Idx → EReal) := by
  have hi := index_facts t
  funext j
  unfold blk0
  rw [View.read_apply]
  show V c main_v2 _ = V c main_v2 _
  congr 1
  funext a
  apply Fin.ext
  match a with
  | ⟨0, _⟩ => show win0_3.index t 0 * 2048 + 1 * (j 0).val = (j 0).val; rw [hi.2.2.2.2.2.2.2.2.2.2.2.2.1]; omega
  | ⟨1, _⟩ => show win0_3.index t 1 * 2048 + 1 * (j 1).val = (j 1).val; rw [hi.2.2.2.2.2.2.2.2.2.2.2.2.2.1]; omega

theorem blk_4_eq (c : Dev nD) (t : Fin cfg0.N) : (blk0 V c 4 t : S1x2048.Idx → EReal) = (V c main_v5 : S1x2048.Idx → EReal) := by
  have hi := index_facts t
  funext j
  unfold blk0
  rw [View.read_apply]
  show V c main_v5 _ = V c main_v5 _
  congr 1
  funext a
  apply Fin.ext
  match a with
  | ⟨0, _⟩ => show win0_4.index t 0 * 1 + 1 * (j 0).val = (j 0).val; rw [hi.2.2.2.2.2.2.2.2.2.2.2.2.2.2.1]; omega
  | ⟨1, _⟩ => show win0_4.index t 1 * 2048 + 1 * (j 1).val = (j 1).val; rw [hi.2.2.2.2.2.2.2.2.2.2.2.2.2.2.2.1]; omega

theorem blk_5_eq (c : Dev nD) (t : Fin cfg0.N) : (blk0 V c 5 t : S2048x2048.Idx → EReal) = (V c main_v3 : S2048x2048.Idx → EReal) := by
  have hi := index_facts t
  funext j
  unfold blk0
  rw [View.read_apply]
  show V c main_v3 _ = V c main_v3 _
  congr 1
  funext a
  apply Fin.ext
  match a with
  | ⟨0, _⟩ => show win0_5.index t 0 * 2048 + 1 * (j 0).val = (j 0).val; rw [hi.2.2.2.2.2.2.2.2.2.2.2.2.2.2.2.2.1]; omega
  | ⟨1, _⟩ => show win0_5.index t 1 * 2048 + 1 * (j 1).val = (j 1).val; rw [hi.2.2.2.2.2.2.2.2.2.2.2.2.2.2.2.2.2.1]; omega

theorem blk_6_eq (c : Dev nD) (t : Fin cfg0.N) : (blk0 V c 6 t : S1x2048.Idx → EReal) = (V c main_v6 : S1x2048.Idx → EReal) := by
  have hi := index_facts t
  funext j
  unfold blk0
  rw [View.read_apply]
  show V c main_v6 _ = V c main_v6 _
  congr 1
  funext a
  apply Fin.ext
  match a with
  | ⟨0, _⟩ => show win0_6.index t 0 * 1 + 1 * (j 0).val = (j 0).val; rw [hi.2.2.2.2.2.2.2.2.2.2.2.2.2.2.2.2.2.2.1]; omega
  | ⟨1, _⟩ => show win0_6.index t 1 * 2048 + 1 * (j 1).val = (j 1).val; rw [hi.2.2.2.2.2.2.2.2.2.2.2.2.2.2.2.2.2.2.2]; omega

/-! ## One entry of each payload, over the staged blocks as variables -/

/-- An entry's two indices from their coordinates. -/
theorem idx_split_blk (j : S256x2048.Idx) : j = ix2 (⟨(j 0).val, (j 0).isLt⟩ : Fin 256) (⟨(j 1).val, (j 1).isLt⟩ : Fin 2048) :=
  funext fun a => match a with | ⟨0, _⟩ => rfl | ⟨1, _⟩ => rfl

/-- If the staged rows are the array's rows at the entry's row, the scaled payload's entry is the scaled
    projection's. -/
theorem q_entry (x : Vec Ideal S256x2048 .bf16) (w : Vec Ideal S2048x2048 .bf16) (b : Vec Ideal S1x2048 .f32)
    (X : S4096x2048.Idx → EReal) (j : S256x2048.Idx) (i : S4096x2048.Idx)
    (hx : ∀ d : Fin 2048, x (ix2 (⟨(j 0).val, (j 0).isLt⟩ : Fin 256) d) = X (ix2 (⟨(i 0).val, (i 0).isLt⟩ : Fin 4096) d))
    (h1 : (i 1).val = (j 1).val) :
    k0_pay2 (F := Ideal) x w b j = linScaled X w b i := by
  have e1 : (⟨(i 1).val, (i 1).isLt⟩ : Fin 2048) = ⟨(j 1).val, (j 1).isLt⟩ := Fin.ext h1
  rw [idx_split_blk j, pay_q]
  show _ = ((∑ d : Fin 2048, X (ix2 (⟨(i 0).val, (i 0).isLt⟩ : Fin 4096) d) * w (ix2 (⟨(i 1).val, (i 1).isLt⟩ : Fin 2048) d))
    + b (ix2 (0 : Fin 1) (⟨(i 1).val, (i 1).isLt⟩ : Fin 2048))) * Ideal.ofBits .f32 0x3CB504F3#32
  rw [e1]
  simp only [hx]

theorem k_entry (x : Vec Ideal S256x2048 .bf16) (w : Vec Ideal S2048x2048 .bf16) (b : Vec Ideal S1x2048 .f32)
    (X : S4096x2048.Idx → EReal) (j : S256x2048.Idx) (i : S4096x2048.Idx)
    (hx : ∀ d : Fin 2048, x (ix2 (⟨(j 0).val, (j 0).isLt⟩ : Fin 256) d) = X (ix2 (⟨(i 0).val, (i 0).isLt⟩ : Fin 4096) d))
    (h1 : (i 1).val = (j 1).val) :
    k0_pay3 (F := Ideal) x w b j = lin X w b i := by
  have e1 : (⟨(i 1).val, (i 1).isLt⟩ : Fin 2048) = ⟨(j 1).val, (j 1).isLt⟩ := Fin.ext h1
  rw [idx_split_blk j, pay_k]
  show _ = (∑ d : Fin 2048, X (ix2 (⟨(i 0).val, (i 0).isLt⟩ : Fin 4096) d) * w (ix2 (⟨(i 1).val, (i 1).isLt⟩ : Fin 2048) d))
    + b (ix2 (0 : Fin 1) (⟨(i 1).val, (i 1).isLt⟩ : Fin 2048))
  rw [e1]
  simp only [hx]

theorem v_entry (x : Vec Ideal S256x2048 .bf16) (w : Vec Ideal S2048x2048 .bf16) (b : Vec Ideal S1x2048 .f32)
    (X : S4096x2048.Idx → EReal) (j : S256x2048.Idx) (i : S4096x2048.Idx)
    (hx : ∀ d : Fin 2048, x (ix2 (⟨(j 0).val, (j 0).isLt⟩ : Fin 256) d) = X (ix2 (⟨(i 0).val, (i 0).isLt⟩ : Fin 4096) d))
    (h1 : (i 1).val = (j 1).val) :
    k0_pay4 (F := Ideal) x w b j = lin X w b i := by
  have e1 : (⟨(i 1).val, (i 1).isLt⟩ : Fin 2048) = ⟨(j 1).val, (j 1).isLt⟩ := Fin.ext h1
  rw [idx_split_blk j, pay_v]
  show _ = (∑ d : Fin 2048, X (ix2 (⟨(i 0).val, (i 0).isLt⟩ : Fin 4096) d) * w (ix2 (⟨(i 1).val, (i 1).isLt⟩ : Fin 2048) d))
    + b (ix2 (0 : Fin 1) (⟨(i 1).val, (i 1).isLt⟩ : Fin 2048))
  rw [e1]
  simp only [hx]

/-- Entry (p, e) of a linear projection with transposed weights and a bias row, over arrays given by their
    entries: (sum over d of X (p, d) * W (e, d)) + B (0, e). -/
abbrev projEntry (X : S4096x2048.Idx → EReal) (W : S2048x2048.Idx → EReal) (B : S1x2048.Idx → EReal)
    (p : Fin 4096) (e : Fin 2048) : EReal :=
  (∑ d : Fin 2048, X (ix2 p d) * W (ix2 e d)) + B (ix2 (0 : Fin 1) e)

theorem projEntry_def (X : S4096x2048.Idx → EReal) (W : S2048x2048.Idx → EReal) (B : S1x2048.Idx → EReal)
    (p : Fin 4096) (e : Fin 2048) :
    projEntry X W B p e = (∑ d : Fin 2048, X (ix2 p d) * W (ix2 e d)) + B (ix2 (0 : Fin 1) e) := rfl

/-! ## The first output: the scaled projection -/

/-- What point t writes back is block t of the whole-array function of the arrays the region finds. -/
theorem q_flushed (c : Dev nD) (t : Fin cfg0.N) :
    (dat0 V c).flushed 7 t = ((cfg0.win 7).blk t).view.read (Elt Ideal) (linScaled (V c main_v0) (V c main_v1) (V c main_v4)) := by
  have hi := index_facts t
  show (cfg0.win 7).cut (grid0.coords t) ((dat0 V c).after 7 t) = _
  rw [after0_7]
  unfold projQ
  rw [View.canon_unit_zero zero_offsets]
  simp only [View.ld_unit_zero (S := S256x2048) zero_offsets, View.ld_unit_zero (S := S2048x2048) zero_offsets, View.ld_unit_zero (S := S1x2048) zero_offsets]
  rw [blk_1_eq V c t, blk_2_eq V c t]
  funext j
  rw [View.read_apply]
  refine q_entry _ _ _ _ j _ (fun d => ?_) ?_
  · refine blk_x_apply V c t _ _ ?_ rfl
    show win0_7.index t 0 * 256 + 1 * (j 0).val = 256 * t.val + (j 0).val
    rw [hi.2.2.1]; omega
  · show win0_7.index t 1 * 2048 + 1 * (j 1).val = (j 1).val
    rw [hi.2.2.2.1]; omega

/-- An index of the array is in point t's block iff each coordinate is in the block's range on its axis. -/
theorem q_mem_blk (t : Fin cfg0.N) (i : S4096x2048.Idx) :
    i ∈ ((cfg0.win 7).blk t).view.set ↔ ∀ a : Fin 2, win0_7.index t a * S256x2048.size a ≤ (i a).val ∧ (i a).val < win0_7.index t a * S256x2048.size a + S256x2048.size a := by
  show i ∈ ((View.whole main_v7_0).slice (win0_7.rect t)).set ↔ _
  rw [View.set_slice_whole, Rect.mem_set_unit]
  exact Iff.rfl

/-- Row p lies in the block of point p / 256, and every point writes back: the blocks cover the array. -/
theorem q_cover (i : S4096x2048.Idx) : ∃ t : Fin cfg0.N, (cfg0.win 7).flush t = true ∧ i ∈ ((cfg0.win 7).blk t).view.set := by
  have hi0 : (i 0).val < 4096 := (i 0).isLt
  have hi1 : (i 1).val < 2048 := (i 1).isLt
  have hN : (i 0).val / 256 < cfg0.N := by show (i 0).val / 256 < 16; omega
  have hi := index_facts ⟨(i 0).val / 256, hN⟩
  have q0 : win0_7.index ⟨(i 0).val / 256, hN⟩ (0 : Fin 2) = (i 0).val / 256 := hi.2.2.1
  have q1 : win0_7.index ⟨(i 0).val / 256, hN⟩ (1 : Fin 2) = 0 := hi.2.2.2.1
  refine ⟨⟨(i 0).val / 256, hN⟩, flush0_7 _, ?_⟩
  rw [q_mem_blk]
  intro a
  match a with
  | ⟨0, _⟩ => show win0_7.index ⟨(i 0).val / 256, hN⟩ (0 : Fin 2) * 256 ≤ (i 0).val ∧ (i 0).val < win0_7.index ⟨(i 0).val / 256, hN⟩ (0 : Fin 2) * 256 + 256; omega
  | ⟨1, _⟩ => show win0_7.index ⟨(i 0).val / 256, hN⟩ (1 : Fin 2) * 2048 ≤ (i 1).val ∧ (i 1).val < win0_7.index ⟨(i 0).val / 256, hN⟩ (1 : Fin 2) * 2048 + 2048; omega

/-- The array after the region's run. -/
theorem q_array (c : Dev nD) : (dat0 V c).arrAt 7 cfg0.N = linScaled (V c main_v0) (V c main_v1) (V c main_v4) :=
  (dat0 V c).arrAt_eq_of_cover 7 (linScaled (V c main_v0) (V c main_v1) (V c main_v4)) (fun t _ => q_flushed V c t) q_cover

/-- Entry (p, e) of the first output after the run. -/
theorem q_final (c : Dev nD) (p : Fin 4096) (e : Fin 2048) :
    (dat0 (F := Ideal) V c).arrAt 7 cfg0.N (ix2 p e)
      = projEntry (V c main_v0) (V c main_v1) (V c main_v4) p e * Ideal.ofBits .f32 0x3CB504F3#32 :=
  congrFun (q_array V c) (ix2 p e)

/-! ## The second output -/

/-- What point t writes back is block t of the whole-array function of the arrays the region finds. -/
theorem k_flushed (c : Dev nD) (t : Fin cfg0.N) :
    (dat0 V c).flushed 8 t = ((cfg0.win 8).blk t).view.read (Elt Ideal) (lin (V c main_v0) (V c main_v2) (V c main_v5)) := by
  have hi := index_facts t
  show (cfg0.win 8).cut (grid0.coords t) ((dat0 V c).after 8 t) = _
  rw [after0_8]
  unfold projK
  rw [View.canon_unit_zero zero_offsets]
  simp only [View.ld_unit_zero (S := S256x2048) zero_offsets, View.ld_unit_zero (S := S2048x2048) zero_offsets, View.ld_unit_zero (S := S1x2048) zero_offsets]
  rw [blk_3_eq V c t, blk_4_eq V c t]
  funext j
  rw [View.read_apply]
  refine k_entry _ _ _ _ j _ (fun d => ?_) ?_
  · refine blk_x_apply V c t _ _ ?_ rfl
    show win0_8.index t 0 * 256 + 1 * (j 0).val = 256 * t.val + (j 0).val
    rw [hi.2.2.2.2.1]; omega
  · show win0_8.index t 1 * 2048 + 1 * (j 1).val = (j 1).val
    rw [hi.2.2.2.2.2.1]; omega

/-- An index of the array is in point t's block iff each coordinate is in the block's range on its axis. -/
theorem k_mem_blk (t : Fin cfg0.N) (i : S4096x2048.Idx) :
    i ∈ ((cfg0.win 8).blk t).view.set ↔ ∀ a : Fin 2, win0_8.index t a * S256x2048.size a ≤ (i a).val ∧ (i a).val < win0_8.index t a * S256x2048.size a + S256x2048.size a := by
  show i ∈ ((View.whole main_v7_1).slice (win0_8.rect t)).set ↔ _
  rw [View.set_slice_whole, Rect.mem_set_unit]
  exact Iff.rfl

/-- Row p lies in the block of point p / 256, and every point writes back: the blocks cover the array. -/
theorem k_cover (i : S4096x2048.Idx) : ∃ t : Fin cfg0.N, (cfg0.win 8).flush t = true ∧ i ∈ ((cfg0.win 8).blk t).view.set := by
  have hi0 : (i 0).val < 4096 := (i 0).isLt
  have hi1 : (i 1).val < 2048 := (i 1).isLt
  have hN : (i 0).val / 256 < cfg0.N := by show (i 0).val / 256 < 16; omega
  have hi := index_facts ⟨(i 0).val / 256, hN⟩
  have q0 : win0_8.index ⟨(i 0).val / 256, hN⟩ (0 : Fin 2) = (i 0).val / 256 := hi.2.2.2.2.1
  have q1 : win0_8.index ⟨(i 0).val / 256, hN⟩ (1 : Fin 2) = 0 := hi.2.2.2.2.2.1
  refine ⟨⟨(i 0).val / 256, hN⟩, flush0_8 _, ?_⟩
  rw [k_mem_blk]
  intro a
  match a with
  | ⟨0, _⟩ => show win0_8.index ⟨(i 0).val / 256, hN⟩ (0 : Fin 2) * 256 ≤ (i 0).val ∧ (i 0).val < win0_8.index ⟨(i 0).val / 256, hN⟩ (0 : Fin 2) * 256 + 256; omega
  | ⟨1, _⟩ => show win0_8.index ⟨(i 0).val / 256, hN⟩ (1 : Fin 2) * 2048 ≤ (i 1).val ∧ (i 1).val < win0_8.index ⟨(i 0).val / 256, hN⟩ (1 : Fin 2) * 2048 + 2048; omega

/-- The array after the region's run. -/
theorem k_array (c : Dev nD) : (dat0 V c).arrAt 8 cfg0.N = lin (V c main_v0) (V c main_v2) (V c main_v5) :=
  (dat0 V c).arrAt_eq_of_cover 8 (lin (V c main_v0) (V c main_v2) (V c main_v5)) (fun t _ => k_flushed V c t) k_cover

/-- Entry (p, e) of the second output after the run. -/
theorem k_final (c : Dev nD) (p : Fin 4096) (e : Fin 2048) :
    (dat0 (F := Ideal) V c).arrAt 8 cfg0.N (ix2 p e)
      = projEntry (V c main_v0) (V c main_v2) (V c main_v5) p e :=
  congrFun (k_array V c) (ix2 p e)

/-! ## The third output -/

/-- What point t writes back is block t of the whole-array function of the arrays the region finds. -/
theorem v_flushed (c : Dev nD) (t : Fin cfg0.N) :
    (dat0 V c).flushed 9 t = ((cfg0.win 9).blk t).view.read (Elt Ideal) (lin (V c main_v0) (V c main_v3) (V c main_v6)) := by
  have hi := index_facts t
  show (cfg0.win 9).cut (grid0.coords t) ((dat0 V c).after 9 t) = _
  rw [after0_9]
  unfold projV
  rw [View.canon_unit_zero zero_offsets]
  simp only [View.ld_unit_zero (S := S256x2048) zero_offsets, View.ld_unit_zero (S := S2048x2048) zero_offsets, View.ld_unit_zero (S := S1x2048) zero_offsets]
  rw [blk_5_eq V c t, blk_6_eq V c t]
  funext j
  rw [View.read_apply]
  refine v_entry _ _ _ _ j _ (fun d => ?_) ?_
  · refine blk_x_apply V c t _ _ ?_ rfl
    show win0_9.index t 0 * 256 + 1 * (j 0).val = 256 * t.val + (j 0).val
    rw [hi.2.2.2.2.2.2.1]; omega
  · show win0_9.index t 1 * 2048 + 1 * (j 1).val = (j 1).val
    rw [hi.2.2.2.2.2.2.2.1]; omega

/-- An index of the array is in point t's block iff each coordinate is in the block's range on its axis. -/
theorem v_mem_blk (t : Fin cfg0.N) (i : S4096x2048.Idx) :
    i ∈ ((cfg0.win 9).blk t).view.set ↔ ∀ a : Fin 2, win0_9.index t a * S256x2048.size a ≤ (i a).val ∧ (i a).val < win0_9.index t a * S256x2048.size a + S256x2048.size a := by
  show i ∈ ((View.whole main_v7_2).slice (win0_9.rect t)).set ↔ _
  rw [View.set_slice_whole, Rect.mem_set_unit]
  exact Iff.rfl

/-- Row p lies in the block of point p / 256, and every point writes back: the blocks cover the array. -/
theorem v_cover (i : S4096x2048.Idx) : ∃ t : Fin cfg0.N, (cfg0.win 9).flush t = true ∧ i ∈ ((cfg0.win 9).blk t).view.set := by
  have hi0 : (i 0).val < 4096 := (i 0).isLt
  have hi1 : (i 1).val < 2048 := (i 1).isLt
  have hN : (i 0).val / 256 < cfg0.N := by show (i 0).val / 256 < 16; omega
  have hi := index_facts ⟨(i 0).val / 256, hN⟩
  have q0 : win0_9.index ⟨(i 0).val / 256, hN⟩ (0 : Fin 2) = (i 0).val / 256 := hi.2.2.2.2.2.2.1
  have q1 : win0_9.index ⟨(i 0).val / 256, hN⟩ (1 : Fin 2) = 0 := hi.2.2.2.2.2.2.2.1
  refine ⟨⟨(i 0).val / 256, hN⟩, flush0_9 _, ?_⟩
  rw [v_mem_blk]
  intro a
  match a with
  | ⟨0, _⟩ => show win0_9.index ⟨(i 0).val / 256, hN⟩ (0 : Fin 2) * 256 ≤ (i 0).val ∧ (i 0).val < win0_9.index ⟨(i 0).val / 256, hN⟩ (0 : Fin 2) * 256 + 256; omega
  | ⟨1, _⟩ => show win0_9.index ⟨(i 0).val / 256, hN⟩ (1 : Fin 2) * 2048 ≤ (i 1).val ∧ (i 1).val < win0_9.index ⟨(i 0).val / 256, hN⟩ (1 : Fin 2) * 2048 + 2048; omega

/-- The array after the region's run. -/
theorem v_array (c : Dev nD) : (dat0 V c).arrAt 9 cfg0.N = lin (V c main_v0) (V c main_v3) (V c main_v6) :=
  (dat0 V c).arrAt_eq_of_cover 9 (lin (V c main_v0) (V c main_v3) (V c main_v6)) (fun t _ => v_flushed V c t) v_cover

/-- Entry (p, e) of the third output after the run. -/
theorem v_final (c : Dev nD) (p : Fin 4096) (e : Fin 2048) :
    (dat0 (F := Ideal) V c).arrAt 9 cfg0.N (ix2 p e)
      = projEntry (V c main_v0) (V c main_v3) (V c main_v6) p e :=
  congrFun (v_array V c) (ix2 p e)

end Cert.KernelIdeal.Val0

end
-- ==== Proof.IdealFrame.AttnPieces.lean ====
/- What each case of the attention body leaves, as ONE pure term of the staged blocks (at any float instance).
   Every load and store of the body is of a whole block, so a store's payload read back is the payload, a load of a
   whole block is the block, and a load of the accumulator right after a whole store into it is that store's payload.
   Hence: after a first key block the accumulator is the body's arithmetic of (q, k, v) over the zero splat; after a later
   one, over what it held before; and at a last key block the output block is that same new accumulator. -/
import proofs.«106262_j50783693308389_2_alg».proof.Proof.IdealFrame.Attn
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-block access, as a function. -/
theorem zeroOff : (![0, 0] : Fin 2 → Nat) = fun _ => 0 := funext fun a => by fin_cases a <;> rfl

/-- First key block: the accumulator ends at this block's contribution added to zero. -/
theorem accA_eq (c : Dev nD) (i : grid1.Coords) (a2 : Memref sig .tc .vmem S512x2048 .bf16) (h2 : a2.IsWhole) (a3 : Memref sig .tc .vmem S1024x2048 .bf16) (h3 : a3.IsWhole)
    (a4 : Memref sig .tc .vmem S1024x2048 .bf16) (h4 : a4.IsWhole) (a5 : Memref sig .tc .vmem S512x2048 .f32) (h5 : a5.IsWhole)
    (a6 : Memref sig .tc .vmem S512x2048 .f32) (h6 : a6.IsWhole) (hF : isFirst i) (hL : ¬isLast i)
    (x0 : Vec F S512x2048 .bf16) (x1 : Vec F S1024x2048 .bf16) (x2 : Vec F S1024x2048 .bf16) :
    accA c i a2 h2 a3 h3 a4 h4 a5 h5 a6 h6 hF hL x0 x1 x2 = k1_pay2 x0 x1 x2 (k1_pay1 (F := F)) := by
  unfold accA
  rw [View.read_writes_eq_canon _ _ _ (accCoverA c i a2 h2 a3 h3 a4 h4 a5 h5 a6 h6 hF hL x0 x1 x2)]
  unfold attnRunA
  dsimp only
  sl_unfold_words
  rw [View.canon_cons_unit_zero zeroOff]
  simp only [View.readAt_eq_ld, h2.read_unread, h3.read_unread, h4.read_unread, h6.read_unread,
    View.ld_unit_zero (S := S512x2048) zeroOff, View.ld_unit_zero (S := S1024x2048) zeroOff, View.readCov_unit_zero (S := S512x2048) a6.view zeroOff]

/-- Middle key block: the accumulator gains this block's contribution. -/
theorem accB_eq (c : Dev nD) (i : grid1.Coords) (a2 : Memref sig .tc .vmem S512x2048 .bf16) (h2 : a2.IsWhole) (a3 : Memref sig .tc .vmem S1024x2048 .bf16) (h3 : a3.IsWhole)
    (a4 : Memref sig .tc .vmem S1024x2048 .bf16) (h4 : a4.IsWhole) (a5 : Memref sig .tc .vmem S512x2048 .f32) (h5 : a5.IsWhole)
    (a6 : Memref sig .tc .vmem S512x2048 .f32) (h6 : a6.IsWhole) (hF : ¬isFirst i) (hL : ¬isLast i)
    (x0 : Vec F S512x2048 .bf16) (x1 : Vec F S1024x2048 .bf16) (x2 : Vec F S1024x2048 .bf16) (xs : Vec F S512x2048 .f32) :
    accB c i a2 h2 a3 h3 a4 h4 a5 h5 a6 h6 hF hL x0 x1 x2 xs = k1_pay2 x0 x1 x2 xs := by
  unfold accB
  rw [View.read_writes_eq_canon _ _ _ (accCoverB c i a2 h2 a3 h3 a4 h4 a5 h5 a6 h6 hF hL x0 x1 x2 xs)]
  unfold attnRunB
  dsimp only
  sl_unfold_words
  rw [View.canon_unit_zero zeroOff]
  simp only [View.readAt_eq_ld, h2.read_unread, h3.read_unread, h4.read_unread, h6.read_unread,
    View.ld_unit_zero (S := S512x2048) zeroOff, View.ld_unit_zero (S := S1024x2048) zeroOff]

/-- Last key block: the accumulator gains this block's contribution, -/
theorem accC_eq (c : Dev nD) (i : grid1.Coords) (a2 : Memref sig .tc .vmem S512x2048 .bf16) (h2 : a2.IsWhole) (a3 : Memref sig .tc .vmem S1024x2048 .bf16) (h3 : a3.IsWhole)
    (a4 : Memref sig .tc .vmem S1024x2048 .bf16) (h4 : a4.IsWhole) (a5 : Memref sig .tc .vmem S512x2048 .f32) (h5 : a5.IsWhole)
    (a6 : Memref sig .tc .vmem S512x2048 .f32) (h6 : a6.IsWhole) (hF : ¬isFirst i) (hL : isLast i)
    (x0 : Vec F S512x2048 .bf16) (x1 : Vec F S1024x2048 .bf16) (x2 : Vec F S1024x2048 .bf16) (xs : Vec F S512x2048 .f32) :
    accC c i a2 h2 a3 h3 a4 h4 a5 h5 a6 h6 hF hL x0 x1 x2 xs = k1_pay2 x0 x1 x2 xs := by
  unfold accC
  rw [View.read_writes_eq_canon _ _ _ (accCoverC c i a2 h2 a3 h3 a4 h4 a5 h5 a6 h6 hF hL x0 x1 x2 xs)]
  unfold attnRunC
  dsimp only
  sl_unfold_words
  rw [View.canon_unit_zero zeroOff]
  simp only [View.readAt_eq_ld, h2.read_unread, h3.read_unread, h4.read_unread, h6.read_unread,
    View.ld_unit_zero (S := S512x2048) zeroOff, View.ld_unit_zero (S := S1024x2048) zeroOff]

/-- and the output block is the accumulator as it then stands. -/
theorem outC_eq (c : Dev nD) (i : grid1.Coords) (a2 : Memref sig .tc .vmem S512x2048 .bf16) (h2 : a2.IsWhole) (a3 : Memref sig .tc .vmem S1024x2048 .bf16) (h3 : a3.IsWhole)
    (a4 : Memref sig .tc .vmem S1024x2048 .bf16) (h4 : a4.IsWhole) (a5 : Memref sig .tc .vmem S512x2048 .f32) (h5 : a5.IsWhole)
    (a6 : Memref sig .tc .vmem S512x2048 .f32) (h6 : a6.IsWhole) (hF : ¬isFirst i) (hL : isLast i)
    (x0 : Vec F S512x2048 .bf16) (x1 : Vec F S1024x2048 .bf16) (x2 : Vec F S1024x2048 .bf16) (xs : Vec F S512x2048 .f32) :
    outC c i a2 h2 a3 h3 a4 h4 a5 h5 a6 h6 hF hL x0 x1 x2 xs = k1_pay2 x0 x1 x2 xs := by
  unfold outC
  rw [View.read_writes_eq_canon _ _ _ (outCoverC c i a2 h2 a3 h3 a4 h4 a5 h5 a6 h6 hF hL x0 x1 x2 xs)]
  unfold attnRunC
  dsimp only
  sl_unfold_words
  rw [View.canon_unit_zero zeroOff]
  simp only [View.readAt_eq_ld, h2.read_unread, h3.read_unread, h4.read_unread, h6.read_unread,
    View.ld_unit_zero (S := S512x2048) zeroOff, View.ld_unit_zero (S := S1024x2048) zeroOff, View.readCov_unit_zero (S := S512x2048) a6.view zeroOff]

end Cert.KernelIdeal.Fr

end
-- ==== Proof.AttnSpec.lean ====
import Mathlib.Algebra.BigOperators.Fin
import Mathlib.Logic.Equiv.Fin.Basic
import Idealize.ShloMosaic.PureOps.Ideal

/-!
The specification of the computation, as functions on extended reals, and the algebraic law
that the blocked, pre-scaled evaluation equals the plain one when every input is a real number.

Inputs: `x : [4096,2048]`, three weight matrices `W : [2048,2048]`, three bias vectors
`b : [2048]`. A projection is `proj x W b p e = (∑ d, x p d * W e d) + b e`.
The plain value is `∑ n, ((∑ d, q p d * k n d) * c) * v n e`; the blocked value scales `q`
by `c` first and adds four partial sums over blocks of 1024 rows `n`.
On the extended reals multiplication does not distribute over sums in general
(an infinity times a sum of mixed signs), so the law needs every entry to be real.
-/

noncomputable section

namespace Cert.AttnSpec

open Idealize.ShloMosaic

/-- The scaling constant both programs use: the extended real the f32 word denotes. -/
def cK : EReal := Ideal.ofBits .f32 0x3CB504F3#32

/-- The word is a normal number's pattern (its exponent field is neither all ones nor zero),
    so the constant is a real number. -/
theorem cK_real : ∃ r : ℝ, cK = (r : EReal) := by
  unfold cK
  simp [Ideal.ofBits, Ideal.ieee, -EReal.coe_mul]

def proj (x : Fin 4096 → Fin 2048 → EReal) (W : Fin 2048 → Fin 2048 → EReal) (b : Fin 2048 → EReal)
    (p : Fin 4096) (e : Fin 2048) : EReal :=
  (∑ d : Fin 2048, x p d * W e d) + b e

def refOut (c : EReal) (x : Fin 4096 → Fin 2048 → EReal)
    (Wq : Fin 2048 → Fin 2048 → EReal) (bq : Fin 2048 → EReal)
    (Wk : Fin 2048 → Fin 2048 → EReal) (bk : Fin 2048 → EReal)
    (Wv : Fin 2048 → Fin 2048 → EReal) (bv : Fin 2048 → EReal)
    (p : Fin 4096) (e : Fin 2048) : EReal :=
  ∑ n : Fin 4096, ((∑ d : Fin 2048, proj x Wq bq p d * proj x Wk bk n d) * c) * proj x Wv bv n e

def row (j : Fin 4) (r : Fin 1024) : Fin 4096 := ⟨1024 * j.val + r.val, by omega⟩

def blockSum (c : EReal) (x : Fin 4096 → Fin 2048 → EReal)
    (Wq : Fin 2048 → Fin 2048 → EReal) (bq : Fin 2048 → EReal)
    (Wk : Fin 2048 → Fin 2048 → EReal) (bk : Fin 2048 → EReal)
    (Wv : Fin 2048 → Fin 2048 → EReal) (bv : Fin 2048 → EReal)
    (j : Fin 4) (p : Fin 4096) (e : Fin 2048) : EReal :=
  ∑ r : Fin 1024, (∑ d : Fin 2048, (proj x Wq bq p d * c) * proj x Wk bk (row j r) d)
    * proj x Wv bv (row j r) e

def kerOut (c : EReal) (x : Fin 4096 → Fin 2048 → EReal)
    (Wq : Fin 2048 → Fin 2048 → EReal) (bq : Fin 2048 → EReal)
    (Wk : Fin 2048 → Fin 2048 → EReal) (bk : Fin 2048 → EReal)
    (Wv : Fin 2048 → Fin 2048 → EReal) (bv : Fin 2048 → EReal)
    (p : Fin 4096) (e : Fin 2048) : EReal :=
  ((((0 : EReal) + blockSum c x Wq bq Wk bk Wv bv 0 p e) + blockSum c x Wq bq Wk bk Wv bv 1 p e)
    + blockSum c x Wq bq Wk bk Wv bv 2 p e) + blockSum c x Wq bq Wk bk Wv bv 3 p e

/-! ### Real numbers inside the extended reals -/

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real entries is real. -/
theorem real_sum {ι : Type} [Fintype ι] (a : ι → EReal) (h : ∀ i, ∃ r : ℝ, a i = (r : EReal)) :
    ∃ r : ℝ, ∑ i, a i = (r : EReal) := by
  choose f hf using h
  exact ⟨∑ i, f i, by rw [coe_sum]; exact Finset.sum_congr rfl fun i _ => hf i⟩

theorem real_mul {a b : EReal} (ha : ∃ r : ℝ, a = (r : EReal)) (hb : ∃ r : ℝ, b = (r : EReal)) :
    ∃ r : ℝ, a * b = (r : EReal) := by
  obtain ⟨r, rfl⟩ := ha
  obtain ⟨s, rfl⟩ := hb
  exact ⟨r * s, (EReal.coe_mul r s).symm⟩

theorem real_add {a b : EReal} (ha : ∃ r : ℝ, a = (r : EReal)) (hb : ∃ r : ℝ, b = (r : EReal)) :
    ∃ r : ℝ, a + b = (r : EReal) := by
  obtain ⟨r, rfl⟩ := ha
  obtain ⟨s, rfl⟩ := hb
  exact ⟨r + s, (EReal.coe_add r s).symm⟩

/-- A common real factor comes out of a finite sum of real entries. -/
theorem sum_mul_real {ι : Type} [Fintype ι] (a : ι → EReal) (c : EReal)
    (h : ∀ i, ∃ r : ℝ, a i = (r : EReal)) (hc : ∃ r : ℝ, c = (r : EReal)) :
    ∑ i, a i * c = (∑ i, a i) * c := by
  choose f hf using h
  obtain ⟨t, rfl⟩ := hc
  have h1 : ∀ i, a i * (t : EReal) = ((f i * t : ℝ) : EReal) := fun i => by
    rw [hf i, EReal.coe_mul]
  have h2 : ∑ i, a i = ((∑ i, f i : ℝ) : EReal) := by
    rw [coe_sum]; exact Finset.sum_congr rfl fun i _ => hf i
  rw [h2, ← EReal.coe_mul, Finset.sum_mul, coe_sum]
  exact Finset.sum_congr rfl fun i _ => h1 i

/-- A projection of real inputs is real. -/
theorem proj_real (x : Fin 4096 → Fin 2048 → EReal) (W : Fin 2048 → Fin 2048 → EReal)
    (b : Fin 2048 → EReal) (hx : ∀ p d, ∃ r : ℝ, x p d = (r : EReal))
    (hW : ∀ e d, ∃ r : ℝ, W e d = (r : EReal)) (hb : ∀ e, ∃ r : ℝ, b e = (r : EReal))
    (p : Fin 4096) (e : Fin 2048) : ∃ r : ℝ, proj x W b p e = (r : EReal) :=
  real_add (real_sum _ fun d => real_mul (hx p d) (hW e d)) (hb e)

/-! ### A sum over 4096 rows is four sums over blocks of 1024 rows -/

theorem sum_blocks {M : Type} [AddCommMonoid M] (f : Fin 4096 → M) :
    ∑ n : Fin 4096, f n
      = ((((0 : M) + ∑ r : Fin 1024, f (row 0 r)) + ∑ r : Fin 1024, f (row 1 r))
          + ∑ r : Fin 1024, f (row 2 r)) + ∑ r : Fin 1024, f (row 3 r) := by
  have h : ∀ (j : Fin 4) (r : Fin 1024),
      (finProdFinEquiv : Fin 4 × Fin 1024 ≃ Fin 4096) (j, r) = row j r := by
    intro j r
    apply Fin.ext
    show r.val + 1024 * j.val = 1024 * j.val + r.val
    omega
  rw [← Equiv.sum_comp (finProdFinEquiv : Fin 4 × Fin 1024 ≃ Fin 4096) f, Fintype.sum_prod_type,
    Fin.sum_univ_four]
  simp only [h, zero_add]

/-! ### The law -/

theorem kerOut_eq_refOut (c : EReal) (hc : ∃ r : ℝ, c = (r : EReal))
    (x : Fin 4096 → Fin 2048 → EReal)
    (Wq : Fin 2048 → Fin 2048 → EReal) (bq : Fin 2048 → EReal)
    (Wk : Fin 2048 → Fin 2048 → EReal) (bk : Fin 2048 → EReal)
    (Wv : Fin 2048 → Fin 2048 → EReal) (bv : Fin 2048 → EReal)
    (hx : ∀ p d, ∃ r : ℝ, x p d = (r : EReal))
    (hWq : ∀ e d, ∃ r : ℝ, Wq e d = (r : EReal)) (hbq : ∀ e, ∃ r : ℝ, bq e = (r : EReal))
    (hWk : ∀ e d, ∃ r : ℝ, Wk e d = (r : EReal)) (hbk : ∀ e, ∃ r : ℝ, bk e = (r : EReal))
    (hWv : ∀ e d, ∃ r : ℝ, Wv e d = (r : EReal)) (hbv : ∀ e, ∃ r : ℝ, bv e = (r : EReal)) :
    kerOut c x Wq bq Wk bk Wv bv = refOut c x Wq bq Wk bk Wv bv := by
  funext p e
  -- the scale moves out of the inner sum, every entry being real
  have key : ∀ n : Fin 4096,
      ∑ d : Fin 2048, (proj x Wq bq p d * c) * proj x Wk bk n d
        = (∑ d : Fin 2048, proj x Wq bq p d * proj x Wk bk n d) * c := by
    intro n
    rw [← sum_mul_real _ c (fun d => real_mul (proj_real x Wq bq hx hWq hbq p d)
      (proj_real x Wk bk hx hWk hbk n d)) hc]
    exact Finset.sum_congr rfl fun d _ => mul_right_comm _ _ _
  unfold kerOut refOut blockSum
  rw [sum_blocks (fun n : Fin 4096 =>
    ((∑ d : Fin 2048, proj x Wq bq p d * proj x Wk bk n d) * c) * proj x Wv bv n e)]
  simp only [key]

end Cert.AttnSpec

end
-- ==== Proof.AttnValue.lean ====
import proofs.«106262_j50783693308389_2_alg».proof.Proof.IdealFrame.Attn
import proofs.«106262_j50783693308389_2_alg».proof.Proof.IdealFrame.AttnPieces
import proofs.«106262_j50783693308389_2_alg».proof.Proof.KernelPayloads
import proofs.«106262_j50783693308389_2_alg».proof.Proof.AttnSpec
import Idealize.ShloMosaic.Lib.Pipeline.Value
import Idealize.ShloMosaic.Lib.ValueIdx

/-!
The second kernel region's output array after the region, as one function of the three arrays it reads,
at the exact (extended-real) values and at any contents `V` of the buffers when the region is entered.

The grid is 8 x 4; point t = 4 i + j stages query rows [512 i, 512 i + 512) and key / value rows
[1024 j, 1024 j + 1024). Over the four points of a grid row the accumulator runs through
0 + S 0, (0 + S 0) + S 1, …, where S j is key block j's contribution
∑ n, (∑ d, q (p, d) * k (n, d)) * v (n, e) over the block's rows n; the point j = 3 copies the
accumulator to the output block, which is written back to rows [512 i, 512 i + 512) of the output array.
Those eight blocks tile the array, so entry (p, e) of the array ends at (((0 + S 0) + S 1) + S 2) + S 3.
-/

set_option maxRecDepth 16384

noncomputable section

namespace Cert.KernelIdeal.Val1

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## Where the staged blocks sit in their arrays -/

/-- The printed index maps over the grid: at point t = 4 i + j the query and output windows are at block row i,
    the key and value windows at block row j, all at block column 0. -/
theorem idx_facts : ∀ t : Fin cfg1.N,
    win1_0.index t (0 : Fin 2) = t.val / 4 ∧ win1_0.index t (1 : Fin 2) = 0
    ∧ win1_1.index t (0 : Fin 2) = t.val % 4 ∧ win1_1.index t (1 : Fin 2) = 0
    ∧ win1_2.index t (0 : Fin 2) = t.val % 4 ∧ win1_2.index t (1 : Fin 2) = 0
    ∧ win1_3.index t (0 : Fin 2) = t.val / 4 ∧ win1_3.index t (1 : Fin 2) = 0 :=
  (by decide +kernel : ∀ t : Fin grid1.N, _)

theorem N32 : cfg1.N = 32 := N_1

/-- The array row that row r of the query (and output) block at point n is. -/
def qrow (n : ℕ) (hn : n < cfg1.N) (r : Fin 512) : Fin 4096 :=
  ⟨512 * (n / 4) + r.val, by have := N32; have := r.isLt; omega⟩

/-- The array row that row r of the key (and value) block at point n is: row r of key block n % 4. -/
abbrev krow (n : ℕ) (hn : n < cfg1.N) (r : Fin 1024) : Fin 4096 :=
  Cert.AttnSpec.row ⟨n % 4, Nat.mod_lt _ (by decide)⟩ r

/-- The query block at point t, entry (r, d), is the query array's entry (512 (t / 4) + r, d). -/
theorem blk_q (c : Dev nD) (t : Fin cfg1.N) (r : Fin 512) (d : Fin 2048) :
    (blk1 V c 0 t : Vec Ideal S512x2048 .bf16) (ix2 r d) = V c main_v7_0 (ix2 (qrow t.val t.isLt r) d) := by
  obtain ⟨e0, e1, -⟩ := idx_facts t
  unfold blk1
  rw [View.read_apply]
  show V c main_v7_0 (((cfg1.win 0).blk t).view.emb (ix2 r d)) = V c main_v7_0 (ix2 (qrow t.val t.isLt r) d)
  refine congrArg (V c main_v7_0) (funext fun a => Fin.ext ?_)
  match a with
  | ⟨0, _⟩ => show win1_0.index t (0 : Fin 2) * 512 + 1 * r.val = 512 * (t.val / 4) + r.val; rw [e0]; omega
  | ⟨1, _⟩ => show win1_0.index t (1 : Fin 2) * 2048 + 1 * d.val = d.val; rw [e1]; omega

/-- The key block at point t, entry (n, d), is the key array's entry (1024 (t % 4) + n, d). -/
theorem blk_k (c : Dev nD) (t : Fin cfg1.N) (n : Fin 1024) (d : Fin 2048) :
    (blk1 V c 1 t : Vec Ideal S1024x2048 .bf16) (ix2 n d) = V c main_v7_1 (ix2 (krow t.val t.isLt n) d) := by
  obtain ⟨-, -, e0, e1, -⟩ := idx_facts t
  unfold blk1
  rw [View.read_apply]
  show V c main_v7_1 (((cfg1.win 1).blk t).view.emb (ix2 n d)) = V c main_v7_1 (ix2 (krow t.val t.isLt n) d)
  refine congrArg (V c main_v7_1) (funext fun a => Fin.ext ?_)
  match a with
  | ⟨0, _⟩ => show win1_1.index t (0 : Fin 2) * 1024 + 1 * n.val = 1024 * (t.val % 4) + n.val; rw [e0]; omega
  | ⟨1, _⟩ => show win1_1.index t (1 : Fin 2) * 2048 + 1 * d.val = d.val; rw [e1]; omega

/-- The value block at point t, entry (n, e), is the value array's entry (1024 (t % 4) + n, e). -/
theorem blk_v (c : Dev nD) (t : Fin cfg1.N) (n : Fin 1024) (e : Fin 2048) :
    (blk1 V c 2 t : Vec Ideal S1024x2048 .bf16) (ix2 n e) = V c main_v7_2 (ix2 (krow t.val t.isLt n) e) := by
  obtain ⟨-, -, -, -, e0, e1, -⟩ := idx_facts t
  unfold blk1
  rw [View.read_apply]
  show V c main_v7_2 (((cfg1.win 2).blk t).view.emb (ix2 n e)) = V c main_v7_2 (ix2 (krow t.val t.isLt n) e)
  refine congrArg (V c main_v7_2) (funext fun a => Fin.ext ?_)
  match a with
  | ⟨0, _⟩ => show win1_2.index t (0 : Fin 2) * 1024 + 1 * n.val = 1024 * (t.val % 4) + n.val; rw [e0]; omega
  | ⟨1, _⟩ => show win1_2.index t (1 : Fin 2) * 2048 + 1 * e.val = e.val; rw [e1]; omega

/-! ## The accumulator in closed form -/

/-- The three arrays the region reads, as functions from the array index to the extended reals. -/
abbrev qA (c : Dev nD) : S4096x2048.Idx → EReal := V c main_v7_0
abbrev kA (c : Dev nD) : S4096x2048.Idx → EReal := V c main_v7_1
abbrev vA (c : Dev nD) : S4096x2048.Idx → EReal := V c main_v7_2

/-- Key block j's contribution to entry (p, e) of the result: the sum over the block's 1024 rows n of
    (∑ d, q (p, d) * k (n, d)) * v (n, e). -/
def S (c : Dev nD) (p : Fin 4096) (e : Fin 2048) (j : Fin 4) : EReal :=
  ∑ r : Fin 1024, (∑ d : Fin 2048, qA V c (ix2 p d) * kA V c (ix2 (Cert.AttnSpec.row j r) d))
    * vA V c (ix2 (Cert.AttnSpec.row j r) e)

/-- The running sum after key block k, from zero, in block order. -/
def partialSum (c : Dev nD) (p : Fin 4096) (e : Fin 2048) : ℕ → EReal
  | 0 => (0 : EReal) + S V c p e 0
  | k + 1 => partialSum c p e k + S V c p e ⟨(k + 1) % 4, Nat.mod_lt _ (by decide)⟩

/-- What one body adds at point t, at row r of the query block: key block t % 4's contribution to array row 512 (t / 4) + r. -/
theorem contrib_eq (c : Dev nD) (t : Fin cfg1.N) (r : Fin 512) (e : Fin 2048)
    (q : Vec Ideal S512x2048 .bf16) (k v : Vec Ideal S1024x2048 .bf16)
    (hq : q = blk1 V c 0 t) (hk : k = blk1 V c 1 t) (hv : v = blk1 V c 2 t) :
    (∑ m : Fin 1024, (∑ d : Fin 2048, q (ix2 r d) * k (ix2 m d)) * v (ix2 m e))
      = S V c (qrow t.val t.isLt r) e ⟨t.val % 4, Nat.mod_lt _ (by decide)⟩ := by
  subst hq hk hv
  unfold S
  refine Finset.sum_congr rfl fun m _ => ?_
  refine congrArg₂ (· * ·) (Finset.sum_congr rfl fun d _ => ?_) (blk_v V c t m e)
  exact congrArg₂ (· * ·) (blk_q V c t r d) (blk_k V c t m d)

/-- At a first key block the accumulator is zero plus that block's contribution. -/
theorem acc_first (c : Dev nD) (n : ℕ) (hn : n < cfg1.N) (h0 : n % 4 = 0) (r : Fin 512) (e : Fin 2048) :
    (accAt V c n hn : Vec Ideal S512x2048 .f32) (ix2 r e) = (0 : EReal) + S V c (qrow n hn r) e 0 := by
  have hF : isFirst (grid1.coords ⟨n, hn⟩) := (isFirst_iff ⟨n, hn⟩).mpr h0
  have hL : ¬isLast (grid1.coords ⟨n, hn⟩) := fun h => by
    have h3 : n % 4 = 3 := (isLast_iff ⟨n, hn⟩).mp h
    omega
  refine (congrFun (accAt_first V c ⟨n, hn⟩ h0 hF hL) (ix2 r e)).trans ?_
  rw [accA_eq]
  refine (Pay.pay_acc _ _ _ _ r e).trans ?_
  refine (congrArg₂ (· + ·) (Pay.pay_zero r e) (contrib_eq V c ⟨n, hn⟩ r e _ _ _ rfl rfl rfl)).trans ?_
  exact congrArg (fun j => (0 : EReal) + S V c (qrow n hn r) e j) (Fin.ext h0)

/-- At a later key block it is what the point before left plus this block's contribution. -/
theorem acc_succ (c : Dev nD) (n : ℕ) (hn : n + 1 < cfg1.N) (h0 : ¬(n + 1) % 4 = 0) (r : Fin 512) (e : Fin 2048) :
    (accAt V c (n + 1) hn : Vec Ideal S512x2048 .f32) (ix2 r e)
      = (accAt V c n (Nat.lt_of_succ_lt hn) : Vec Ideal S512x2048 .f32) (ix2 r e)
        + S V c (qrow (n + 1) hn r) e ⟨(n + 1) % 4, Nat.mod_lt _ (by decide)⟩ := by
  have hF : ¬isFirst (grid1.coords ⟨n + 1, hn⟩) := fun h => h0 ((isFirst_iff ⟨n + 1, hn⟩).mp h)
  by_cases h1 : (n + 1) % 4 = 3
  · have hL : isLast (grid1.coords ⟨n + 1, hn⟩) := (isLast_iff ⟨n + 1, hn⟩).mpr h1
    refine (congrFun (accAt_last V c ⟨n + 1, hn⟩ h0 h1 hF hL) (ix2 r e)).trans ?_
    rw [accC_eq]
    refine (Pay.pay_acc _ _ _ _ r e).trans ?_
    exact congrArg₂ (· + ·) rfl (contrib_eq V c ⟨n + 1, hn⟩ r e _ _ _ rfl rfl rfl)
  · have hL : ¬isLast (grid1.coords ⟨n + 1, hn⟩) := fun h => h1 ((isLast_iff ⟨n + 1, hn⟩).mp h)
    refine (congrFun (accAt_mid V c ⟨n + 1, hn⟩ h0 h1 hF hL) (ix2 r e)).trans ?_
    rw [accB_eq]
    refine (Pay.pay_acc _ _ _ _ r e).trans ?_
    exact congrArg₂ (· + ·) rfl (contrib_eq V c ⟨n + 1, hn⟩ r e _ _ _ rfl rfl rfl)

/-- The accumulator after point n, at row r of the query block: the running sum through key block n % 4
    for array row 512 (n / 4) + r. -/
theorem acc_closed (c : Dev nD) : ∀ (n : ℕ) (hn : n < cfg1.N) (r : Fin 512) (e : Fin 2048),
    (accAt V c n hn : Vec Ideal S512x2048 .f32) (ix2 r e) = partialSum V c (qrow n hn r) e (n % 4)
  | 0, hn, r, e => (acc_first V c 0 hn rfl r e).trans rfl
  | n + 1, hn, r, e => by
    by_cases h0 : (n + 1) % 4 = 0
    · rw [acc_first V c (n + 1) hn h0 r e, h0]
      rfl
    · rw [acc_succ V c n hn h0 r e, acc_closed c n (Nat.lt_of_succ_lt hn) r e]
      have hq : qrow n (Nat.lt_of_succ_lt hn) r = qrow (n + 1) hn r := Fin.ext (by
        show 512 * (n / 4) + r.val = 512 * ((n + 1) / 4) + r.val
        omega)
      have hm : (n + 1) % 4 = n % 4 + 1 := by omega
      rw [hq]
      have e1 : partialSum V c (qrow (n + 1) hn r) e ((n + 1) % 4)
          = partialSum V c (qrow (n + 1) hn r) e (n % 4)
            + S V c (qrow (n + 1) hn r) e ⟨(n % 4 + 1) % 4, Nat.mod_lt _ (by decide)⟩ := by
        rw [hm]; rfl
      rw [e1]
      refine congrArg (fun j => _ + S V c (qrow (n + 1) hn r) e j) (Fin.ext ?_)
      show (n + 1) % 4 = (n % 4 + 1) % 4
      omega

/-! ## The output array -/

/-- Entry (p, e) of the result: the four key blocks' contributions added to zero in block order. -/
def outPE (c : Dev nD) (p : Fin 4096) (e : Fin 2048) : EReal :=
  ((((0 : EReal) + S V c p e 0) + S V c p e 1) + S V c p e 2) + S V c p e 3

/-- The result array as one function of the array index. -/
def outG (c : Dev nD) : S4096x2048.Idx → EReal :=
  fun i => outPE V c ⟨(i 0).val, idx2_lt0 i⟩ ⟨(i 1).val, idx2_lt1 i⟩

/-- The output block after a last key block, at row r: the full sum for array row 512 (t / 4) + r. -/
theorem out_closed (c : Dev nD) (t : Fin cfg1.N) (h3 : t.val % 4 = 3) (r : Fin 512) (e : Fin 2048) :
    (outAt V c t : Vec Ideal S512x2048 .f32) (ix2 r e) = outPE V c (qrow t.val t.isLt r) e := by
  have h0 : ¬t.val % 4 = 0 := by omega
  have hF : ¬isFirst (grid1.coords t) := fun h => h0 ((isFirst_iff t).mp h)
  have hL : isLast (grid1.coords t) := (isLast_iff t).mpr h3
  have e1 : outAt V c t = accAt V c t.val t.isLt := by
    rw [outAt_last V c t h3 hF hL, accAt_last V c t h0 h3 hF hL, outC_eq, accC_eq]
  rw [e1, acc_closed V c t.val t.isLt r e, h3]
  rfl

/-- What a last key block's point writes back is its block of the result array. -/
theorem flushed_eq (c : Dev nD) (t : Fin cfg1.N) (hf : (cfg1.win 3).flush t = true) :
    (dat1 V c).flushed 3 t = ((cfg1.win 3).blk t).view.read (Elt Ideal) (outG V c) := by
  have h3 : t.val % 4 = 3 := (flush1_3 t).mp hf
  obtain ⟨-, -, -, -, -, -, e0, e1⟩ := idx_facts t
  show (cfg1.win 3).cut (grid1.coords t) ((dat1 V c).after 3 t) = _
  rw [after1_3]
  funext y
  rw [View.read_apply]
  obtain ⟨r, e, rfl⟩ : ∃ (r : Fin 512) (e : Fin 2048), y = ix2 r e := ⟨y 0, y 1, eq_ix2 y⟩
  show (outAt V c t : Vec Ideal S512x2048 .f32) (ix2 r e) = outG V c (((cfg1.win 3).blk t).view.emb (ix2 r e))
  rw [out_closed V c t h3 r e]
  unfold outG
  refine congrArg₂ (outPE V c) (Fin.ext ?_) (Fin.ext ?_)
  · show 512 * (t.val / 4) + r.val = win1_3.index t (0 : Fin 2) * 512 + 1 * r.val
    rw [e0]; omega
  · show e.val = win1_3.index t (1 : Fin 2) * 2048 + 1 * e.val
    rw [e1]; omega

/-- An index of the array is in point t's output block iff each coordinate is in the block's range on its axis. -/
theorem mem_blk (t : Fin cfg1.N) (i : S4096x2048.Idx) :
    i ∈ ((cfg1.win 3).blk t).view.set ↔ ∀ a : Fin 2, win1_3.index t a * S512x2048.size a ≤ (i a).val ∧ (i a).val < win1_3.index t a * S512x2048.size a + S512x2048.size a := by
  show i ∈ ((View.whole main_v8).slice (win1_3.rect t)).set ↔ _
  rw [View.set_slice_whole, Rect.mem_set_unit]
  exact Iff.rfl

/-- Every index of the array is in the block of a point that writes back: row p is in block row p / 512, whose last key block's point is 4 (p / 512) + 3. -/
theorem cover (i : S4096x2048.Idx) :
    ∃ t : Fin cfg1.N, (cfg1.win 3).flush t = true ∧ i ∈ ((cfg1.win 3).blk t).view.set := by
  have hi0 : (i 0).val < 4096 := idx2_lt0 i
  have hi1 : (i 1).val < 2048 := idx2_lt1 i
  have hN : cfg1.N = 32 := N32
  have hlt : 4 * ((i 0).val / 512) + 3 < cfg1.N := by omega
  obtain ⟨-, -, -, -, -, -, e0, e1⟩ := idx_facts ⟨4 * ((i 0).val / 512) + 3, hlt⟩
  refine ⟨⟨4 * ((i 0).val / 512) + 3, hlt⟩, (flush1_3 _).mpr (by show (4 * ((i 0).val / 512) + 3) % 4 = 3; omega), ?_⟩
  rw [mem_blk]
  intro a
  match a with
  | ⟨0, _⟩ =>
    show win1_3.index ⟨4 * ((i 0).val / 512) + 3, hlt⟩ (0 : Fin 2) * 512 ≤ (i 0).val ∧ (i 0).val < win1_3.index ⟨4 * ((i 0).val / 512) + 3, hlt⟩ (0 : Fin 2) * 512 + 512
    rw [e0]
    show (4 * ((i 0).val / 512) + 3) / 4 * 512 ≤ (i 0).val ∧ (i 0).val < (4 * ((i 0).val / 512) + 3) / 4 * 512 + 512
    omega
  | ⟨1, _⟩ =>
    show win1_3.index ⟨4 * ((i 0).val / 512) + 3, hlt⟩ (1 : Fin 2) * 2048 ≤ (i 1).val ∧ (i 1).val < win1_3.index ⟨4 * ((i 0).val / 512) + 3, hlt⟩ (1 : Fin 2) * 2048 + 2048
    rw [e1]; omega

/-- The output array after the region is the result array. -/
theorem final (c : Dev nD) : (dat1 V c).arrAt 3 cfg1.N = outG V c :=
  (dat1 V c).arrAt_eq_of_cover 3 (outG V c) (flushed_eq V c) cover

/-- Entry (p, e) of the output array after the region: the four key blocks' contributions, each the sum over the
    block's rows n of (∑ d, q (p, d) * k (n, d)) * v (n, e), added to zero in block order. -/
theorem out_final (c : Dev nD) (p : Fin 4096) (e : Fin 2048) :
    ((dat1 V c).arrAt 3 cfg1.N : S4096x2048.Idx → EReal) (ix2 p e)
      = ((((0 : EReal) + S V c p e 0) + S V c p e 1) + S V c p e 2) + S V c p e 3 := by
  rw [final]
  rfl

end Cert.KernelIdeal.Val1

end
-- ==== Proof.KernelValue.lean ====
/- The idealized kernel's result array, entry by entry, in terms of the argument arrays.
   The second region's output at (p, e) is the accumulated sum over four key blocks of (q'(p,·)·k(n,·)) v(n,e), where q', k, v
   are what the first region left: q'(p,d) = ((Σ x(p,·) Wq(d,·)) + bq(d))·c and k, v the plain projections. The first
   region read x, the weights and the bias rows from buffers the host prefix wrote: format changes, which are the
   identity on extended reals, and reshapes of the bias vectors to rows. Substituting gives the kernel-shaped
   specification `kerOut`. No finiteness is needed for this: it is all structure. -/
import proofs.«106262_j50783693308389_2_alg».proof.Proof.IdealFrame.Run
import proofs.«106262_j50783693308389_2_alg».proof.Proof.QkvValue
import proofs.«106262_j50783693308389_2_alg».proof.Proof.AttnValue
import proofs.«106262_j50783693308389_2_alg».proof.Proof.KernelPayloads
import proofs.«106262_j50783693308389_2_alg».proof.Proof.AttnSpec

noncomputable section

namespace Cert.KernelIdeal.Val

open Cert.KernelIdeal Cert.KernelIdeal.Gen Cert.KernelIdeal.Fr Cert.KernelIdeal.Pay Cert.AttnSpec
open Idealize.ShloMosaic Idealize.ShloMosaic.TcCoe Idealize.ShloMosaic.ValueIdx Idealize.SL.Sem

variable (m : (ℓ : Loc nD τ sig) → Buf (Elt Ideal) ℓ)

/-! ## What the first region read: the arguments, through the host prefix -/

theorem x_entry (c : Dev nD) (p : Fin 4096) (d : Fin 2048) : E1 m c main_v0 (ix2 p d) = m ((c.tc : Thread nD τ).loc main_arg0) (ix2 p d) := host_v0 (V0 m c) p d
theorem wq_entry (c : Dev nD) (e d : Fin 2048) : E1 m c main_v1 (ix2 e d) = m ((c.tc : Thread nD τ).loc main_arg1) (ix2 e d) := host_v1 (V0 m c) e d
theorem wk_entry (c : Dev nD) (e d : Fin 2048) : E1 m c main_v2 (ix2 e d) = m ((c.tc : Thread nD τ).loc main_arg3) (ix2 e d) := host_v2 (V0 m c) e d
theorem wv_entry (c : Dev nD) (e d : Fin 2048) : E1 m c main_v3 (ix2 e d) = m ((c.tc : Thread nD τ).loc main_arg5) (ix2 e d) := host_v3 (V0 m c) e d
theorem bq_entry (c : Dev nD) (e : Fin 2048) : E1 m c main_v4 (ix2 0 e) = m ((c.tc : Thread nD τ).loc main_arg2) (ix1 e) := host_v4 (V0 m c) e
theorem bk_entry (c : Dev nD) (e : Fin 2048) : E1 m c main_v5 (ix2 0 e) = m ((c.tc : Thread nD τ).loc main_arg4) (ix1 e) := host_v5 (V0 m c) e
theorem bv_entry (c : Dev nD) (e : Fin 2048) : E1 m c main_v6 (ix2 0 e) = m ((c.tc : Thread nD τ).loc main_arg6) (ix1 e) := host_v6 (V0 m c) e

/-! ## What the second region read: the three projections -/

/-- The scaled query projection, as the second region finds it. -/
theorem q_entry (c : Dev nD) (p : Fin 4096) (d : Fin 2048) :
    E2 m c main_v7_0 (ix2 p d) = proj (fun p d => m ((c.tc : Thread nD τ).loc main_arg0) (ix2 p d)) (fun e d => m ((c.tc : Thread nD τ).loc main_arg1) (ix2 e d)) (fun e => m ((c.tc : Thread nD τ).loc main_arg2) (ix1 e)) p d * cK := by
  have h : E2 m c main_v7_0 = (dat0 (F := Ideal) (E1 m) c).arrAt 7 cfg0.N := W2_arr m c 7
  rw [h, Cert.KernelIdeal.Val0.q_final, Cert.KernelIdeal.Val0.projEntry_def]
  unfold proj
  refine congrArg (fun a : EReal => a * cK) ?_
  refine congrArg₂ (fun a b : EReal => a + b) (Finset.sum_congr rfl fun d' _ => ?_) (bq_entry m c d)
  exact congrArg₂ (fun a b : EReal => a * b) (x_entry m c p d') (wq_entry m c d d')

theorem k_entry (c : Dev nD) (n : Fin 4096) (d : Fin 2048) :
    E2 m c main_v7_1 (ix2 n d) = proj (fun p d => m ((c.tc : Thread nD τ).loc main_arg0) (ix2 p d)) (fun e d => m ((c.tc : Thread nD τ).loc main_arg3) (ix2 e d)) (fun e => m ((c.tc : Thread nD τ).loc main_arg4) (ix1 e)) n d := by
  have h : E2 m c main_v7_1 = (dat0 (F := Ideal) (E1 m) c).arrAt 8 cfg0.N := W2_arr m c 8
  rw [h, Cert.KernelIdeal.Val0.k_final, Cert.KernelIdeal.Val0.projEntry_def]
  unfold proj
  refine congrArg₂ (fun a b : EReal => a + b) (Finset.sum_congr rfl fun d' _ => ?_) (bk_entry m c d)
  exact congrArg₂ (fun a b : EReal => a * b) (x_entry m c n d') (wk_entry m c d d')

theorem v_entry (c : Dev nD) (n : Fin 4096) (e : Fin 2048) :
    E2 m c main_v7_2 (ix2 n e) = proj (fun p d => m ((c.tc : Thread nD τ).loc main_arg0) (ix2 p d)) (fun e d => m ((c.tc : Thread nD τ).loc main_arg5) (ix2 e d)) (fun e => m ((c.tc : Thread nD τ).loc main_arg6) (ix1 e)) n e := by
  have h : E2 m c main_v7_2 = (dat0 (F := Ideal) (E1 m) c).arrAt 9 cfg0.N := W2_arr m c 9
  rw [h, Cert.KernelIdeal.Val0.v_final, Cert.KernelIdeal.Val0.projEntry_def]
  unfold proj
  refine congrArg₂ (fun a b : EReal => a + b) (Finset.sum_congr rfl fun d' _ => ?_) (bv_entry m c e)
  exact congrArg₂ (fun a b : EReal => a * b) (x_entry m c n d') (wv_entry m c e d')

/-! ## The result -/

/-- One key block's contribution, as the second region computes it from what it finds, is the specification's. -/
theorem block_entry (c : Dev nD) (p : Fin 4096) (e : Fin 2048) (j : Fin 4) :
    Cert.KernelIdeal.Val1.S (E2 m) c p e j = blockSum cK (fun p d => m ((c.tc : Thread nD τ).loc main_arg0) (ix2 p d)) (fun e d => m ((c.tc : Thread nD τ).loc main_arg1) (ix2 e d)) (fun e => m ((c.tc : Thread nD τ).loc main_arg2) (ix1 e)) (fun e d => m ((c.tc : Thread nD τ).loc main_arg3) (ix2 e d)) (fun e => m ((c.tc : Thread nD τ).loc main_arg4) (ix1 e)) (fun e d => m ((c.tc : Thread nD τ).loc main_arg5) (ix2 e d)) (fun e => m ((c.tc : Thread nD τ).loc main_arg6) (ix1 e)) j p e := by
  unfold Cert.KernelIdeal.Val1.S blockSum
  refine Finset.sum_congr rfl fun r _ => ?_
  refine congrArg₂ (fun a b : EReal => a * b) (Finset.sum_congr rfl fun d _ => ?_) (v_entry m c (row j r) e)
  exact congrArg₂ (fun a b : EReal => a * b) (q_entry m c p d) (k_entry m c (row j r) d)

/-- The result array at (p, e) is the kernel-shaped specification of the argument arrays. -/
theorem result_entry (c : Dev nD) (p : Fin 4096) (e : Fin 2048) :
    ((dat1 (F := Ideal) (E2 m) c).arrAt 3 cfg1.N : S4096x2048.Idx → EReal) (ix2 p e)
      = kerOut cK (fun p d => m ((c.tc : Thread nD τ).loc main_arg0) (ix2 p d)) (fun e d => m ((c.tc : Thread nD τ).loc main_arg1) (ix2 e d)) (fun e => m ((c.tc : Thread nD τ).loc main_arg2) (ix1 e)) (fun e d => m ((c.tc : Thread nD τ).loc main_arg3) (ix2 e d)) (fun e => m ((c.tc : Thread nD τ).loc main_arg4) (ix1 e)) (fun e d => m ((c.tc : Thread nD τ).loc main_arg5) (ix2 e d)) (fun e => m ((c.tc : Thread nD τ).loc main_arg6) (ix1 e)) p e := by
  rw [Cert.KernelIdeal.Val1.out_final]
  unfold kerOut
  rw [block_entry m c p e 0, block_entry m c p e 1, block_entry m c p e 2, block_entry m c p e 3]

end Cert.KernelIdeal.Val

end
-- ==== Proof.RefValue.lean ====
import proofs.«106262_j50783693308389_2_alg».proof.Proof.Gen.ReferenceIdeal.Read
import proofs.«106262_j50783693308389_2_alg».proof.Proof.AttnSpec

/-!
The reference program's result, read at an entry `(p, e)`, is the plain value of the specification:
three projections `q, k, v` (a product with a transposed weight matrix plus a bias row broadcast
down the rows), the scores `q kᵀ` scaled by the constant, and their product with `v`.
-/

noncomputable section

namespace Cert.ReferenceIdeal.RefValue

open Cert.ReferenceIdeal Cert.ReferenceIdeal.Read Idealize.ShloMosaic Idealize.ShloMosaic.ValueIdx
open Cert.AttnSpec (proj refOut cK)

/-- The first projection at an entry: `(∑ d, x (p,d) * W (e,d)) + b e`. -/
theorem q_apply (x0 : (⟨S4096x2048, .f32⟩ : BufTy).Contents (Elt Ideal))
    (x1 : (⟨S2048x2048, .f32⟩ : BufTy).Contents (Elt Ideal))
    (x2 : (⟨S2048, .f32⟩ : BufTy).Contents (Elt Ideal)) (p : Fin 4096) (e : Fin 2048) :
    val_main_v4 (F := Ideal) x0 x1 x2 (ix2 p e)
      = proj (fun p d => x0 (ix2 p d)) (fun e d => x1 (ix2 e d)) (fun e => x2 (ix1 e)) p e := by
  rw [val_main_v4_apply, val_main_v1_apply, val_main_v3_apply, val_main_v2_apply]
  have eb : idx_main_v2 (idx_main_v3 (ix2 p e)) = ix1 e :=
    funext fun a => match a with | ⟨0, _⟩ => rfl
  rw [eb]
  unfold proj
  rw [Ideal.addf_def]
  congr 1
  refine Finset.sum_congr rfl fun d _ => ?_
  have el : lidx_main_v1 (ix2 p e) d = ix2 p d :=
    funext fun a => match a with | ⟨0, _⟩ => rfl | ⟨1, _⟩ => rfl
  have er : idx_main_v0 (ridx_main_v1 (ix2 p e) d) = ix2 e d :=
    funext fun a => match a with | ⟨0, _⟩ => rfl | ⟨1, _⟩ => rfl
  rw [val_main_v0_apply, el, er]

/-- The second projection at an entry. -/
theorem k_apply (x0 : (⟨S4096x2048, .f32⟩ : BufTy).Contents (Elt Ideal))
    (x3 : (⟨S2048x2048, .f32⟩ : BufTy).Contents (Elt Ideal))
    (x4 : (⟨S2048, .f32⟩ : BufTy).Contents (Elt Ideal)) (p : Fin 4096) (e : Fin 2048) :
    val_main_v9 (F := Ideal) x0 x3 x4 (ix2 p e)
      = proj (fun p d => x0 (ix2 p d)) (fun e d => x3 (ix2 e d)) (fun e => x4 (ix1 e)) p e := by
  rw [val_main_v9_apply, val_main_v6_apply, val_main_v8_apply, val_main_v7_apply]
  have eb : idx_main_v7 (idx_main_v8 (ix2 p e)) = ix1 e :=
    funext fun a => match a with | ⟨0, _⟩ => rfl
  rw [eb]
  unfold proj
  rw [Ideal.addf_def]
  congr 1
  refine Finset.sum_congr rfl fun d _ => ?_
  have el : lidx_main_v6 (ix2 p e) d = ix2 p d :=
    funext fun a => match a with | ⟨0, _⟩ => rfl | ⟨1, _⟩ => rfl
  have er : idx_main_v5 (ridx_main_v6 (ix2 p e) d) = ix2 e d :=
    funext fun a => match a with | ⟨0, _⟩ => rfl | ⟨1, _⟩ => rfl
  rw [val_main_v5_apply, el, er]

/-- The third projection at an entry. -/
theorem v_apply (x0 : (⟨S4096x2048, .f32⟩ : BufTy).Contents (Elt Ideal))
    (x5 : (⟨S2048x2048, .f32⟩ : BufTy).Contents (Elt Ideal))
    (x6 : (⟨S2048, .f32⟩ : BufTy).Contents (Elt Ideal)) (p : Fin 4096) (e : Fin 2048) :
    val_main_v14 (F := Ideal) x0 x5 x6 (ix2 p e)
      = proj (fun p d => x0 (ix2 p d)) (fun e d => x5 (ix2 e d)) (fun e => x6 (ix1 e)) p e := by
  rw [val_main_v14_apply, val_main_v11_apply, val_main_v13_apply, val_main_v12_apply]
  have eb : idx_main_v12 (idx_main_v13 (ix2 p e)) = ix1 e :=
    funext fun a => match a with | ⟨0, _⟩ => rfl
  rw [eb]
  unfold proj
  rw [Ideal.addf_def]
  congr 1
  refine Finset.sum_congr rfl fun d _ => ?_
  have el : lidx_main_v11 (ix2 p e) d = ix2 p d :=
    funext fun a => match a with | ⟨0, _⟩ => rfl | ⟨1, _⟩ => rfl
  have er : idx_main_v10 (ridx_main_v11 (ix2 p e) d) = ix2 e d :=
    funext fun a => match a with | ⟨0, _⟩ => rfl | ⟨1, _⟩ => rfl
  rw [val_main_v10_apply, el, er]

/-- The scaled scores at an entry `(p, n)`: `(∑ d, q (p,d) * k (n,d)) * c`. -/
theorem scores_apply (x0 : (⟨S4096x2048, .f32⟩ : BufTy).Contents (Elt Ideal))
    (x1 : (⟨S2048x2048, .f32⟩ : BufTy).Contents (Elt Ideal))
    (x2 : (⟨S2048, .f32⟩ : BufTy).Contents (Elt Ideal))
    (x3 : (⟨S2048x2048, .f32⟩ : BufTy).Contents (Elt Ideal))
    (x4 : (⟨S2048, .f32⟩ : BufTy).Contents (Elt Ideal)) (p n : Fin 4096) :
    val_main_v18 (F := Ideal) x0 x1 x2 x3 x4 (ix2 p n)
      = (∑ d : Fin 2048,
          proj (fun p d => x0 (ix2 p d)) (fun e d => x1 (ix2 e d)) (fun e => x2 (ix1 e)) p d
          * proj (fun p d => x0 (ix2 p d)) (fun e d => x3 (ix2 e d)) (fun e => x4 (ix1 e)) n d) * cK := by
  rw [val_main_v18_apply, val_main_v17_apply, val_main_cst_apply, val_main_v16_apply,
    Ideal.mulf_def, Ideal.ofBits_def]
  unfold cK
  congr 1
  refine Finset.sum_congr rfl fun d _ => ?_
  have el : lidx_main_v16 (ix2 p n) d = ix2 p d :=
    funext fun a => match a with | ⟨0, _⟩ => rfl | ⟨1, _⟩ => rfl
  have er : idx_main_v15 (ridx_main_v16 (ix2 p n) d) = ix2 n d :=
    funext fun a => match a with | ⟨0, _⟩ => rfl | ⟨1, _⟩ => rfl
  rw [val_main_v15_apply, el, er, q_apply, k_apply]

/-- The reference's result at an entry is the specification's plain value. -/
theorem ref_is_spec (x0 : (⟨S4096x2048, .f32⟩ : BufTy).Contents (Elt Ideal))
    (x1 : (⟨S2048x2048, .f32⟩ : BufTy).Contents (Elt Ideal))
    (x2 : (⟨S2048, .f32⟩ : BufTy).Contents (Elt Ideal))
    (x3 : (⟨S2048x2048, .f32⟩ : BufTy).Contents (Elt Ideal))
    (x4 : (⟨S2048, .f32⟩ : BufTy).Contents (Elt Ideal))
    (x5 : (⟨S2048x2048, .f32⟩ : BufTy).Contents (Elt Ideal))
    (x6 : (⟨S2048, .f32⟩ : BufTy).Contents (Elt Ideal)) (p : Fin 4096) (e : Fin 2048) :
    val_main_v19 (F := Ideal) x0 x1 x2 x3 x4 x5 x6 (ix2 p e)
      = refOut cK (fun p d => x0 (ix2 p d)) (fun e d => x1 (ix2 e d)) (fun e => x2 (ix1 e))
          (fun e d => x3 (ix2 e d)) (fun e => x4 (ix1 e)) (fun e d => x5 (ix2 e d))
          (fun e => x6 (ix1 e)) p e := by
  rw [val_main_v19_apply]
  unfold refOut
  refine Finset.sum_congr rfl fun n _ => ?_
  have el : lidx_main_v19 (ix2 p e) n = ix2 p n :=
    funext fun a => match a with | ⟨0, _⟩ => rfl | ⟨1, _⟩ => rfl
  have er : ridx_main_v19 (ix2 p e) n = ix2 n e :=
    funext fun a => match a with | ⟨0, _⟩ => rfl | ⟨1, _⟩ => rfl
  rw [el, er, scores_apply, v_apply]

end Cert.ReferenceIdeal.RefValue

end
-- ==== Proof.FiniteInputs.lean ====
import proofs.«106262_j50783693308389_2_alg».proof.Defs
import Idealize.ShloMosaic.Lib.ReduceAll
import Idealize.ShloMosaic.Lib.ValueIdx

/-!
From the precondition "every entry of every input has absolute value below +∞" to
"every entry of every input is a real number".
-/

noncomputable section

namespace Cert.Proof.Finite

open Idealize.ShloMosaic Idealize.ShloMosaic.ValueIdx Idealize.SL.Sem

instance : Subsingleton Cert.Pre_finite_inputs.S_.Idx := ⟨fun a b => funext fun d => d.elim0⟩

/-- An extended real whose absolute value `max x (-x)` is below the value of the f32 word of +∞ is a real number. -/
theorem real_of_abs_lt_inf (x : EReal)
    (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- One conjunct of the precondition: the conjunction over all entries of "`|x| < +∞`" gives that every entry is real. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (h : Host.reduce IntOp.andi
        (cmpf .olt (Host.absf x) (broadcastInDim s ![] hb (constant (F := Ideal) Cert.Pre_finite_inputs.S_ .f32 0x7F800000#32)))
        init hr hu ix0 = 1#1) (i : s.Idx) :
    ∃ r : ℝ, x i = (r : EReal) := by
  have hi := Host.reduce_andi_all _ init hr hu ix0 h i
  exact real_of_abs_lt_inf (x i) hi

theorem real_of_pre [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal)) := by
  have h := congrFun (hpre c) ix0
  dsimp only [Cert.Pre_finite_inputs.fn, Cert.Pre_finite_inputs.fn_part1] at h
  dsimp only [andi] at h
  simp only [IntOp.andi_eq_one] at h
  obtain ⟨⟨⟨⟨⟨⟨h0, h1⟩, h2⟩, h3⟩, h4⟩, h5⟩, h6⟩ := h
  exact ⟨real_of_all _ _ _ _ _ h0, real_of_all _ _ _ _ _ h1, real_of_all _ _ _ _ _ h2,
    real_of_all _ _ _ _ _ h3, real_of_all _ _ _ _ _ h4, real_of_all _ _ _ _ _ h5,
    real_of_all _ _ _ _ _ h6⟩

end Cert.Proof.Finite

end
-- ==== Proof.Bridge.lean ====
/- The two idealized programs compute one function of the argument arrays.
   Entry (p, e) of the reference's result is  Σ_n ((Σ_d q(p,d) k(n,d)) · c) · v(n,e)  with q, k, v the three linear
   projections; entry (p, e) of the kernel's result is the same sum taken key block by key block with the constant c
   folded into q before the inner contraction. The two agree because every input entry is a real number (the
   certificate's precondition), so every intermediate is real and a constant factor moves across a finite sum. -/
import proofs.«106262_j50783693308389_2_alg».proof.Proof.KernelValue
import proofs.«106262_j50783693308389_2_alg».proof.Proof.RefValue
import proofs.«106262_j50783693308389_2_alg».proof.Proof.FiniteInputs

noncomputable section

namespace Cert.Proof.Bridge

open Idealize.ShloMosaic Idealize.ShloMosaic.TcCoe Idealize.ShloMosaic.ValueIdx Idealize.SL.Sem

/-- Under the precondition, the reference's result (as a function of the kernel's argument arrays) is the array the
    idealized kernel's second region leaves. -/
theorem ref_eq_kernel [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.Read.val_main_v19 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      = (Cert.KernelIdeal.Fr.dat1 (F := Ideal) (Cert.KernelIdeal.Fr.E2 m) c).arrAt 3 Cert.KernelIdeal.cfg1.N := by
  funext i
  obtain ⟨p, e, rfl⟩ : ∃ (p : Fin 4096) (e : Fin 2048), i = ix2 p e := ⟨i 0, i 1, eq_ix2 i⟩
  obtain ⟨h0, h1, h2, h3, h4, h5, h6⟩ := Cert.Proof.Finite.real_of_pre m hpre c
  rw [Cert.ReferenceIdeal.RefValue.ref_is_spec]
  refine Eq.trans ?_ (Cert.KernelIdeal.Val.result_entry m c p e).symm
  exact (congrFun (congrFun (Cert.AttnSpec.kerOut_eq_refOut Cert.AttnSpec.cK Cert.AttnSpec.cK_real _ _ _ _ _ _ _
    (fun p d => h0 (ix2 p d)) (fun e d => h1 (ix2 e d)) (fun e => h2 (ix1 e)) (fun e d => h3 (ix2 e d))
    (fun e => h4 (ix1 e)) (fun e d => h5 (ix2 e d)) (fun e => h6 (ix1 e))) p) e).symm

end Cert.Proof.Bridge

end
-- ==== Proof.lean ====
/- The proof of `Cert.Claim`: three frames, the (empty) ledger of the idealization, and the equality of the two
   idealized programs' results.
   The kernel program is a stretch of host operations and two kernel regions: three linear projections of the rows of
   x (the query one scaled by a constant), then, per block of 512 query rows, the sum over four blocks of 1024 key rows
   of (scores of the block) times (values of the block), kept in an accumulator that is zeroed at the first key block
   and copied out at the last. Its frame — every execution terminates, nothing faults, the arguments end as launched —
   is proved once for any float instance (Proof/IdealFrame, and its copy at the word-level program's namespace,
   Proof/BitsFrame) from one record per region over the library's several-region run; the same run names the result
   array, from which its value is read (Proof/QkvValue, Proof/AttnValue, Proof/KernelValue). The reference's frame and
   value are its generated run, read one operation at a time (Proof/RefValue). The two values are one function of the
   arguments when every input entry is finite (Proof/AttnSpec, Proof/FiniteInputs, Proof/Bridge). -/
import proofs.«106262_j50783693308389_2_alg».proof.Defs
import proofs.«106262_j50783693308389_2_alg».proof.Proof.Gen.Kernel
import proofs.«106262_j50783693308389_2_alg».proof.Proof.Gen.KernelIdeal
import proofs.«106262_j50783693308389_2_alg».proof.Proof.Gen.ReferenceIdeal
import proofs.«106262_j50783693308389_2_alg».proof.Proof.Gen.Pre_finite_inputs
import proofs.«106262_j50783693308389_2_alg».proof.Proof.Gen.ReferenceIdeal.Run
import proofs.«106262_j50783693308389_2_alg».proof.Proof.BitsFrame.Run
import proofs.«106262_j50783693308389_2_alg».proof.Proof.IdealFrame.Run
import proofs.«106262_j50783693308389_2_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel (hKernel := Cert.Kernel.Gen.facts) (hPre_finite_inputs := Cert.Pre_finite_inputs.Gen.facts) :=
  fun m ρ _ => Cert.Kernel.Fr.frame m ρ

/-- So does the idealized kernel program. -/
theorem frame_kernelIdeal : Cert.frame_KernelIdeal (hKernelIdeal := Cert.KernelIdeal.Gen.facts) (hPre_finite_inputs := Cert.Pre_finite_inputs.Gen.facts) :=
  fun m ρ _ => Cert.KernelIdeal.Fr.frame m ρ

/-- The reference has no kernel: its frame is its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- From memories agreeing on the arguments both idealized programs run, and end with one result array: the kernel's
    run names it, the reference's run gives the composed term of the arguments, and under the precondition the two are
    equal entry by entry. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => (Cert.KernelIdeal.Fr.dat1 (F := Ideal) (Cert.KernelIdeal.Fr.E2 m) c).arrAt 3 Cert.KernelIdeal.cfg1.N,
    Cert.KernelIdeal.Fr.run_result (F := Ideal) m ρ, ?_⟩
  refine (θ_run Cert.ReferenceIdeal.defs _ _).mono (fun _ h c => ⟨?_, (h c).2⟩)
    (Cert.ReferenceIdeal.Value.run (F := Ideal) m' ρ')
  obtain ⟨a0, a1, a2, a3, a4, a5, a6⟩ := hagree c
  rw [(h c).1, Cert.ReferenceIdeal.Read.val_main_v19_eq, a0, a1, a2, a3, a4, a5, a6]
  exact Cert.Proof.Bridge.ref_eq_kernel (hP := Cert.Pre_finite_inputs.Gen.facts) m hpre c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
